-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x3x128 : Shape := ⟨3, ![20000, 3, 128]⟩
abbrev S20000x64 : Shape := ⟨2, ![20000, 64]⟩
abbrev S320000x64 : Shape := ⟨2, ![320000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S20000 : Shape := ⟨1, ![20000]⟩
abbrev S2x320000 : Shape := ⟨2, ![2, 320000]⟩
abbrev S_ : Shape := ⟨0, ![]⟩

class Facts : Prop where
  bcast_S_S20000x3x128 : S_.BroadcastsInDim S20000x3x128 (![] : Fin 0 → Fin S20000x3x128.rank)
  reducesTo_S20000x3x128_S_d0_1_2 : S20000x3x128.ReducesTo [0, 1, 2] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S320000x64 : S_.BroadcastsInDim S320000x64 (![] : Fin 0 → Fin S320000x64.rank)
  reducesTo_S320000x64_S_d0_1 : S320000x64.ReducesTo [0, 1] S_
  bcast_S_S384x64 : S_.BroadcastsInDim S384x64 (![] : Fin 0 → Fin S384x64.rank)
  reducesTo_S384x64_S_d0_1 : S384x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x1x128 : S_.BroadcastsInDim S1x1x128 (![] : Fin 0 → Fin S1x1x128.rank)
  reducesTo_S1x1x128_S_d0_1_2 : S1x1x128.ReducesTo [0, 1, 2] S_

variable [Facts]

def fn_part4 {F : FTy → Type} [FloatOps F] (main_arg14 : FVec F S1x1x128 .f32) (main_v63 : IVec S_ 1) (main_v67 : IVec S_ 1) : IVec S_ 1 :=
  let main_v68 : IVec S_ 1 := andi main_v63 main_v67
  let main_v69 : FVec F S1x1x128 .f32 := Host.absf main_arg14
  let main_cst_26 : FVec F S_ .f32 := constant S_ .f32 0x7F800000#32
  let main_v70 : FVec F S1x1x128 .f32 := broadcastInDim S1x1x128 ![] bcast_S_S1x1x128 main_cst_26
  let main_v71 : IVec S1x1x128 1 := cmpf .olt main_v69 main_v70
  let main_c_27 : IVec S_ 1 := constantI S_ 1 1#1
  let main_v72 : IVec S_ 1 := (fun x v => Host.reduce IntOp.andi x v reducesTo_S1x1x128_S_d0_1_2 h_S_) main_v71 main_c_27
  let main_v73 : IVec S_ 1 := andi main_v68 main_v72
  main_v73

def fn_part3 {F : FTy → Type} [FloatOps F] (main_arg11 : FVec F S128 .f32) (main_arg12 : FVec F S64 .f32) (main_arg13 : FVec F S64 .f32) (main_arg14 : FVec F S1x1x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_v63 main_v67

def fn_part2 {F : FTy → Type} [FloatOps F] (main_arg7 : FVec F S64 .f32) (main_arg8 : FVec F S64x64 .f32) (main_arg9 : FVec F S64 .f32) (main_arg10 : FVec F S64x128 .f32) (main_arg11 : FVec F S128 .f32) (main_arg12 : FVec F S64 .f32) (main_arg13 : FVec F S64 .f32) (main_arg14 : FVec F S1x1x128 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_v48 main_v49 main_v50

def fn_part1 {F : FTy → Type} [FloatOps F] (main_arg4 : FVec F S384x64 .f32) (main_arg5 : FVec F S64 .f32) (main_arg6 : FVec F S64x64 .f32) (main_arg7 : FVec F S64 .f32) (main_arg8 : FVec F S64x64 .f32) (main_arg9 : FVec F S64 .f32) (main_arg10 : FVec F S64x128 .f32) (main_arg11 : FVec F S128 .f32) (main_arg12 : FVec F S64 .f32) (main_arg13 : FVec F S64 .f32) (main_arg14 : FVec F S1x1x128 .f32) (main_v13 : IVec S_ 1) (main_v16 : IVec S320000x64 1) : IVec S_ 1 :=
  let main_c_5 : IVec S_ 1 := constantI S_ 1 1#1
  let main_v17 : IVec S_ 1 := (fun x v => Host.reduce IntOp.andi x v reducesTo_S320000x64_S_d0_1 h_S_) main_v16 main_c_5
  let main_v18 : IVec S_ 1 := andi main_v13 main_v17
  let main_v19 : FVec F S384x64 .f32 := Host.absf main_arg4
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S20000x3x128 .f32) (main_arg1 : FVec F S20000x64 .f32) (main_arg2 : FVec F S320000x64 .f32) (main_arg3 : FVec F S320000x64 .f32) (main_arg4 : FVec F S384x64 .f32) (main_arg5 : FVec F S64 .f32) (main_arg6 : FVec F S64x64 .f32) (main_arg7 : FVec F S64 .f32) (main_arg8 : FVec F S64x64 .f32) (main_arg9 : FVec F S64 .f32) (main_arg10 : FVec F S64x128 .f32) (main_arg11 : FVec F S128 .f32) (main_arg12 : FVec F S64 .f32) (main_arg13 : FVec F S64 .f32) (main_arg14 : FVec F S1x1x128 .f32) (main_arg15 : IVec S20000 32) (main_arg16 : IVec S2x320000 32) : IVec S_ 1 :=
  let main_v0 : FVec F S20000x3x128 .f32 := Host.absf main_arg0
  let main_cst : FVec F S_ .f32 := constant S_ .f32 0x7F800000#32
  let main_v1 : FVec F S20000x3x128 .f32 := broadcastInDim S20000x3x128 ![] bcast_S_S20000x3x128 main_cst
  let main_v2 : IVec S20000x3x128 1 := cmpf .olt main_v0 main_v1
  let main_c : IVec S_ 1 := constantI S_ 1 1#1
  let main_v3 : IVec S_ 1 := (fun x v => Host.reduce IntOp.andi x v reducesTo_S20000x3x128_S_d0_1_2 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S320000x64 .f32 := Host.absf main_arg2
  let main_cst_2 : FVec F S_ .f32 := constant S_ .f32 0x7F800000#32
  let main_v10 : FVec F S320000x64 .f32 := broadcastInDim S320000x64 ![] bcast_S_S320000x64 main_cst_2
  let main_v11 : IVec S320000x64 1 := cmpf .olt main_v9 main_v10
  let main_c_3 : IVec S_ 1 := constantI S_ 1 1#1
  let main_v12 : IVec S_ 1 := (fun x v => Host.reduce IntOp.andi x v reducesTo_S320000x64_S_d0_1 h_S_) main_v11 main_c_3
  let main_v13 : IVec S_ 1 := andi main_v8 main_v12
  let main_v14 : FVec F S320000x64 .f32 := Host.absf main_arg3
  let main_cst_4 : FVec F S_ .f32 := constant S_ .f32 0x7F800000#32
  let main_v15 : FVec F S320000x64 .f32 := broadcastInDim S320000x64 ![] bcast_S_S320000x64 main_cst_4
  let main_v16 : IVec S320000x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S20000x3x128 : Shape := ⟨3, ![20000, 3, 128]⟩
abbrev S20000x64 : Shape := ⟨2, ![20000, 64]⟩
abbrev S320000x64 : Shape := ⟨2, ![320000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S20000 : Shape := ⟨1, ![20000]⟩
abbrev S2x320000 : Shape := ⟨2, ![2, 320000]⟩
abbrev S1x320000 : Shape := ⟨2, ![1, 320000]⟩
abbrev S320000 : Shape := ⟨1, ![320000]⟩
abbrev S_ : Shape := ⟨0, ![]⟩
abbrev S64x3x128 : Shape := ⟨3, ![64, 3, 128]⟩
abbrev S20000x1 : Shape := ⟨2, ![20000, 1]⟩
abbrev S20000x1x1 : Shape := ⟨3, ![20000, 1, 1]⟩
abbrev S64x1x1 : Shape := ⟨3, ![64, 1, 1]⟩
abbrev S20000x128 : Shape := ⟨2, ![20000, 128]⟩
abbrev S20000x1x128 : Shape := ⟨3, ![20000, 1, 128]⟩
abbrev S64x1x128 : Shape := ⟨3, ![64, 1, 128]⟩
abbrev S1x64 : Shape := ⟨2, ![1, 64]⟩
abbrev S320000x1 : Shape := ⟨2, ![320000, 1]⟩
abbrev S320000x3x128 : Shape := ⟨3, ![320000, 3, 128]⟩
abbrev S1x128 : Shape := ⟨2, ![1, 128]⟩
abbrev S128x64 : Shape := ⟨2, ![128, 64]⟩
abbrev S1600x64 : Shape := ⟨2, ![1600, 64]⟩
abbrev S1600x3x128 : Shape := ⟨3, ![1600, 3, 128]⟩
abbrev S1600x128 : Shape := ⟨2, ![1600, 128]⟩
abbrev S1600x1x128 : Shape := ⟨3, ![1600, 1, 128]⟩

abbrev nBuf : Space → Nat
  | .hbm => 178
  | .vmem => 24
  | .smem => 0
  | _ => 0

abbrev hbmTy0_0 (i : Nat) : BufTy := match i % 128 with
  | 0 => ⟨S20000x3x128, .f32⟩
  | 1 => ⟨S20000x64, .f32⟩
  | 2 => ⟨S320000x64, .f32⟩
  | 3 => ⟨S320000x64, .f32⟩
  | 4 => ⟨S384x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x128, .f32⟩
  | 11 => ⟨S128, .f32⟩
  | 12 => ⟨S64, .f32⟩
  | 13 => ⟨S64, .f32⟩
  | 14 => ⟨S1x1x128, .f32⟩
  | 15 => ⟨S20000, .i32⟩
  | 16 => ⟨S2x320000, .i32⟩
  | 17 => ⟨S1x320000, .i32⟩
  | 18 => ⟨S320000, .i32⟩
  | 19 => ⟨S1x320000, .i32⟩
  | 20 => ⟨S320000, .i32⟩
  | 21 => ⟨S_, .f32⟩
  | 22 => ⟨S64x3x128, .f32⟩
  | 23 => ⟨S20000x1, .i32⟩
  | 24 => ⟨S64x3x128, .f32⟩
  | 25 => ⟨S_, .f32⟩
  | 26 => ⟨S20000x1x1, .f32⟩
  | 27 => ⟨S_, .f32⟩
  | 28 => ⟨S64x1x1, .f32⟩
  | 29 => ⟨S20000x1, .i32⟩
  | 30 => ⟨S64x1x1, .f32⟩
  | 31 => ⟨S_, .f32⟩
  | 32 => ⟨S64x1x1, .f32⟩
  | 33 => ⟨S64x1x1, .f32⟩
  | 34 => ⟨S64x3x128, .f32⟩
  | 35 => ⟨S64x3x128, .f32⟩
  | 36 => ⟨S_, .i32⟩
  | 37 => ⟨S20000, .i32⟩
  | 38 => ⟨S20000, .i1⟩
  | 39 => ⟨S_, .i32⟩
  | 40 => ⟨S20000, .i32⟩
  | 41 => ⟨S20000, .i32⟩
  | 42 => ⟨S20000, .i32⟩
  | 43 => ⟨S20000x1, .i32⟩
  | 44 => ⟨S20000x3x128, .f32⟩
  | 45 => ⟨S20000x3x128, .f32⟩
  | 46 => ⟨S20000x3x128, .f32⟩
  | 47 => ⟨S_, .f32⟩
  | 48 => ⟨S20000x128, .f32⟩
  | 49 => ⟨S20000x1x128, .f32⟩
  | 50 => ⟨S20000x1x128, .f32⟩
  | 51 => ⟨S_, .f32⟩
  | 52 => ⟨S64x1x128, .f32⟩
  | 53 => ⟨S20000x1, .i32⟩
  | 54 => ⟨S64x1x128, .f32⟩
  | 55 => ⟨S_, .f32⟩
  | 56 => ⟨S20000x1x1, .f32⟩
  | 57 => ⟨S_, .f32⟩
  | 58 => ⟨S64x1x1, .f32⟩
  | 59 => ⟨S20000x1, .i32⟩
  | 60 => ⟨S64x1x1, .f32⟩
  | 61 => ⟨S_, .f32⟩
  | 62 => ⟨S64x1x1, .f32⟩
  | 63 => ⟨S64x1x1, .f32⟩
  | 64 => ⟨S64x1x128, .f32⟩
  | 65 => ⟨S64x1x128, .f32⟩
  | 66 => ⟨S20000x3x128, .f32⟩
  | 67 => ⟨S20000x3x128, .f32⟩
  | 68 => ⟨S_, .i32⟩
  | 69 => ⟨S20000, .i32⟩
  | 70 => ⟨S20000, .i1⟩
  | 71 => ⟨S_, .i32⟩
  | 72 => ⟨S20000, .i32⟩
  | 73 => ⟨S20000, .i32⟩
  | 74 => ⟨S20000, .i32⟩
  | 75 => ⟨S20000x1, .i32⟩
  | 76 => ⟨S20000x1x128, .f32⟩
  | 77 => ⟨S_, .f32⟩
  | 78 => ⟨S20000x1x128, .f32⟩
  | 79 => ⟨S20000x1x128, .f32⟩
  | 80 => ⟨S20000x3x128, .f32⟩
  | 81 => ⟨S20000x3x128, .f32⟩
  | 82 => ⟨S_, .f32⟩
  | 83 => ⟨S20000, .f32⟩
  | 84 => ⟨S20000x1, .f32⟩
  | 85 => ⟨S_, .f32⟩
  | 86 => ⟨S20000x1, .f32⟩
  | 87 => ⟨S20000x1, .f32⟩
  | 88 => ⟨S_, .i32⟩
  | 89 => ⟨S_, .f32⟩
  | 90 => ⟨S20000, .f32⟩
  | 91 => ⟨S20000x1, .f32⟩
  | 92 => ⟨S_, .f32⟩
  | 93 => ⟨S20000x1, .f32⟩
  | 94 => ⟨S20000x1, .f32⟩
  | 95 => ⟨S20000x64, .f32⟩
  | 96 => ⟨S20000x64, .f32⟩
  | 97 => ⟨S20000x64, .f32⟩
  | 98 => ⟨S_, .f32⟩
  | 99 => ⟨S_, .f32⟩
  | 100 => ⟨S_, .f32⟩
  | 101 => ⟨S_, .f32⟩
  | 102 => ⟨S20000, .f32⟩
  | 103 => ⟨S20000x1, .f32⟩
  | 104 => ⟨S20000x1, .f32⟩
  | 105 => ⟨S20000x1, .f32⟩
  | 106 => ⟨S_, .f32⟩
  | 107 => ⟨S_, .i1⟩
  | 108 => ⟨S_, .f32⟩
  | 109 => ⟨S_, .f32⟩
  | 110 => ⟨S20000x1, .f32⟩
  | 111 => ⟨S20000x1, .f32⟩
  | 112 => ⟨S20000x64, .f32⟩
  | 113 => ⟨S20000x64, .f32⟩
  | 114 => ⟨S_, .f32⟩
  | 115 => ⟨S20000x1, .f32⟩
  | 116 => ⟨S20000x1, .f32⟩
  | 117 => ⟨S20000x1, .f32⟩
  | 118 => ⟨S20000x64, .f32⟩
  | 119 => ⟨S20000x64, .f32⟩
  | 120 => ⟨S1x64, .f32⟩
  | 121 => ⟨S20000x64, .f32⟩
  | 122 => ⟨S20000x64, .f32⟩
  | 123 => ⟨S1x64, .f32⟩
  | 124 => ⟨S20000x64, .f32⟩
  | 125 => ⟨S20000x64, .f32⟩
  | 126 => ⟨S_, .i32⟩
  | 127 => ⟨S320000, .i32⟩
  | _ => ⟨S20000x3x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x3x128, .f32⟩
  | 7 => ⟨S_, .i32⟩
  | 8 => ⟨S320000, .i32⟩
  | 9 => ⟨S320000, .i1⟩
  | 10 => ⟨S_, .i32⟩
  | 11 => ⟨S320000, .i32⟩
  | 12 => ⟨S320000, .i32⟩
  | 13 => ⟨S320000, .i32⟩
  | 14 => ⟨S320000x1, .i32⟩
  | 15 => ⟨S320000x3x128, .f32⟩
  | 16 => ⟨S320000x3x128, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x64, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x64, .f32⟩
  | 35 => ⟨S1x64, .f32⟩
  | 36 => ⟨S1x64, .f32⟩
  | 37 => ⟨S1x64, .f32⟩
  | 38 => ⟨S1x128, .f32⟩
  | 39 => ⟨S64x64, .f32⟩
  | 40 => ⟨S64x64, .f32⟩
  | 41 => ⟨S64x64, .f32⟩
  | 42 => ⟨S128x64, .f32⟩
  | 43 => ⟨S64x64, .f32⟩
  | 44 => ⟨S320000x3x128, .f32⟩
  | 45 => ⟨S_, .f32⟩
  | 46 => ⟨S20000x3x128, .f32⟩
  | 47 => ⟨S320000x1, .i32⟩
  | 48 => ⟨S20000x3x128, .f32⟩
  | 49 => ⟨S20000x3x128, .f32⟩
  | _ => ⟨S20000x3x128, .f32⟩

abbrev hbmTy (i : Nat) : BufTy := match i / 128 with
  | 0 => hbmTy0_0 i
  | 1 => hbmTy0_1 i
  | _ => ⟨S20000x3x128, .f32⟩

abbrev bufTy : (tb : Table) → Fin (tcTables nBuf tb) → BufTy
  | .hbm, ⟨i, _⟩ => hbmTy i
  | .local _ .vmem, ⟨0, _⟩ => ⟨S1600x64, .f32⟩
  | .local _ .vmem, ⟨1, _⟩ => ⟨S1600x64, .f32⟩
  | .local _ .vmem, ⟨2, _⟩ => ⟨S1600x64, .f32⟩
  | .local _ .vmem, ⟨3, _⟩ => ⟨S1600x64, .f32⟩
  | .local _ .vmem, ⟨4, _⟩ => ⟨S1600x64, .f32⟩
  | .local _ .vmem, ⟨5, _⟩ => ⟨S1600x64, .f32⟩
  | .local _ .vmem, ⟨6, _⟩ => ⟨S1600x64, .f32⟩
  | .local _ .vmem, ⟨7, _⟩ => ⟨S1600x64, .f32⟩
  | .local _ .vmem, ⟨8, _⟩ => ⟨S1600x3x128, .f32⟩
  | .local _ .vmem, ⟨9, _⟩ => ⟨S1600x3x128, .f32⟩
  | .local _ .vmem, ⟨10, _⟩ => ⟨S64x64, .f32⟩
  | .local _ .vmem, ⟨11, _⟩ => ⟨S64x64, .f32⟩
  | .local _ .vmem, ⟨12, _⟩ => ⟨S64x64, .f32⟩
  | .local _ .vmem, ⟨13, _⟩ => ⟨S128x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x128, .f32⟩
  | .local _ .vmem, ⟨21, _⟩ => ⟨S1x128, .f32⟩
  | .local _ .vmem, ⟨22, _⟩ => ⟨S1600x3x128, .f32⟩
  | .local _ .vmem, ⟨23, _⟩ => ⟨S1600x3x128, .f32⟩
  | _, _ => ⟨S20000x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_v0 : Ref sig .tc := ⟨.hbm, 46, rfl⟩
abbrev main_call0_cst : Ref sig .tc := ⟨.hbm, 47, rfl⟩
abbrev main_call0_v1 : Ref sig .tc := ⟨.hbm, 48, rfl⟩
abbrev main_call0_v2 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_c_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_10 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_v49 : Ref sig .tc := ⟨.hbm, 84, rfl⟩
abbrev main_cst_12 : Ref sig .tc := ⟨.hbm, 85, rfl⟩
abbrev main_v50 : Ref sig .tc := ⟨.hbm, 86, rfl⟩
abbrev main_v51 : Ref sig .tc := ⟨.hbm, 87, rfl⟩
abbrev main_c_13 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_cst_0 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_v7 : Ref sig .tc := ⟨.hbm, 98, rfl⟩
abbrev main_call1_cst_1 : Ref sig .tc := ⟨.hbm, 99, rfl⟩
abbrev main_call1_v8 : Ref sig .tc := ⟨.hbm, 100, rfl⟩
abbrev main_call1_cst_2 : Ref sig .tc := ⟨.hbm, 101, rfl⟩
abbrev main_call1_v9 : Ref sig .tc := ⟨.hbm, 102, rfl⟩
abbrev main_call1_v10 : Ref sig .tc := ⟨.hbm, 103, rfl⟩
abbrev main_call1_v11 : Ref sig .tc := ⟨.hbm, 104, rfl⟩
abbrev main_call1_v12 : Ref sig .tc := ⟨.hbm, 105, rfl⟩
abbrev main_call1_cst_3 : Ref sig .tc := ⟨.hbm, 106, rfl⟩
abbrev main_call1_v13 : Ref sig .tc := ⟨.hbm, 107, rfl⟩
abbrev main_call1_cst_4 : Ref sig .tc := ⟨.hbm, 108, rfl⟩
abbrev main_call1_call0_v0 : Ref sig .tc := ⟨.hbm, 109, rfl⟩
abbrev main_call1_call0_v1 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_14 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_c_15 : Ref sig .tc := ⟨.hbm, 126, rfl⟩
abbrev main_v66 : Ref sig .tc := ⟨.hbm, 127, rfl⟩
abbrev main_v67 : Ref sig .tc := ⟨.hbm, 128, rfl⟩
abbrev main_c_16 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_c_17 : Ref sig .tc := ⟨.hbm, 135, rfl⟩
abbrev main_v73 : Ref sig .tc := ⟨.hbm, 136, rfl⟩
abbrev main_v74 : Ref sig .tc := ⟨.hbm, 137, rfl⟩
abbrev main_c_18 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_c_19 : Ref sig .tc := ⟨.hbm, 145, rfl⟩
abbrev main_v81 : Ref sig .tc := ⟨.hbm, 146, rfl⟩
abbrev main_v82 : Ref sig .tc := ⟨.hbm, 147, rfl⟩
abbrev main_c_20 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_c_21 : Ref sig .tc := ⟨.hbm, 154, rfl⟩
abbrev main_v88 : Ref sig .tc := ⟨.hbm, 155, rfl⟩
abbrev main_v89 : Ref sig .tc := ⟨.hbm, 156, rfl⟩
abbrev main_c_22 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_cst_23 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1600x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1600x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1600x3x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S64x3x128 : S_.BroadcastsInDim S64x3x128 (![] : Fin 0 → Fin S64x3x128.rank)
  bcast_S20000_S20000x1_0 : S20000.BroadcastsInDim S20000x1 (![0] : Fin 1 → Fin S20000x1.rank)
  bcast_S_S20000x1x1 : S_.BroadcastsInDim S20000x1x1 (![] : Fin 0 → Fin S20000x1x1.rank)
  bcast_S_S64x1x1 : S_.BroadcastsInDim S64x1x1 (![] : Fin 0 → Fin S64x1x1.rank)
  bcast_S64x1x1_S64x3x128_0_1_2 : S64x1x1.BroadcastsInDim S64x3x128 (![0, 1, 2] : Fin 3 → Fin S64x3x128.rank)
  bcast_S_S20000 : S_.BroadcastsInDim S20000 (![] : Fin 0 → Fin S20000.rank)
  reducesTo_S20000x3x128_S20000x128_d1 : S20000x3x128.ReducesTo [1] S20000x128
  h_S_ : 0 < S_.numel
  bcast_S20000x128_S20000x1x128_0_2 : S20000x128.BroadcastsInDim S20000x1x128 (![0, 2] : Fin 2 → Fin S20000x1x128.rank)
  bcast_S_S64x1x128 : S_.BroadcastsInDim S64x1x128 (![] : Fin 0 → Fin S64x1x128.rank)
  bcast_S64x1x1_S64x1x128_0_1_2 : S64x1x1.BroadcastsInDim S64x1x128 (![0, 1, 2] : Fin 3 → Fin S64x1x128.rank)
  bcast_S1x1x128_S20000x3x128_0_1_2 : S1x1x128.BroadcastsInDim S20000x3x128 (![0, 1, 2] : Fin 3 → Fin S20000x3x128.rank)
  bcast_S_S20000x1x128 : S_.BroadcastsInDim S20000x1x128 (![] : Fin 0 → Fin S20000x1x128.rank)
  bcast_S20000x1x128_S20000x3x128_0_1_2 : S20000x1x128.BroadcastsInDim S20000x3x128 (![0, 1, 2] : Fin 3 → Fin S20000x3x128.rank)
  reducesTo_S20000x64_S20000_d1 : S20000x64.ReducesTo [1] S20000
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S320000 : S_.BroadcastsInDim S320000 (![] : Fin 0 → Fin S320000.rank)
  bcast_S320000_S320000x1_0 : S320000.BroadcastsInDim S320000x1 (![0] : Fin 1 → Fin S320000x1.rank)
  shapeCasts_S64_S1x64 : S64.ShapeCasts S1x64
  shapeCasts_S128_S1x128 : S128.ShapeCasts S1x128
  slices_S384x64_S64x64_0_0 : S384x64.Slices ![0, 0] S64x64
  slices_S384x64_S64x64_64_0 : S384x64.Slices ![64, 0] S64x64
  slices_S384x64_S64x64_128_0 : S384x64.Slices ![128, 0] S64x64
  slices_S384x64_S128x64_192_0 : S384x64.Slices ![192, 0] S128x64
  slices_S384x64_S64x64_320_0 : S384x64.Slices ![320, 0] S64x64
  inb_S1600x3x128_S1600x3x128_0_0_0 : ∀ a, (![0, 0, 0] : Fin 3 → Nat) a + S1600x3x128.size a ≤ S1600x3x128.size a
  h_S1600x3x128 : 0 < S1600x3x128.numel
  shapeCasts_S1600x3x128_S1600x3x128 : S1600x3x128.ShapeCasts S1600x3x128
  reduces_S1600x3x128_S1600x128 : S1600x3x128.Reduces [1] S1600x128
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1600x64 : S1x64.Broadcasts S1600x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  shapeCasts_S1600x128_S1600x1x128 : S1600x128.ShapeCasts S1600x1x128
  broadcasts_S1600x1x128_S1600x3x128 : S1600x1x128.Broadcasts S1600x3x128
  bcast_S_S20000x3x128 : S_.BroadcastsInDim S20000x3x128 (![] : Fin 0 → Fin S20000x3x128.rank)
  scatter_S64x3x128_S20000x1_S20000x3x128_12_0_0_1_wf : ScatterDims.WF S64x3x128 S20000x1 S20000x3x128 [1, 2] [0] [0] 1
  scatter_S64x1x1_S20000x1_S20000x1x1_12_0_0_1_wf : ScatterDims.WF S64x1x1 S20000x1 S20000x1x1 [1, 2] [0] [0] 1
  gather_S64x3x128_S20000x1_S20000x3x128_12_0_n_n_0_1_13128_wf : GatherDims.WF S64x3x128 S20000x1 S20000x3x128 [1, 2] [0] [] [0] [] 1 ![1, 3, 128]
  scatter_S64x1x128_S20000x1_S20000x1x128_12_0_0_1_wf : ScatterDims.WF S64x1x128 S20000x1 S20000x1x128 [1, 2] [0] [0] 1
  gather_S64x1x128_S20000x1_S20000x1x128_12_0_n_n_0_1_11128_wf : GatherDims.WF S64x1x128 S20000x1 S20000x1x128 [1, 2] [0] [] [0] [] 1 ![1, 1, 128]
  gather_S20000x3x128_S320000x1_S320000x3x128_12_0_n_n_0_1_13128_wf : GatherDims.WF S20000x3x128 S320000x1 S320000x3x128 [1, 2] [0] [] [0] [] 1 ![1, 3, 128]
  gather_S20000x64_S320000x1_S320000x64_1_0_n_n_0_1_164_wf : GatherDims.WF S20000x64 S320000x1 S320000x64 [1] [0] [] [0] [] 1 ![1, 64]
  dot_S1600x64_S64x64_S1600x64_1_0_0_1_n_n_wf : DotDims.WF S1600x64 S64x64 S1600x64 [1] [0] [0] [1] [] []
  dot_S1600x128_S128x64_S1600x64_1_0_0_1_n_n_wf : DotDims.WF S1600x128 S128x64 S1600x64 [1] [0] [0] [1] [] []
  dot_S1600x64_S64x128_S1600x128_1_0_0_1_n_n_wf : DotDims.WF S1600x64 S64x128 S1600x128 [1] [0] [0] [1] [] []
  scatter_S20000x3x128_S320000x1_S320000x3x128_12_0_0_1_wf : ScatterDims.WF S20000x3x128 S320000x1 S320000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x64.size a ≤ S320000x64.size a
  hwx0_0 : ∀ i : grid0.Coords, EltTy.bits .f32 = 32 ∨ (Rect.block (s := S320000x64) S1600x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x64.size a ≤ S320000x64.size a
  hwx0_1 : ∀ i : grid0.Coords, EltTy.bits .f32 = 32 ∨ (Rect.block (s := S320000x64) S1600x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x64.size a ≤ S320000x64.size a
  hwx0_2 : ∀ i : grid0.Coords, EltTy.bits .f32 = 32 ∨ (Rect.block (s := S320000x64) S1600x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x64.size a ≤ S320000x64.size a
  hwx0_3 : ∀ i : grid0.Coords, EltTy.bits .f32 = 32 ∨ (Rect.block (s := S320000x64) S1600x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1600x3x128.size a ≤ S320000x3x128.size a
  hwx0_4 : ∀ i : grid0.Coords, EltTy.bits .f32 = 32 ∨ (Rect.block (s := S320000x3x128) S1600x3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S128x64.size a
  hwx0_8 : ∀ i : grid0.Coords, EltTy.bits .f32 = 32 ∨ (Rect.block (s := S128x64) S128x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x64.size a ≤ S64x64.size a
  hwx0_13 : ∀ i : grid0.Coords, EltTy.bits .f32 = 32 ∨ (Rect.block (s := S64x64) S64x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x128.size a ≤ S64x128.size a
  hwx0_15 : ∀ i : grid0.Coords, EltTy.bits .f32 = 32 ∨ (Rect.block (s := S64x128) S64x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1600x3x128.size a ≤ S320000x3x128.size a
  hwx0_17 : ∀ i : grid0.Coords, EltTy.bits .f32 = 32 ∨ (Rect.block (s := S320000x3x128) S1600x3x128.size (cc0_transform_17 i) (hinb0_17 i)).WholeWords (EltTy.packing .f32)

variable [Facts₀]

def scatter_S64x3x128_S20000x1_S20000x3x128_12_0_0_1 : ScatterDims S64x3x128 S20000x1 S20000x3x128 where
  updateWindowDims := [1, 2]
  insertedWindowDims := [0]
  scatterDimsToOperandDims := [0]
  indexVectorDim := 1
  wf := scatter_S64x3x128_S20000x1_S20000x3x128_12_0_0_1_wf
def scatter_S64x1x1_S20000x1_S20000x1x1_12_0_0_1 : ScatterDims S64x1x1 S20000x1 S20000x1x1 where
  updateWindowDims := [1, 2]
  insertedWindowDims := [0]
  scatterDimsToOperandDims := [0]
  indexVectorDim := 1
  wf := scatter_S64x1x1_S20000x1_S20000x1x1_12_0_0_1_wf
def gather_S64x3x128_S20000x1_S20000x3x128_12_0_n_n_0_1_13128 : GatherDims S64x3x128 S20000x1 S20000x3x128 where
  offsetDims := [1, 2]
  collapsedSliceDims := [0]
  operandBatchingDims := []
  startIndicesBatchingDims := []
  startIndexMap := [0]
  indexVectorDim := 1
  sliceSizes := ![1, 3, 128]
  wf := gather_S64x3x128_S20000x1_S20000x3x128_12_0_n_n_0_1_13128_wf
def scatter_S64x1x128_S20000x1_S20000x1x128_12_0_0_1 : ScatterDims S64x1x128 S20000x1 S20000x1x128 where
  updateWindowDims := [1, 2]
  insertedWindowDims := [0]
  scatterDimsToOperandDims := [0]
  indexVectorDim := 1
  wf := scatter_S64x1x128_S20000x1_S20000x1x128_12_0_0_1_wf
def gather_S64x1x128_S20000x1_S20000x1x128_12_0_n_n_0_1_11128 : GatherDims S64x1x128 S20000x1 S20000x1x128 where
  offsetDims := [1, 2]
  collapsedSliceDims := [0]
  operandBatchingDims := []
  startIndicesBatchingDims := []
  startIndexMap := [0]
  indexVectorDim := 1
  sliceSizes := ![1, 1, 128]
  wf := gather_S64x1x128_S20000x1_S20000x1x128_12_0_n_n_0_1_11128_wf
def gather_S20000x3x128_S320000x1_S320000x3x128_12_0_n_n_0_1_13128 : GatherDims S20000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S20000x3x128_S320000x1_S320000x3x128_12_0_n_n_0_1_13128_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S1600x64_S64x64_S1600x64_1_0_0_1_n_n : DotDims S1600x64 S64x64 S1600x64 where
  lhsContracting := [1]
  rhsContracting := [0]
  lhsNonContracting := [0]
  rhsNonContracting := [1]
  lhsBatch := []
  rhsBatch := []
  wf := dot_S1600x64_S64x64_S1600x64_1_0_0_1_n_n_wf
def dot_S1600x128_S128x64_S1600x64_1_0_0_1_n_n : DotDims S1600x128 S128x64 S1600x64 where
  lhsContracting := [1]
  rhsContracting := [0]
  lhsNonContracting := [0]
  rhsNonContracting := [1]
  lhsBatch := []
  rhsBatch := []
  wf := dot_S1600x128_S128x64_S1600x64_1_0_0_1_n_n_wf
def dot_S1600x64_S64x128_S1600x128_1_0_0_1_n_n : DotDims S1600x64 S64x128 S1600x128 where
  lhsContracting := [1]
  rhsContracting := [0]
  lhsNonContracting := [0]
  rhsNonContracting := [1]
  lhsBatch := []
  rhsBatch := []
  wf := dot_S1600x64_S64x128_S1600x128_1_0_0_1_n_n_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf

abbrev win0_0 : Pipeline.Window sig grid0 :=
  Pipeline.Window.ofSpec (Memref.whole main_v87) S1600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v94) S1600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1600x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1600x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v80) S1600x3x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v99) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v100) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v101) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v102) S128x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v103) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v95) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v96) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg8) S64x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v97) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg10) S64x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v98) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v104) S1600x3x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S20000x3x128 : Shape := ⟨3, ![20000, 3, 128]⟩
abbrev S20000x64 : Shape := ⟨2, ![20000, 64]⟩
abbrev S320000x64 : Shape := ⟨2, ![320000, 64]⟩
abbrev S384x64 : Shape := ⟨2, ![384, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x1x128 : Shape := ⟨3, ![1, 1, 128]⟩
abbrev S20000 : Shape := ⟨1, ![20000]⟩
abbrev S2x320000 : Shape := ⟨2, ![2, 320000]⟩
abbrev S_ : Shape := ⟨0, ![]⟩
abbrev S64x3x128 : Shape := ⟨3, ![64, 3, 128]⟩
abbrev S20000x1 : Shape := ⟨2, ![20000, 1]⟩
abbrev S20000x1x1 : Shape := ⟨3, ![20000, 1, 1]⟩
abbrev S64x1x1 : Shape := ⟨3, ![64, 1, 1]⟩
abbrev S20000x128 : Shape := ⟨2, ![20000, 128]⟩
abbrev S20000x1x128 : Shape := ⟨3, ![20000, 1, 128]⟩
abbrev S64x1x128 : Shape := ⟨3, ![64, 1, 128]⟩
abbrev S1x320000 : Shape := ⟨2, ![1, 320000]⟩
abbrev S320000 : Shape := ⟨1, ![320000]⟩
abbrev S320000x1 : Shape := ⟨2, ![320000, 1]⟩
abbrev S320000x3x128 : Shape := ⟨3, ![320000, 3, 128]⟩
abbrev S320000x128 : Shape := ⟨2, ![320000, 128]⟩
abbrev S1x64 : Shape := ⟨2, ![1, 64]⟩
abbrev S320000x384 : Shape := ⟨2, ![320000, 384]⟩
abbrev S1x128 : Shape := ⟨2, ![1, 128]⟩
abbrev S320000x1x128 : Shape := ⟨3, ![320000, 1, 128]⟩

abbrev nBuf : Space → Nat
  | .hbm => 227
  | .vmem => 0
  | .smem => 0
  | _ => 0

abbrev hbmTy0_0 (i : Nat) : BufTy := match i % 128 with
  | 0 => ⟨S20000x3x128, .f32⟩
  | 1 => ⟨S20000x64, .f32⟩
  | 2 => ⟨S320000x64, .f32⟩
  | 3 => ⟨S320000x64, .f32⟩
  | 4 => ⟨S384x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x128, .f32⟩
  | 11 => ⟨S128, .f32⟩
  | 12 => ⟨S64, .f32⟩
  | 13 => ⟨S64, .f32⟩
  | 14 => ⟨S1x1x128, .f32⟩
  | 15 => ⟨S20000, .i32⟩
  | 16 => ⟨S2x320000, .i32⟩
  | 17 => ⟨S_, .f32⟩
  | 18 => ⟨S64x3x128, .f32⟩
  | 19 => ⟨S20000x1, .i32⟩
  | 20 => ⟨S64x3x128, .f32⟩
  | 21 => ⟨S_, .f32⟩
  | 22 => ⟨S20000x1x1, .f32⟩
  | 23 => ⟨S_, .f32⟩
  | 24 => ⟨S64x1x1, .f32⟩
  | 25 => ⟨S20000x1, .i32⟩
  | 26 => ⟨S64x1x1, .f32⟩
  | 27 => ⟨S_, .f32⟩
  | 28 => ⟨S64x1x1, .f32⟩
  | 29 => ⟨S64x1x1, .f32⟩
  | 30 => ⟨S64x3x128, .f32⟩
  | 31 => ⟨S64x3x128, .f32⟩
  | 32 => ⟨S_, .i32⟩
  | 33 => ⟨S20000, .i32⟩
  | 34 => ⟨S20000, .i1⟩
  | 35 => ⟨S_, .i32⟩
  | 36 => ⟨S20000, .i32⟩
  | 37 => ⟨S20000, .i32⟩
  | 38 => ⟨S20000, .i32⟩
  | 39 => ⟨S20000x1, .i32⟩
  | 40 => ⟨S20000x3x128, .f32⟩
  | 41 => ⟨S20000x3x128, .f32⟩
  | 42 => ⟨S20000x3x128, .f32⟩
  | 43 => ⟨S_, .f32⟩
  | 44 => ⟨S20000x128, .f32⟩
  | 45 => ⟨S20000x1x128, .f32⟩
  | 46 => ⟨S20000x1x128, .f32⟩
  | 47 => ⟨S_, .f32⟩
  | 48 => ⟨S64x1x128, .f32⟩
  | 49 => ⟨S20000x1, .i32⟩
  | 50 => ⟨S64x1x128, .f32⟩
  | 51 => ⟨S_, .f32⟩
  | 52 => ⟨S20000x1x1, .f32⟩
  | 53 => ⟨S_, .f32⟩
  | 54 => ⟨S64x1x1, .f32⟩
  | 55 => ⟨S20000x1, .i32⟩
  | 56 => ⟨S64x1x1, .f32⟩
  | 57 => ⟨S_, .f32⟩
  | 58 => ⟨S64x1x1, .f32⟩
  | 59 => ⟨S64x1x1, .f32⟩
  | 60 => ⟨S64x1x128, .f32⟩
  | 61 => ⟨S64x1x128, .f32⟩
  | 62 => ⟨S20000x3x128, .f32⟩
  | 63 => ⟨S20000x3x128, .f32⟩
  | 64 => ⟨S_, .i32⟩
  | 65 => ⟨S20000, .i32⟩
  | 66 => ⟨S20000, .i1⟩
  | 67 => ⟨S_, .i32⟩
  | 68 => ⟨S20000, .i32⟩
  | 69 => ⟨S20000, .i32⟩
  | 70 => ⟨S20000, .i32⟩
  | 71 => ⟨S20000x1, .i32⟩
  | 72 => ⟨S20000x1x128, .f32⟩
  | 73 => ⟨S_, .f32⟩
  | 74 => ⟨S20000x1x128, .f32⟩
  | 75 => ⟨S20000x1x128, .f32⟩
  | 76 => ⟨S20000x3x128, .f32⟩
  | 77 => ⟨S20000x3x128, .f32⟩
  | 78 => ⟨S1x320000, .i32⟩
  | 79 => ⟨S320000, .i32⟩
  | 80 => ⟨S1x320000, .i32⟩
  | 81 => ⟨S320000, .i32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x3x128, .f32⟩
  | 91 => ⟨S_, .i32⟩
  | 92 => ⟨S320000, .i32⟩
  | 93 => ⟨S320000, .i1⟩
  | 94 => ⟨S_, .i32⟩
  | 95 => ⟨S320000, .i32⟩
  | 96 => ⟨S320000, .i32⟩
  | 97 => ⟨S320000, .i32⟩
  | 98 => ⟨S320000x1, .i32⟩
  | 99 => ⟨S320000x3x128, .f32⟩
  | 100 => ⟨S320000x3x128, .f32⟩
  | 101 => ⟨S320000x3x128, .f32⟩
  | 102 => ⟨S_, .f32⟩
  | 103 => ⟨S320000x128, .f32⟩
  | 104 => ⟨S_, .f32⟩
  | 105 => ⟨S20000, .f32⟩
  | 106 => ⟨S20000x1, .f32⟩
  | 107 => ⟨S_, .f32⟩
  | 108 => ⟨S20000x1, .f32⟩
  | 109 => ⟨S20000x1, .f32⟩
  | 110 => ⟨S_, .i32⟩
  | 111 => ⟨S_, .f32⟩
  | 112 => ⟨S20000, .f32⟩
  | 113 => ⟨S20000x1, .f32⟩
  | 114 => ⟨S_, .f32⟩
  | 115 => ⟨S20000x1, .f32⟩
  | 116 => ⟨S20000x1, .f32⟩
  | 117 => ⟨S20000x64, .f32⟩
  | 118 => ⟨S20000x64, .f32⟩
  | 119 => ⟨S20000x64, .f32⟩
  | 120 => ⟨S_, .f32⟩
  | 121 => ⟨S_, .f32⟩
  | 122 => ⟨S_, .f32⟩
  | 123 => ⟨S_, .f32⟩
  | 124 => ⟨S20000, .f32⟩
  | 125 => ⟨S20000x1, .f32⟩
  | 126 => ⟨S20000x1, .f32⟩
  | 127 => ⟨S20000x1, .f32⟩
  | _ => ⟨S20000x3x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S20000x1, .f32⟩
  | 5 => ⟨S20000x1, .f32⟩
  | 6 => ⟨S20000x64, .f32⟩
  | 7 => ⟨S20000x64, .f32⟩
  | 8 => ⟨S_, .f32⟩
  | 9 => ⟨S20000x1, .f32⟩
  | 10 => ⟨S20000x1, .f32⟩
  | 11 => ⟨S20000x1, .f32⟩
  | 12 => ⟨S20000x64, .f32⟩
  | 13 => ⟨S20000x64, .f32⟩
  | 14 => ⟨S1x64, .f32⟩
  | 15 => ⟨S20000x64, .f32⟩
  | 16 => ⟨S20000x64, .f32⟩
  | 17 => ⟨S1x64, .f32⟩
  | 18 => ⟨S20000x64, .f32⟩
  | 19 => ⟨S20000x64, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x64, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x64, .f32⟩
  | 38 => ⟨S320000x384, .f32⟩
  | 39 => ⟨S320000x64, .f32⟩
  | 40 => ⟨S1x64, .f32⟩
  | 41 => ⟨S320000x64, .f32⟩
  | 42 => ⟨S320000x64, .f32⟩
  | 43 => ⟨S320000x64, .f32⟩
  | 44 => ⟨S320000x64, .f32⟩
  | 45 => ⟨S_, .f32⟩
  | 46 => ⟨S320000x64, .f32⟩
  | 47 => ⟨S320000x64, .f32⟩
  | 48 => ⟨S_, .f32⟩
  | 49 => ⟨S320000x64, .f32⟩
  | 50 => ⟨S320000x64, .f32⟩
  | 51 => ⟨S320000x64, .f32⟩
  | 52 => ⟨S320000x64, .f32⟩
  | 53 => ⟨S1x64, .f32⟩
  | 54 => ⟨S320000x64, .f32⟩
  | 55 => ⟨S320000x64, .f32⟩
  | 56 => ⟨S320000x64, .f32⟩
  | 57 => ⟨S1x64, .f32⟩
  | 58 => ⟨S320000x64, .f32⟩
  | 59 => ⟨S320000x64, .f32⟩
  | 60 => ⟨S320000x64, .f32⟩
  | 61 => ⟨S320000x64, .f32⟩
  | 62 => ⟨S_, .f32⟩
  | 63 => ⟨S320000x64, .f32⟩
  | 64 => ⟨S320000x64, .f32⟩
  | 65 => ⟨S_, .f32⟩
  | 66 => ⟨S320000x64, .f32⟩
  | 67 => ⟨S320000x64, .f32⟩
  | 68 => ⟨S320000x64, .f32⟩
  | 69 => ⟨S320000x128, .f32⟩
  | 70 => ⟨S1x128, .f32⟩
  | 71 => ⟨S320000x128, .f32⟩
  | 72 => ⟨S320000x128, .f32⟩
  | 73 => ⟨S_, .f32⟩
  | 74 => ⟨S_, .f32⟩
  | 75 => ⟨S_, .f32⟩
  | 76 => ⟨S320000x128, .f32⟩
  | 77 => ⟨S320000x128, .f32⟩
  | 78 => ⟨S_, .f32⟩
  | 79 => ⟨S320000x128, .f32⟩
  | 80 => ⟨S320000x128, .f32⟩
  | 81 => ⟨S320000x1x128, .f32⟩
  | 82 => ⟨S_, .f32⟩
  | 83 => ⟨S320000x1x128, .f32⟩
  | 84 => ⟨S320000x1x128, .f32⟩
  | 85 => ⟨S320000x1x128, .f32⟩
  | 86 => ⟨S_, .f32⟩
  | 87 => ⟨S320000x1x128, .f32⟩
  | 88 => ⟨S320000x1x128, .f32⟩
  | 89 => ⟨S320000x3x128, .f32⟩
  | 90 => ⟨S320000x3x128, .f32⟩
  | 91 => ⟨S320000x1x128, .f32⟩
  | 92 => ⟨S320000x3x128, .f32⟩
  | 93 => ⟨S320000x3x128, .f32⟩
  | 94 => ⟨S_, .f32⟩
  | 95 => ⟨S20000x3x128, .f32⟩
  | 96 => ⟨S320000x1, .i32⟩
  | 97 => ⟨S20000x3x128, .f32⟩
  | 98 => ⟨S20000x3x128, .f32⟩
  | _ => ⟨S20000x3x128, .f32⟩

abbrev hbmTy (i : Nat) : BufTy := match i / 128 with
  | 0 => hbmTy0_0 i
  | 1 => hbmTy0_1 i
  | _ => ⟨S20000x3x128, .f32⟩

abbrev bufTy : (tb : Table) → Fin (tcTables nBuf tb) → BufTy
  | .hbm, ⟨i, _⟩ => hbmTy i
  | _, _ => ⟨S20000x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_5 : Ref sig .tc := ⟨.hbm, 51, rfl⟩
abbrev main_v23 : Ref sig .tc := ⟨.hbm, 52, rfl⟩
abbrev main_cst_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_7 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_8 : Ref sig .tc := ⟨.hbm, 64, rfl⟩
abbrev main_v33 : Ref sig .tc := ⟨.hbm, 65, rfl⟩
abbrev main_v34 : Ref sig .tc := ⟨.hbm, 66, rfl⟩
abbrev main_c_9 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_10 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_11 : Ref sig .tc := ⟨.hbm, 82, rfl⟩
abbrev main_v48 : Ref sig .tc := ⟨.hbm, 83, rfl⟩
abbrev main_v49 : Ref sig .tc := ⟨.hbm, 84, rfl⟩
abbrev main_c_12 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_13 : Ref sig .tc := ⟨.hbm, 91, rfl⟩
abbrev main_v55 : Ref sig .tc := ⟨.hbm, 92, rfl⟩
abbrev main_v56 : Ref sig .tc := ⟨.hbm, 93, rfl⟩
abbrev main_c_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_cst_16 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_c_18 : Ref sig .tc := ⟨.hbm, 110, rfl⟩
abbrev main_call1_cst : Ref sig .tc := ⟨.hbm, 111, rfl⟩
abbrev main_call1_v0 : Ref sig .tc := ⟨.hbm, 112, rfl⟩
abbrev main_call1_v1 : Ref sig .tc := ⟨.hbm, 113, rfl⟩
abbrev main_call1_cst_0 : Ref sig .tc := ⟨.hbm, 114, rfl⟩
abbrev main_call1_v2 : Ref sig .tc := ⟨.hbm, 115, rfl⟩
abbrev main_call1_v3 : Ref sig .tc := ⟨.hbm, 116, rfl⟩
abbrev main_call1_v4 : Ref sig .tc := ⟨.hbm, 117, rfl⟩
abbrev main_call1_v5 : Ref sig .tc := ⟨.hbm, 118, rfl⟩
abbrev main_call1_v6 : Ref sig .tc := ⟨.hbm, 119, rfl⟩
abbrev main_call1_v7 : Ref sig .tc := ⟨.hbm, 120, rfl⟩
abbrev main_call1_cst_1 : Ref sig .tc := ⟨.hbm, 121, rfl⟩
abbrev main_call1_v8 : Ref sig .tc := ⟨.hbm, 122, rfl⟩
abbrev main_call1_cst_2 : Ref sig .tc := ⟨.hbm, 123, rfl⟩
abbrev main_call1_v9 : Ref sig .tc := ⟨.hbm, 124, rfl⟩
abbrev main_call1_v10 : Ref sig .tc := ⟨.hbm, 125, rfl⟩
abbrev main_call1_v11 : Ref sig .tc := ⟨.hbm, 126, rfl⟩
abbrev main_call1_v12 : Ref sig .tc := ⟨.hbm, 127, rfl⟩
abbrev main_call1_cst_3 : Ref sig .tc := ⟨.hbm, 128, rfl⟩
abbrev main_call1_v13 : Ref sig .tc := ⟨.hbm, 129, rfl⟩
abbrev main_call1_cst_4 : Ref sig .tc := ⟨.hbm, 130, rfl⟩
abbrev main_call1_call0_v0 : Ref sig .tc := ⟨.hbm, 131, rfl⟩
abbrev main_call1_call0_v1 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_19 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_c_20 : Ref sig .tc := ⟨.hbm, 148, rfl⟩
abbrev main_v83 : Ref sig .tc := ⟨.hbm, 149, rfl⟩
abbrev main_v84 : Ref sig .tc := ⟨.hbm, 150, rfl⟩
abbrev main_c_21 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_c_22 : Ref sig .tc := ⟨.hbm, 157, rfl⟩
abbrev main_v90 : Ref sig .tc := ⟨.hbm, 158, rfl⟩
abbrev main_v91 : Ref sig .tc := ⟨.hbm, 159, rfl⟩
abbrev main_c_23 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_call2_v0 : Ref sig .tc := ⟨.hbm, 171, rfl⟩
abbrev main_call2_v1 : Ref sig .tc := ⟨.hbm, 172, rfl⟩
abbrev main_call2_cst : Ref sig .tc := ⟨.hbm, 173, rfl⟩
abbrev main_call2_v2 : Ref sig .tc := ⟨.hbm, 174, rfl⟩
abbrev main_call2_v3 : Ref sig .tc := ⟨.hbm, 175, rfl⟩
abbrev main_call2_cst_0 : Ref sig .tc := ⟨.hbm, 176, rfl⟩
abbrev main_call2_v4 : Ref sig .tc := ⟨.hbm, 177, rfl⟩
abbrev main_call2_v5 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_call3_v0 : Ref sig .tc := ⟨.hbm, 188, rfl⟩
abbrev main_call3_v1 : Ref sig .tc := ⟨.hbm, 189, rfl⟩
abbrev main_call3_cst : Ref sig .tc := ⟨.hbm, 190, rfl⟩
abbrev main_call3_v2 : Ref sig .tc := ⟨.hbm, 191, rfl⟩
abbrev main_call3_v3 : Ref sig .tc := ⟨.hbm, 192, rfl⟩
abbrev main_call3_cst_0 : Ref sig .tc := ⟨.hbm, 193, rfl⟩
abbrev main_call3_v4 : Ref sig .tc := ⟨.hbm, 194, rfl⟩
abbrev main_call3_v5 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_cst_24 : Ref sig .tc := ⟨.hbm, 201, rfl⟩
abbrev main_cst_25 : Ref sig .tc := ⟨.hbm, 202, rfl⟩
abbrev main_call4_v0 : Ref sig .tc := ⟨.hbm, 203, rfl⟩
abbrev main_call4_v1 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_v116 : Ref sig .tc := ⟨.hbm, 208, rfl⟩
abbrev main_v117 : Ref sig .tc := ⟨.hbm, 209, rfl⟩
abbrev main_cst_26 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_cst_27 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_cst_28 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩

abbrev nD : Nat := 1
abbrev τ : Topo := Topo.v7x

variable {F : FTy → Type} [FloatOps F]

class Facts₀ : Prop where
  bcast_S_S64x3x128 : S_.BroadcastsInDim S64x3x128 (![] : Fin 0 → Fin S64x3x128.rank)
  bcast_S20000_S20000x1_0 : S20000.BroadcastsInDim S20000x1 (![0] : Fin 1 → Fin S20000x1.rank)
  bcast_S_S20000x1x1 : S_.BroadcastsInDim S20000x1x1 (![] : Fin 0 → Fin S20000x1x1.rank)
  bcast_S_S64x1x1 : S_.BroadcastsInDim S64x1x1 (![] : Fin 0 → Fin S64x1x1.rank)
  bcast_S64x1x1_S64x3x128_0_1_2 : S64x1x1.BroadcastsInDim S64x3x128 (![0, 1, 2] : Fin 3 → Fin S64x3x128.rank)
  bcast_S_S20000 : S_.BroadcastsInDim S20000 (![] : Fin 0 → Fin S20000.rank)
  reducesTo_S20000x3x128_S20000x128_d1 : S20000x3x128.ReducesTo [1] S20000x128
  h_S_ : 0 < S_.numel
  bcast_S20000x128_S20000x1x128_0_2 : S20000x128.BroadcastsInDim S20000x1x128 (![0, 2] : Fin 2 → Fin S20000x1x128.rank)
  bcast_S_S64x1x128 : S_.BroadcastsInDim S64x1x128 (![] : Fin 0 → Fin S64x1x128.rank)
  bcast_S64x1x1_S64x1x128_0_1_2 : S64x1x1.BroadcastsInDim S64x1x128 (![0, 1, 2] : Fin 3 → Fin S64x1x128.rank)
  bcast_S1x1x128_S20000x3x128_0_1_2 : S1x1x128.BroadcastsInDim S20000x3x128 (![0, 1, 2] : Fin 3 → Fin S20000x3x128.rank)
  bcast_S_S20000x1x128 : S_.BroadcastsInDim S20000x1x128 (![] : Fin 0 → Fin S20000x1x128.rank)
  bcast_S20000x1x128_S20000x3x128_0_1_2 : S20000x1x128.BroadcastsInDim S20000x3x128 (![0, 1, 2] : Fin 3 → Fin S20000x3x128.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3x128_S320000x128_d1 : S320000x3x128.ReducesTo [1] S320000x128
  reducesTo_S20000x64_S20000_d1 : S20000x64.ReducesTo [1] S20000
  bcast_S_S20000x1 : S_.BroadcastsInDim S20000x1 (![] : Fin 0 → Fin S20000x1.rank)
  bcast_S20000x1_S20000x64_0_1 : S20000x1.BroadcastsInDim S20000x64 (![0, 1] : Fin 2 → Fin S20000x64.rank)
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  concatenates_S320000x64_S320000x64_S320000x64_S320000x128_S320000x64_S320000x384_d1 : Shape.Concatenates [S320000x64, S320000x64, S320000x64, S320000x128, S320000x64] S320000x384 1
  bcast_S1x64_S320000x64_0_1 : S1x64.BroadcastsInDim S320000x64 (![0, 1] : Fin 2 → Fin S320000x64.rank)
  bcast_S_S320000x64 : S_.BroadcastsInDim S320000x64 (![] : Fin 0 → Fin S320000x64.rank)
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S320000x128_S320000x1x128_0_2 : S320000x128.BroadcastsInDim S320000x1x128 (![0, 2] : Fin 2 → Fin S320000x1x128.rank)
  bcast_S_S320000x1x128 : S_.BroadcastsInDim S320000x1x128 (![] : Fin 0 → Fin S320000x1x128.rank)
  bcast_S320000x1x128_S320000x3x128_0_1_2 : S320000x1x128.BroadcastsInDim S320000x3x128 (![0, 1, 2] : Fin 3 → Fin S320000x3x128.rank)
  bcast_S_S20000x3x128 : S_.BroadcastsInDim S20000x3x128 (![] : Fin 0 → Fin S20000x3x128.rank)
  scatter_S64x3x128_S20000x1_S20000x3x128_12_0_0_1_wf : ScatterDims.WF S64x3x128 S20000x1 S20000x3x128 [1, 2] [0] [0] 1
  scatter_S64x1x1_S20000x1_S20000x1x1_12_0_0_1_wf : ScatterDims.WF S64x1x1 S20000x1 S20000x1x1 [1, 2] [0] [0] 1
  gather_S64x3x128_S20000x1_S20000x3x128_12_0_n_n_0_1_13128_wf : GatherDims.WF S64x3x128 S20000x1 S20000x3x128 [1, 2] [0] [] [0] [] 1 ![1, 3, 128]
  scatter_S64x1x128_S20000x1_S20000x1x128_12_0_0_1_wf : ScatterDims.WF S64x1x128 S20000x1 S20000x1x128 [1, 2] [0] [0] 1
  gather_S64x1x128_S20000x1_S20000x1x128_12_0_n_n_0_1_11128_wf : GatherDims.WF S64x1x128 S20000x1 S20000x1x128 [1, 2] [0] [] [0] [] 1 ![1, 1, 128]
  gather_S20000x3x128_S320000x1_S320000x3x128_12_0_n_n_0_1_13128_wf : GatherDims.WF S20000x3x128 S320000x1 S320000x3x128 [1, 2] [0] [] [0] [] 1 ![1, 3, 128]
  gather_S20000x64_S320000x1_S320000x64_1_0_n_n_0_1_164_wf : GatherDims.WF S20000x64 S320000x1 S320000x64 [1] [0] [] [0] [] 1 ![1, 64]
  dot_S320000x384_S384x64_S320000x64_1_0_0_1_n_n_wf : DotDims.WF S320000x384 S384x64 S320000x64 [1] [0] [0] [1] [] []
  dot_S320000x64_S64x64_S320000x64_1_0_0_1_n_n_wf : DotDims.WF S320000x64 S64x64 S320000x64 [1] [0] [0] [1] [] []
  dot_S320000x64_S64x128_S320000x128_1_0_0_1_n_n_wf : DotDims.WF S320000x64 S64x128 S320000x128 [1] [0] [0] [1] [] []
  scatter_S20000x3x128_S320000x1_S320000x3x128_12_0_0_1_wf : ScatterDims.WF S20000x3x128 S320000x1 S320000x3x128 [1, 2] [0] [0] 1

variable [Facts₀]

def scatter_S64x3x128_S20000x1_S20000x3x128_12_0_0_1 : ScatterDims S64x3x128 S20000x1 S20000x3x128 where
  updateWindowDims := [1, 2]
  insertedWindowDims := [0]
  scatterDimsToOperandDims := [0]
  indexVectorDim := 1
  wf := scatter_S64x3x128_S20000x1_S20000x3x128_12_0_0_1_wf
def scatter_S64x1x1_S20000x1_S20000x1x1_12_0_0_1 : ScatterDims S64x1x1 S20000x1 S20000x1x1 where
  updateWindowDims := [1, 2]
  insertedWindowDims := [0]
  scatterDimsToOperandDims := [0]
  indexVectorDim := 1
  wf := scatter_S64x1x1_S20000x1_S20000x1x1_12_0_0_1_wf
def gather_S64x3x128_S20000x1_S20000x3x128_12_0_n_n_0_1_13128 : GatherDims S64x3x128 S20000x1 S20000x3x128 where
  offsetDims := [1, 2]
  collapsedSliceDims := [0]
  operandBatchingDims := []
  startIndicesBatchingDims := []
  startIndexMap := [0]
  indexVectorDim := 1
  sliceSizes := ![1, 3, 128]
  wf := gather_S64x3x128_S20000x1_S20000x3x128_12_0_n_n_0_1_13128_wf
def scatter_S64x1x128_S20000x1_S20000x1x128_12_0_0_1 : ScatterDims S64x1x128 S20000x1 S20000x1x128 where
  updateWindowDims := [1, 2]
  insertedWindowDims := [0]
  scatterDimsToOperandDims := [0]
  indexVectorDim := 1
  wf := scatter_S64x1x128_S20000x1_S20000x1x128_12_0_0_1_wf
def gather_S64x1x128_S20000x1_S20000x1x128_12_0_n_n_0_1_11128 : GatherDims S64x1x128 S20000x1 S20000x1x128 where
  offsetDims := [1, 2]
  collapsedSliceDims := [0]
  operandBatchingDims := []
  startIndicesBatchingDims := []
  startIndexMap := [0]
  indexVectorDim := 1
  sliceSizes := ![1, 1, 128]
  wf := gather_S64x1x128_S20000x1_S20000x1x128_12_0_n_n_0_1_11128_wf
def gather_S20000x3x128_S320000x1_S320000x3x128_12_0_n_n_0_1_13128 : GatherDims S20000x3x128 S320000x1 S320000x3x128 where
  offsetDims := [1, 2]
  collapsedSliceDims := [0]
  operandBatchingDims := []
  startIndicesBatchingDims := []
  startIndexMap := [0]
  indexVectorDim := 1
  sliceSizes := ![1, 3, 128]
  wf := gather_S20000x3x128_S320000x1_S320000x3x128_12_0_n_n_0_1_13128_wf
def gather_S20000x64_S320000x1_S320000x64_1_0_n_n_0_1_164 : GatherDims S20000x64 S320000x1 S320000x64 where
  offsetDims := [1]
  collapsedSliceDims := [0]
  operandBatchingDims := []
  startIndicesBatchingDims := []
  startIndexMap := [0]
  indexVectorDim := 1
  sliceSizes := ![1, 64]
  wf := gather_S20000x64_S320000x1_S320000x64_1_0_n_n_0_1_164_wf
def dot_S320000x384_S384x64_S320000x64_1_0_0_1_n_n : DotDims S320000x384 S384x64 S320000x64 where
  lhsContracting := [1]
  rhsContracting := [0]
  lhsNonContracting := [0]
  rhsNonContracting := [1]
  lhsBatch := []
  rhsBatch := []
  wf := dot_S320000x384_S384x64_S320000x64_1_0_0_1_n_n_wf
def dot_S320000x64_S64x64_S320000x64_1_0_0_1_n_n : DotDims S320000x64 S64x64 S320000x64 where
  lhsContracting := [1]
  rhsContracting := [0]
  lhsNonContracting := [0]
  rhsNonContracting := [1]
  lhsBatch := []
  rhsBatch := []
  wf := dot_S320000x64_S64x64_S320000x64_1_0_0_1_n_n_wf
def dot_S320000x64_S64x128_S320000x128_1_0_0_1_n_n : DotDims S320000x64 S64x128 S320000x128 where
  lhsContracting := [1]
  rhsContracting := [0]
  lhsNonContracting := [0]
  rhsNonContracting := [1]
  lhsBatch := []
  rhsBatch := []
  wf := dot_S320000x64_S64x128_S320000x128_1_0_0_1_n_n_wf
def scatter_S20000x3x128_S320000x1_S320000x3x128_12_0_0_1 : ScatterDims S20000x3x128 S320000x1 S320000x3x128 where
  updateWindowDims := [1, 2]
  insertedWindowDims := [0]
  scatterDimsToOperandDims := [0]
  indexVectorDim := 1
  wf := scatter_S20000x3x128_S320000x1_S320000x3x128_12_0_0_1_wf

class Facts : Prop extends Facts₀ where

variable [Facts]
-- ==== Proof.EdgeSpec.lean ====
/-
  One edge's message in an equivariant graph layer, as a function on the extended reals.

  An edge carries four feature rows of length 64 (the target node's and the source node's normalised features, the
  edge's own attributes, a time embedding) and a relative position `rel`: three spatial coordinates for each of 128
  channels. With `rd k = Σ_a rel a k ²` the squared length per channel, the first dense layer acts on the 384 numbers
  (target row, source row, attributes, `rd`, time embedding) laid side by side; since a sum over 384 terms is the sum of
  the sums over the five stretches, it is written here as five partial inner products against the rows
  0–63, 64–127, 128–191, 192–319, 320–383 of the one weight matrix. Then `x ↦ x·σ(x)`, a second dense layer, a third,
  `x·σ(x)` again, a fourth into 128 channels, and the result clipped to [-10, 10] gates `rel / (1 + √(rd + ε))`.
  Float words are kept as words: both programs carry the same ones.
-/
import Idealize.ShloMosaic.PureOps.Ideal
import Idealize.ShloMosaic.Lib.ValueIdx

noncomputable section

open scoped BigOperators

namespace Cert.Edge

open Idealize.ShloMosaic Idealize.ShloMosaic.ValueIdx

/-- `x · σ(x)` with `σ` the logistic function. -/
def silu (x : EReal) : EReal := x * Ideal.logistic x

/-- The squared length of the relative position, channel by channel: the sum over the three spatial coordinates. -/
def sqLen (rel : Fin 3 → Fin 128 → EReal) (k : Fin 128) : EReal := ∑ a : Fin 3, rel a k * rel a k

/-- Row `off + q` of a matrix of 384 rows. -/
def row (off : Nat) {n : Nat} (h : off + n ≤ 384) (q : Fin n) : Fin 384 := ⟨off + q.val, by have := q.isLt; omega⟩

/-- The first layer before its activation, at output feature `d`: five partial inner products, one per stretch of
    the 384 inputs (each against its own piece of the weight matrix), added left to right, plus the bias. -/
def hpre (ht hs ea te : Fin 64 → EReal) (rd : Fin 128 → EReal)
    (Wt Ws We : Fin 64 → Fin 64 → EReal) (Wr : Fin 128 → Fin 64 → EReal) (Wq : Fin 64 → Fin 64 → EReal) (b : Fin 64 → EReal)
    (d : Fin 64) : EReal :=
  (((((∑ q : Fin 64, ht q * Wt q d) + ∑ q : Fin 64, hs q * Ws q d)
      + ∑ q : Fin 64, ea q * We q d) + ∑ q : Fin 128, rd q * Wr q d)
      + ∑ q : Fin 64, te q * Wq q d) + b d

/-- A dense layer at output feature `d`: the inner product with column `d`, plus the bias. -/
def layer {k n : Nat} (x : Fin k → EReal) (W : Fin k → Fin n → EReal) (b : Fin n → EReal) (d : Fin n) : EReal :=
  (∑ q : Fin k, x q * W q d) + b d

/-- The clipped gate of channel `k`: the four layers with the two activations, then `min 10 (max (-10) ·)`. -/
def gate (ht hs ea te : Fin 64 → EReal) (rel : Fin 3 → Fin 128 → EReal)
    (Wt Ws We : Fin 64 → Fin 64 → EReal) (Wr : Fin 128 → Fin 64 → EReal) (Wq : Fin 64 → Fin 64 → EReal) (bm1 : Fin 64 → EReal) (Wm2 : Fin 64 → Fin 64 → EReal) (bm2 : Fin 64 → EReal)
    (Wx1 : Fin 64 → Fin 64 → EReal) (bx1 : Fin 64 → EReal) (Wx2 : Fin 64 → Fin 128 → EReal) (bx2 : Fin 128 → EReal)
    (k : Fin 128) : EReal :=
  min (Ideal.ofBits .f32 0x41200000#32) (max (Ideal.ofBits .f32 0xC1200000#32)
    (layer (fun d => silu (layer (layer (fun d' => silu (hpre ht hs ea te (sqLen rel) Wt Ws We Wr Wq bm1 d')) Wm2 bm2) Wx1 bx1 d))
      Wx2 bx2 k))

/-- The edge's contribution at spatial coordinate `a` and channel `k`: the relative position scaled by
    `1 / (1 + √(rd + ε))`, times the gate. -/
def out (ht hs ea te : Fin 64 → EReal) (rel : Fin 3 → Fin 128 → EReal)
    (Wt Ws We : Fin 64 → Fin 64 → EReal) (Wr : Fin 128 → Fin 64 → EReal) (Wq : Fin 64 → Fin 64 → EReal) (bm1 : Fin 64 → EReal) (Wm2 : Fin 64 → Fin 64 → EReal) (bm2 : Fin 64 → EReal)
    (Wx1 : Fin 64 → Fin 64 → EReal) (bx1 : Fin 64 → EReal) (Wx2 : Fin 64 → Fin 128 → EReal) (bx2 : Fin 128 → EReal)
    (a : Fin 3) (k : Fin 128) : EReal :=
  Ideal.div (rel a k)
      (Ideal.ofBits .f32 0x3F800000#32 + Ideal.sqrt (sqLen rel k + Ideal.ofBits .f32 0x322BCC77#32))
    * gate ht hs ea te rel Wt Ws We Wr Wq bm1 Wm2 bm2 Wx1 bx1 Wx2 bx2 k

/-- The same over whole arrays of `E` edges, at edge `e`: every per-edge array contributes its row `e`, and the five
    pieces of the first layer's weights are the rows 0–63, 64–127, 128–191, 192–319, 320–383 of the one matrix. -/
def outAt {E : Nat} (HT HS EA TE : (⟨2, ![E, 64]⟩ : Shape).Idx → EReal) (REL : (⟨3, ![E, 3, 128]⟩ : Shape).Idx → EReal)
    (Wm1 : (⟨2, ![384, 64]⟩ : Shape).Idx → EReal) (bm1 : (⟨1, ![64]⟩ : Shape).Idx → EReal)
    (Wm2 : (⟨2, ![64, 64]⟩ : Shape).Idx → EReal) (bm2 : (⟨1, ![64]⟩ : Shape).Idx → EReal)
    (Wx1 : (⟨2, ![64, 64]⟩ : Shape).Idx → EReal) (bx1 : (⟨1, ![64]⟩ : Shape).Idx → EReal)
    (Wx2 : (⟨2, ![64, 128]⟩ : Shape).Idx → EReal) (bx2 : (⟨1, ![128]⟩ : Shape).Idx → EReal)
    (e : Fin E) (a : Fin 3) (k : Fin 128) : EReal :=
  out (fun q => HT (ix2 e q)) (fun q => HS (ix2 e q)) (fun q => EA (ix2 e q)) (fun q => TE (ix2 e q))
    (fun a' k' => REL (ix3 e a' k'))
    (fun q d => Wm1 (ix2 (row 0 (by decide) q) d)) (fun q d => Wm1 (ix2 (row 64 (by decide) q) d))
    (fun q d => Wm1 (ix2 (row 128 (by decide) q) d)) (fun q d => Wm1 (ix2 (row 192 (by decide) q) d))
    (fun q d => Wm1 (ix2 (row 320 (by decide) q) d)) (fun d => bm1 (ix1 d)) (fun q d => Wm2 (ix2 q d))
    (fun d => bm2 (ix1 d)) (fun q d => Wx1 (ix2 q d)) (fun d => bx1 (ix1 d)) (fun q d => Wx2 (ix2 q d))
    (fun d => bx2 (ix1 d)) a k

/-- The array of all edges' contributions: entry `(e, a, k)` is edge `e`'s contribution at `(a, k)`. -/
def G {E : Nat} (HT HS EA TE : (⟨2, ![E, 64]⟩ : Shape).Idx → EReal) (REL : (⟨3, ![E, 3, 128]⟩ : Shape).Idx → EReal)
    (Wm1 : (⟨2, ![384, 64]⟩ : Shape).Idx → EReal) (bm1 : (⟨1, ![64]⟩ : Shape).Idx → EReal)
    (Wm2 : (⟨2, ![64, 64]⟩ : Shape).Idx → EReal) (bm2 : (⟨1, ![64]⟩ : Shape).Idx → EReal)
    (Wx1 : (⟨2, ![64, 64]⟩ : Shape).Idx → EReal) (bx1 : (⟨1, ![64]⟩ : Shape).Idx → EReal)
    (Wx2 : (⟨2, ![64, 128]⟩ : Shape).Idx → EReal) (bx2 : (⟨1, ![128]⟩ : Shape).Idx → EReal) :
    (⟨3, ![E, 3, 128]⟩ : Shape).Idx → EReal :=
  fun j => outAt HT HS EA TE REL Wm1 bm1 Wm2 bm2 Wx1 bx1 Wx2 bx2 (j 0) (j 1) (j 2)

/-- `G` at an index given by its coordinates. -/
theorem G_apply {E : Nat} (HT HS EA TE : (⟨2, ![E, 64]⟩ : Shape).Idx → EReal) (REL : (⟨3, ![E, 3, 128]⟩ : Shape).Idx → EReal)
    (Wm1 : (⟨2, ![384, 64]⟩ : Shape).Idx → EReal) (bm1 : (⟨1, ![64]⟩ : Shape).Idx → EReal)
    (Wm2 : (⟨2, ![64, 64]⟩ : Shape).Idx → EReal) (bm2 : (⟨1, ![64]⟩ : Shape).Idx → EReal)
    (Wx1 : (⟨2, ![64, 64]⟩ : Shape).Idx → EReal) (bx1 : (⟨1, ![64]⟩ : Shape).Idx → EReal)
    (Wx2 : (⟨2, ![64, 128]⟩ : Shape).Idx → EReal) (bx2 : (⟨1, ![128]⟩ : Shape).Idx → EReal)
    (e : Fin E) (a : Fin 3) (k : Fin 128) :
    G HT HS EA TE REL Wm1 bm1 Wm2 bm2 Wx1 bx1 Wx2 bx2 (ix3 e a k)
      = outAt HT HS EA TE REL Wm1 bm1 Wm2 bm2 Wx1 bx1 Wx2 bx2 e a k := rfl

end Cert.Edge

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelLayers.lean ====
/-
  Readings, at the ideal values and at an entry given by its coordinates, of the vector operations a tile of a
  small dense network is written with.

  * A dense layer on a tile: both factors narrowed to a shorter float format (the identity on the values), multiplied
    into the zero accumulator, plus a one-row bias repeated down the rows: entry `(r, c)` is `Σ_q A r q · B q c + b 0 c`.
  * A matrix `[a, b]` given a unit middle axis, and a `[a, 1, b]` array repeated along the middle axis, each read at
    `(p, ·, k)`: the operand at `(p, k)`, resp. `(p, 0, k)`.
  * The sum over the middle axis of `[a, 3, b]`, at `(p, k)`: `Σ_j v p j k`.
-/
import Idealize.ShloMosaic.Lib.ValueIdx
import Idealize.ShloMosaic.Lib.ValueLayout
import Idealize.ShloMosaic.Lib.Pipeline.Value
import Idealize.ShloMosaic.PureOps.Ideal.Laws
import proofs.«144983_j80272938762991_1_alg».proof.Proof.LibMatmulPlain
import proofs.«144983_j80272938762991_1_alg».proof.Proof.EdgeSpec

noncomputable section

open scoped BigOperators

namespace Cert.KLayers

open Idealize.ShloMosaic Idealize.ShloMosaic.ValueIdx

/-- A product with the plain dimension numbers (named by its own record) into the zero accumulator, at an entry: the inner
    product of the row and the column, whatever the factors' formats. -/
theorem matmul_zero_apply {m k n : Nat} {φ₁ φ₂ : FTy} (dd : DotDims ⟨2, ![m, k]⟩ ⟨2, ![k, n]⟩ ⟨2, ![m, n]⟩)
    (hdd : dd = DotDims.plain m k n) (A : FVec Ideal ⟨2, ![m, k]⟩ φ₁) (B : FVec Ideal ⟨2, ![k, n]⟩ φ₂)
    (r : Fin m) (c : Fin n) :
    matmul dd none A B (constant (F := Ideal) ⟨2, ![m, n]⟩ .f32 0x00000000#32) (ix2 r c)
      = ∑ q : Fin k, A (ix2 r q) * B (ix2 q c) := by
  subst hdd
  exact Cert.LibMatmulPlain.matmul_plain_zero_apply none A B r c

/-- A product of two narrowed factors into the zero accumulator, at an entry: the inner product of the row and the
    column (narrowing a format does not change an ideal value). -/
theorem matmul_narrow_apply {m k n : Nat} (dd : DotDims ⟨2, ![m, k]⟩ ⟨2, ![k, n]⟩ ⟨2, ![m, n]⟩)
    (hdd : dd = DotDims.plain m k n) (A : FVec Ideal ⟨2, ![m, k]⟩ .f32) (B : FVec Ideal ⟨2, ![k, n]⟩ .f32)
    (hA hB : FTy.bf16.bits < FTy.f32.bits) (r : Fin m) (c : Fin n) :
    matmul dd none (truncf .bf16 A hA) (truncf .bf16 B hB) (constant (F := Ideal) ⟨2, ![m, n]⟩ .f32 0x00000000#32) (ix2 r c)
      = ∑ q : Fin k, A (ix2 r q) * B (ix2 q c) := by
  subst hdd
  exact Cert.LibMatmulPlain.matmul_plain_zero_apply none (truncf .bf16 A hA) (truncf .bf16 B hB) r c

/-- A dense layer on a tile at an entry: the product above plus the one-row bias repeated down the rows. -/
theorem dense_apply {m k n : Nat} (dd : DotDims ⟨2, ![m, k]⟩ ⟨2, ![k, n]⟩ ⟨2, ![m, n]⟩)
    (hdd : dd = DotDims.plain m k n) (A : FVec Ideal ⟨2, ![m, k]⟩ .f32) (B : FVec Ideal ⟨2, ![k, n]⟩ .f32)
    (hA hB : FTy.bf16.bits < FTy.f32.bits) (b : FVec Ideal ⟨2, ![1, n]⟩ .f32)
    (hb : (⟨2, ![1, n]⟩ : Shape).Broadcasts ⟨2, ![m, n]⟩) (r : Fin m) (c : Fin n) :
    addf (matmul dd none (truncf .bf16 A hA) (truncf .bf16 B hB) (constant (F := Ideal) ⟨2, ![m, n]⟩ .f32 0x00000000#32))
        (broadcastTo ⟨2, ![m, n]⟩ b hb) (ix2 r c)
      = Cert.Edge.layer (fun q => A (ix2 r q)) (fun q c' => B (ix2 q c')) (fun c' => b (ix2 (0 : Fin 1) c')) c := by
  rw [addf_apply, matmul_narrow_apply dd hdd, broadcastTo_1b_ab_apply]
  rfl

/-- A matrix given a unit middle axis reads, at `(p, u, k)`, the matrix at `(p, k)`. -/
theorem shapeCast_ab_a1b_apply {α : Type} {a b : Nat} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_two, Shape.rowMajor_val_three]
    show p.val * b + k.val = (p.val * 1 + u.val) * b + k.val
    rw [hu, Nat.mul_one, Nat.add_zero])

/-- An array with a unit middle axis repeated along it reads, at `(p, j, k)`, the operand at `(p, 0, k)`. -/
theorem broadcastTo_a1b_acb_apply {α : Type} {a c b : Nat} (v : (⟨3, ![a, 1, b]⟩ : Shape).Idx → α)
    (h : (⟨3, ![a, 1, b]⟩ : Shape).Broadcasts ⟨3, ![a, c, b]⟩) (p : Fin a) (j : Fin c) (k : Fin b) :
    broadcastTo ⟨3, ![a, c, b]⟩ v h (ix3 p j k) = v (ix3 p (0 : Fin 1) k) := by
  refine broadcastTo_apply v h (ix3 p j k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-- The sum over the middle axis of a `[a, 3, b]` array (from the neutral accumulator), at `(p, k)`. -/
theorem midsum_apply {a b : Nat} (v : FVec Ideal ⟨3, ![a, 3, b]⟩ .f32)
    (h : (⟨3, ![a, 3, b]⟩ : Shape).Reduces [1] ⟨2, ![a, b]⟩) (hφ : FKind.Formats .f32)
    (hacc : (0x00000000#32 : BitVec FTy.f32.bits) = FKind.add.neutral .f32 hφ) (p : Fin a) (k : Fin b) :
    multiReduction .add [1] ⟨2, ![a, b]⟩ v 0x00000000#32 h hφ hacc (ix2 p k) = ∑ j : Fin 3, v (ix3 p j k) := by
  refine (Ideal.multiReduction_add_single v 0x00000000#32 h hφ hacc (ix2 p k)).trans ?_
  refine Finset.sum_congr rfl fun q _ => congrArg v (funext fun ax => Fin.ext ?_)
  match ax with
  | ⟨0, _⟩ => rfl
  | ⟨1, _⟩ => rfl
  | ⟨2, _⟩ => rfl

end Cert.KLayers

end
-- ==== Proof.KernelPayload.lean ====
/-
  What one grid point's body writes back, entry by entry: the output block of 1600 edges at edge `p`, spatial
  coordinate `a` and channel `k` is that edge's message, computed from row `p` of the four feature blocks, the
  edge's block of relative positions, and the weight blocks the point holds whole.

  The body's arithmetic is read one named value at a time: the squared length per channel (a sum over the middle
  axis), the two pairs of partial inner products of the first layer, the rest of the network down to the lower clip,
  and the last value (the upper clip, the scaling by `1 / (1 + √(rd + ε))` and the product with the gate).
-/
import proofs.«144983_j80272938762991_1_alg».proof.Proof.Gen.KernelIdeal.Frame
import proofs.«144983_j80272938762991_1_alg».proof.Proof.EdgeSpec
import proofs.«144983_j80272938762991_1_alg».proof.Proof.KernelLayers
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The squared length per channel of the block of relative positions, at edge `p` and channel `k`. -/
theorem pay3_apply (x4 : Vec Ideal S1600x3x128 .f32) (p : Fin 1600) (k : Fin 128) :
    k0_pay3 (F := Ideal) x4 (ix2 p k) = Cert.Edge.sqLen (fun a k' => x4 (ix3 p a k')) k := by
  unfold k0_pay3 k0_pay2
  dsimp only
  simp only [shapeCast_self]
  exact (Cert.KLayers.midsum_apply (mulf x4 x4) _ _ _ p k).trans rfl

/-- The first two partial inner products of the first layer, added: target features and source features. -/
theorem pay8_apply (x0 x1 : Vec Ideal S1600x64 .f32) (x5 x6 : Vec Ideal S64x64 .f32) (p : Fin 1600) (d : Fin 64) :
    k0_pay8 (F := Ideal) x0 x1 x5 x6 (ix2 p d)
      = (∑ q : Fin 64, x0 (ix2 p q) * x5 (ix2 q d)) + ∑ q : Fin 64, x1 (ix2 p q) * x6 (ix2 q d) := by
  unfold k0_pay8
  simp only [shapeCast_self]
  rw [addf_apply, Cert.KLayers.matmul_narrow_apply dot_S1600x64_S64x64_S1600x64_1_0_0_1_n_n rfl, Cert.KLayers.matmul_narrow_apply dot_S1600x64_S64x64_S1600x64_1_0_0_1_n_n rfl]

/-- The third partial inner product: the edge attributes. -/
theorem pay9_apply (x2 : Vec Ideal S1600x64 .f32) (x7 : Vec Ideal S64x64 .f32) (p : Fin 1600) (d : Fin 64) :
    k0_pay9 (F := Ideal) x2 x7 (ix2 p d) = ∑ q : Fin 64, x2 (ix2 p q) * x7 (ix2 q d) := by
  unfold k0_pay9
  simp only [shapeCast_self]
  rw [Cert.KLayers.matmul_narrow_apply dot_S1600x64_S64x64_S1600x64_1_0_0_1_n_n rfl]

/-- The network from the first layer's partial sums down to the lower clip, at edge `p` and channel `k`: the last two
    partial inner products and the bias complete the first layer; then `x·σ(x)`, two dense layers, `x·σ(x)`, the
    fourth dense layer, and `max (-10) ·`. -/
theorem pay10_apply (v13 : FVec Ideal S1600x64 .bf16) (v14 : FVec Ideal S1600x128 .bf16) (v26 : FVec Ideal S128x64 .bf16)
    (v29 : FVec Ideal S64x64 .bf16) (v32 v33 : FVec Ideal S1600x64 .f32) (v39 : Vec Ideal S1x64 .f32)
    (v45 : Vec Ideal S64x64 .f32) (v49 : Vec Ideal S1x64 .f32) (v53 : Vec Ideal S64x64 .f32) (v57 : Vec Ideal S1x64 .f32)
    (v63 : Vec Ideal S64x128 .f32) (v67 : Vec Ideal S1x128 .f32) (p : Fin 1600) (k : Fin 128) :
    k0_pay10 (F := Ideal) v13 v14 v26 v29 v32 v33 v39 v45 v49 v53 v57 v63 v67 (ix2 p k)
      = max (Ideal.ofBits .f32 0xC1200000#32)
          (Cert.Edge.layer (fun d => Cert.Edge.silu (Cert.Edge.layer (Cert.Edge.layer (fun d' => Cert.Edge.silu
              (((((v32 (ix2 p d') + v33 (ix2 p d')) + ∑ q : Fin 128, v14 (ix2 p q) * v26 (ix2 q d'))
                + ∑ q : Fin 64, v13 (ix2 p q) * v29 (ix2 q d')) + v39 (ix2 (0 : Fin 1) d'))))
              (fun q d' => v45 (ix2 q d')) (fun d' => v49 (ix2 (0 : Fin 1) d')))
              (fun q d' => v53 (ix2 q d')) (fun d' => v57 (ix2 (0 : Fin 1) d')) d))
            (fun q c => v63 (ix2 q c)) (fun c => v67 (ix2 (0 : Fin 1) c)) k) := by
  unfold k0_pay10
  simp only [shapeCast_self]
  rw [maximumf_apply, broadcast_apply, Cert.KLayers.dense_apply dot_S1600x64_S64x128_S1600x128_1_0_0_1_n_n rfl]
  simp only [mulf_apply, logistic, Cert.KLayers.dense_apply dot_S1600x64_S64x64_S1600x64_1_0_0_1_n_n rfl, addf_apply,
    Cert.KLayers.matmul_zero_apply dot_S1600x64_S64x64_S1600x64_1_0_0_1_n_n rfl, Cert.KLayers.matmul_zero_apply dot_S1600x128_S128x64_S1600x64_1_0_0_1_n_n rfl, broadcastTo_1b_ab_apply]
  rfl

/-- The last value, at edge `p`, coordinate `a` and channel `k`: the relative position over `1 + √(rd + ε)`, times the
    gate clipped from above. -/
theorem pay1_apply (v1 : FVec Ideal S1600x3x128 .f32) (v3 : FVec Ideal S1600x128 .f32) (hi : Ideal .f32)
    (v72 : FVec Ideal S1600x128 .f32) (p : Fin 1600) (a : Fin 3) (k : Fin 128) :
    k0_pay1 (F := Ideal) v1 v3 hi v72 (ix3 p a k)
      = Ideal.div (v1 (ix3 p a k))
            (Ideal.ofBits .f32 0x3F800000#32 + Ideal.sqrt (v3 (ix2 p k) + Ideal.ofBits .f32 0x322BCC77#32))
          * min hi (v72 (ix2 p k)) := by
  unfold k0_pay1
  rw [mulf_apply, divf_apply, Cert.KLayers.broadcastTo_a1b_acb_apply, Cert.KLayers.broadcastTo_a1b_acb_apply,
    Cert.KLayers.shapeCast_ab_a1b_apply, addf_apply, broadcast_apply]
  show Ideal.div _ (_ + Ideal.sqrt ((addf (shapeCast S1600x1x128 v3 _) (broadcast S1600x1x128 _)) (ix3 p (0 : Fin 1) k))) * _ = _
  rw [addf_apply, Cert.KLayers.shapeCast_ab_a1b_apply, broadcast_apply, minimumf_apply, broadcast_apply]
  rfl

/-- The output block at `(p, a, k)`. -/
theorem out0_17_apply (x0 x1 x2 x3 : Vec Ideal S1600x64 .f32) (x4 : Vec Ideal S1600x3x128 .f32)
    (x5 x6 x7 : Vec Ideal S64x64 .f32) (x8 : Vec Ideal S128x64 .f32) (x9 : Vec Ideal S64x64 .f32)
    (x10 : Vec Ideal S1x64 .f32) (x11 : Vec Ideal S64x64 .f32) (x12 : Vec Ideal S1x64 .f32)
    (x13 : Vec Ideal S64x64 .f32) (x14 : Vec Ideal S1x64 .f32) (x15 : Vec Ideal S64x128 .f32)
    (x16 : Vec Ideal S1x128 .f32) (p : Fin 1600) (a : Fin 3) (k : Fin 128) :
    out0_17 (F := Ideal) x0 x1 x2 x3 x4 x5 x6 x7 x8 x9 x10 x11 x12 x13 x14 x15 x16 (ix3 p a k)
      = Cert.Edge.out (fun q => x0 (ix2 p q)) (fun q => x1 (ix2 p q)) (fun q => x2 (ix2 p q)) (fun q => x3 (ix2 p q))
          (fun a' k' => x4 (ix3 p a' k'))
          (fun q d => x5 (ix2 q d)) (fun q d => x6 (ix2 q d)) (fun q d => x7 (ix2 q d)) (fun q d => x8 (ix2 q d))
          (fun q d => x9 (ix2 q d)) (fun d => x10 (ix2 (0 : Fin 1) d))
          (fun q d => x11 (ix2 q d)) (fun d => x12 (ix2 (0 : Fin 1) d))
          (fun q d => x13 (ix2 q d)) (fun d => x14 (ix2 (0 : Fin 1) d))
          (fun q d => x15 (ix2 q d)) (fun d => x16 (ix2 (0 : Fin 1) d)) a k := by
  unfold out0_17
  rw [View.canon_unit_zero hz3]
  simp only [View.ld_unit_zero (S := S1600x3x128) hz3, View.ld_unit_zero (S := S1600x64) hz2,
    View.ld_unit_zero (S := S64x64) hz2, View.ld_unit_zero (S := S128x64) hz2, View.ld_unit_zero (S := S1x64) hz2,
    View.ld_unit_zero (S := S64x128) hz2, View.ld_unit_zero (S := S1x128) hz2]
  rw [pay1_apply, pay10_apply, pay3_apply]
  simp only [pay8_apply, pay9_apply, pay3_apply, k0_pay4, k0_pay5, k0_pay6, k0_pay7, k0_pay2, shapeCast_self, truncf_apply]
  rfl

end Cert.KernelIdeal.Payload

end
-- ==== Proof.KernelWeights.lean ====
/-
  The weights and biases as the one region finds them. Before the region the host cuts the first layer's weight
  matrix (384 rows) into five row stretches — rows 0–63, 64–127, 128–191, 192–319 and 320–383 — and gives each bias
  vector of length n a leading unit axis. So an entry of a stretch is the matrix's entry that many rows further
  down, and entry (0, d) of a reshaped bias is entry d of the vector.
-/
import proofs.«144983_j80272938762991_1_alg».proof.Proof.Gen.KernelIdeal.Frame
import proofs.«144983_j80272938762991_1_alg».proof.Proof.EdgeSpec
import Idealize.ShloMosaic.Lib.Pipeline.Value
import Idealize.ShloMosaic.Lib.ValueIdx
import Idealize.ShloMosaic.Lib.ValueLayout
import Idealize.ShloMosaic.Lib.Tactic

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The five row stretches of the first layer's weights -/

set_option maxHeartbeats 2000000 in
/-- Rows 0–63. -/
theorem V_main_v99 (c : Dev nD) : (V m c main_v99 : S64x64.Idx → EReal)
    = extractStridedSlice S64x64 ![0, 0] (m ((c.tc : Thread nD τ).loc main_arg4)) slices_S384x64_S64x64_0_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
/-- Rows 64–127. -/
theorem V_main_v100 (c : Dev nD) : (V m c main_v100 : S64x64.Idx → EReal)
    = extractStridedSlice S64x64 ![64, 0] (m ((c.tc : Thread nD τ).loc main_arg4)) slices_S384x64_S64x64_64_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
/-- Rows 128–191. -/
theorem V_main_v101 (c : Dev nD) : (V m c main_v101 : S64x64.Idx → EReal)
    = extractStridedSlice S64x64 ![128, 0] (m ((c.tc : Thread nD τ).loc main_arg4)) slices_S384x64_S64x64_128_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
/-- Rows 192–319. -/
theorem V_main_v102 (c : Dev nD) : (V m c main_v102 : S128x64.Idx → EReal)
    = extractStridedSlice S128x64 ![192, 0] (m ((c.tc : Thread nD τ).loc main_arg4)) slices_S384x64_S128x64_192_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

set_option maxHeartbeats 2000000 in
/-- Rows 320–383. -/
theorem V_main_v103 (c : Dev nD) : (V m c main_v103 : S64x64.Idx → EReal)
    = extractStridedSlice S64x64 ![320, 0] (m ((c.tc : Thread nD τ).loc main_arg4)) slices_S384x64_S64x64_320_0 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results

/-- An entry of the first stretch is the matrix's entry in the same row. -/
theorem V_main_v99_apply (c : Dev nD) (q d : Fin 64) :
    (V m c main_v99 : S64x64.Idx → EReal) (ix2 q d)
      = (m ((c.tc : Thread nD τ).loc main_arg4) : S384x64.Idx → EReal) (ix2 (Cert.Edge.row 0 (by decide) q) d) :=
  (congrFun (V_main_v99 m c) (ix2 q d)).trans (extractStridedSlice_apply _ _ _ (ix2 q d) _ fun a => by
    match a with
    | ⟨0, _⟩ => rfl
    | ⟨1, _⟩ => show d.val = 0 + d.val; omega)

/-- An entry of the second stretch is the matrix's entry 64 rows further down. -/
theorem V_main_v100_apply (c : Dev nD) (q d : Fin 64) :
    (V m c main_v100 : S64x64.Idx → EReal) (ix2 q d)
      = (m ((c.tc : Thread nD τ).loc main_arg4) : S384x64.Idx → EReal) (ix2 (Cert.Edge.row 64 (by decide) q) d) :=
  (congrFun (V_main_v100 m c) (ix2 q d)).trans (extractStridedSlice_apply _ _ _ (ix2 q d) _ fun a => by
    match a with
    | ⟨0, _⟩ => rfl
    | ⟨1, _⟩ => show d.val = 0 + d.val; omega)

/-- An entry of the third stretch is the matrix's entry 128 rows further down. -/
theorem V_main_v101_apply (c : Dev nD) (q d : Fin 64) :
    (V m c main_v101 : S64x64.Idx → EReal) (ix2 q d)
      = (m ((c.tc : Thread nD τ).loc main_arg4) : S384x64.Idx → EReal) (ix2 (Cert.Edge.row 128 (by decide) q) d) :=
  (congrFun (V_main_v101 m c) (ix2 q d)).trans (extractStridedSlice_apply _ _ _ (ix2 q d) _ fun a => by
    match a with
    | ⟨0, _⟩ => rfl
    | ⟨1, _⟩ => show d.val = 0 + d.val; omega)

/-- An entry of the fourth stretch (128 rows) is the matrix's entry 192 rows further down. -/
theorem V_main_v102_apply (c : Dev nD) (q : Fin 128) (d : Fin 64) :
    (V m c main_v102 : S128x64.Idx → EReal) (ix2 q d)
      = (m ((c.tc : Thread nD τ).loc main_arg4) : S384x64.Idx → EReal) (ix2 (Cert.Edge.row 192 (by decide) q) d) :=
  (congrFun (V_main_v102 m c) (ix2 q d)).trans (extractStridedSlice_apply _ _ _ (ix2 q d) _ fun a => by
    match a with
    | ⟨0, _⟩ => rfl
    | ⟨1, _⟩ => show d.val = 0 + d.val; omega)

/-- An entry of the fifth stretch is the matrix's entry 320 rows further down. -/
theorem V_main_v103_apply (c : Dev nD) (q d : Fin 64) :
    (V m c main_v103 : S64x64.Idx → EReal) (ix2 q d)
      = (m ((c.tc : Thread nD τ).loc main_arg4) : S384x64.Idx → EReal) (ix2 (Cert.Edge.row 320 (by decide) q) d) :=
  (congrFun (V_main_v103 m c) (ix2 q d)).trans (extractStridedSlice_apply _ _ _ (ix2 q d) _ fun a => by
    match a with
    | ⟨0, _⟩ => rfl
    | ⟨1, _⟩ => show d.val = 0 + d.val; omega)

/-! ## The four bias vectors with a leading unit axis -/

set_option maxHeartbeats 2000000 in
/-- The first layer's bias as a [1, 64] array. -/
theorem V_main_v95 (c : Dev nD) : (V m c main_v95 : S1x64.Idx → EReal)
    = shapeCast S1x64 (m ((c.tc : Thread nD τ).loc main_arg5)) shapeCasts_S64_S1x64 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 2000000 in
/-- The second layer's bias as a [1, 64] array. -/
theorem V_main_v96 (c : Dev nD) : (V m c main_v96 : S1x64.Idx → EReal)
    = shapeCast S1x64 (m ((c.tc : Thread nD τ).loc main_arg7)) shapeCasts_S64_S1x64 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 2000000 in
/-- The third layer's bias as a [1, 64] array. -/
theorem V_main_v97 (c : Dev nD) : (V m c main_v97 : S1x64.Idx → EReal)
    = shapeCast S1x64 (m ((c.tc : Thread nD τ).loc main_arg9)) shapeCasts_S64_S1x64 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

set_option maxHeartbeats 2000000 in
/-- The fourth layer's bias as a [1, 128] array. -/
theorem V_main_v98 (c : Dev nD) : (V m c main_v98 : S1x128.Idx → EReal)
    = shapeCast S1x128 (m ((c.tc : Thread nD τ).loc main_arg11)) shapeCasts_S128_S1x128 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Entry (0, d) of the reshaped first bias is entry d of the vector. -/
theorem V_main_v95_apply (c : Dev nD) (d : Fin 64) :
    (V m c main_v95 : S1x64.Idx → EReal) (ix2 (0 : Fin 1) d)
      = (m ((c.tc : Thread nD τ).loc main_arg5) : S64.Idx → EReal) (ix1 d) :=
  (congrFun (V_main_v95 m c) (ix2 (0 : Fin 1) d)).trans (shapeCast_a_1a_apply _ _ 0 d)

/-- Entry (0, d) of the reshaped second bias is entry d of the vector. -/
theorem V_main_v96_apply (c : Dev nD) (d : Fin 64) :
    (V m c main_v96 : S1x64.Idx → EReal) (ix2 (0 : Fin 1) d)
      = (m ((c.tc : Thread nD τ).loc main_arg7) : S64.Idx → EReal) (ix1 d) :=
  (congrFun (V_main_v96 m c) (ix2 (0 : Fin 1) d)).trans (shapeCast_a_1a_apply _ _ 0 d)

/-- Entry (0, d) of the reshaped third bias is entry d of the vector. -/
theorem V_main_v97_apply (c : Dev nD) (d : Fin 64) :
    (V m c main_v97 : S1x64.Idx → EReal) (ix2 (0 : Fin 1) d)
      = (m ((c.tc : Thread nD τ).loc main_arg9) : S64.Idx → EReal) (ix1 d) :=
  (congrFun (V_main_v97 m c) (ix2 (0 : Fin 1) d)).trans (shapeCast_a_1a_apply _ _ 0 d)

/-- Entry (0, d) of the reshaped fourth bias is entry d of the vector. -/
theorem V_main_v98_apply (c : Dev nD) (d : Fin 128) :
    (V m c main_v98 : S1x128.Idx → EReal) (ix2 (0 : Fin 1) d)
      = (m ((c.tc : Thread nD τ).loc main_arg11) : S128.Idx → EReal) (ix1 d) :=
  (congrFun (V_main_v98 m c) (ix2 (0 : Fin 1) d)).trans (shapeCast_a_1a_apply _ _ 0 d)

end Cert.KernelIdeal.KValue

end
-- ==== Proof.KernelBlocks.lean ====
/-
  Where each window's block sits at a grid point, and each block read entry by entry.

  The grid has 200 points. At point `t` the four per-edge feature windows, the relative-position window and the
  output window hold rows `1600 t … 1600 t + 1599` of their arrays; every weight and bias window holds its whole
  array at every point. A block's coordinate in its array is, on each axis, the block index times the block's size
  plus the coordinate inside the block.
-/
import proofs.«144983_j80272938762991_1_alg».proof.Proof.Gen.KernelIdeal.Frame
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## Where the blocks sit -/

/-- The grid has 200 points, one per stretch of 1600 edges. -/
theorem N200 : cfg0.N = 200 := N_0

/-- At grid point `t` the five per-edge windows and the output window are at block `t` along the edge axis and at
    block 0 along the others. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 3) = t.val ∧ win0_4.index t (1 : Fin 3) = 0 ∧ win0_4.index t (2 : Fin 3) = 0)
    ∧ (win0_17.index t (0 : Fin 3) = t.val ∧ win0_17.index t (1 : Fin 3) = 0 ∧ win0_17.index t (2 : Fin 3) = 0) :=
  (by decide +kernel : ∀ t : Fin grid0.N, _)

/-- Every weight and bias window is at block 0 on both axes at every point: it holds its whole array. -/
theorem idx_whole : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-- Row `p` of block `t` is a row of the array: `1600 t + p < 320000`. -/
theorem row_lt (t : Fin cfg0.N) (p : Fin 1600) : 1600 * t.val + p.val < 320000 := by
  have ht : t.val < 200 := N200 ▸ t.isLt
  have hp := p.isLt
  omega

/-- The edge that row `p` of block `t` belongs to. -/
abbrev edge (t : Fin cfg0.N) (p : Fin 1600) : Fin 320000 := ⟨1600 * t.val + p.val, row_lt t p⟩

/-! ## Each window's block, entry by entry

A block's coordinate in its array is, on each axis, the block index times the block's size plus the coordinate
inside the block. -/

/-- Row `p` of window 0's block at point `t` is row `1600 t + p` of its array. -/
theorem iblk0_apply (c : Dev nD) (t : Fin cfg0.N) (p : Fin 1600) (q : Fin 64) :
    (iblk m c 0 t : Vec Ideal S1600x64 .f32) (ix2 p q) = (V m c main_v87 : S320000x64.Idx → EReal) (ix2 (edge t p) q) := by
  obtain ⟨h0, h1⟩ := (idx_facts t).1
  unfold iblk
  rw [View.read_apply]
  show V m c main_v87 _ = V m c main_v87 _
  congr 1
  funext a
  apply Fin.ext
  match a with
  | ⟨0, _⟩ => show win0_0.index t (0 : Fin 2) * 1600 + 1 * p.val = 1600 * t.val + p.val; rw [h0]; omega
  | ⟨1, _⟩ => show win0_0.index t (1 : Fin 2) * 64 + 1 * q.val = q.val; rw [h1]; omega

/-- Row `p` of window 1's block at point `t` is row `1600 t + p` of its array. -/
theorem iblk1_apply (c : Dev nD) (t : Fin cfg0.N) (p : Fin 1600) (q : Fin 64) :
    (iblk m c 1 t : Vec Ideal S1600x64 .f32) (ix2 p q) = (V m c main_v94 : S320000x64.Idx → EReal) (ix2 (edge t p) q) := by
  obtain ⟨h0, h1⟩ := (idx_facts t).2.1
  unfold iblk
  rw [View.read_apply]
  show V m c main_v94 _ = V m c main_v94 _
  congr 1
  funext a
  apply Fin.ext
  match a with
  | ⟨0, _⟩ => show win0_1.index t (0 : Fin 2) * 1600 + 1 * p.val = 1600 * t.val + p.val; rw [h0]; omega
  | ⟨1, _⟩ => show win0_1.index t (1 : Fin 2) * 64 + 1 * q.val = q.val; rw [h1]; omega

/-- Row `p` of window 2's block at point `t` is row `1600 t + p` of its array. -/
theorem iblk2_apply (c : Dev nD) (t : Fin cfg0.N) (p : Fin 1600) (q : Fin 64) :
    (iblk m c 2 t : Vec Ideal S1600x64 .f32) (ix2 p q) = (V m c main_arg2 : S320000x64.Idx → EReal) (ix2 (edge t p) q) := by
  obtain ⟨h0, h1⟩ := (idx_facts t).2.2.1
  unfold iblk
  rw [View.read_apply]
  show V m c main_arg2 _ = V m c main_arg2 _
  congr 1
  funext a
  apply Fin.ext
  match a with
  | ⟨0, _⟩ => show win0_2.index t (0 : Fin 2) * 1600 + 1 * p.val = 1600 * t.val + p.val; rw [h0]; omega
  | ⟨1, _⟩ => show win0_2.index t (1 : Fin 2) * 64 + 1 * q.val = q.val; rw [h1]; omega

/-- Row `p` of window 3's block at point `t` is row `1600 t + p` of its array. -/
theorem iblk3_apply (c : Dev nD) (t : Fin cfg0.N) (p : Fin 1600) (q : Fin 64) :
    (iblk m c 3 t : Vec Ideal S1600x64 .f32) (ix2 p q) = (V m c main_arg3 : S320000x64.Idx → EReal) (ix2 (edge t p) q) := by
  obtain ⟨h0, h1⟩ := (idx_facts t).2.2.2.1
  unfold iblk
  rw [View.read_apply]
  show V m c main_arg3 _ = V m c main_arg3 _
  congr 1
  funext a
  apply Fin.ext
  match a with
  | ⟨0, _⟩ => show win0_3.index t (0 : Fin 2) * 1600 + 1 * p.val = 1600 * t.val + p.val; rw [h0]; omega
  | ⟨1, _⟩ => show win0_3.index t (1 : Fin 2) * 64 + 1 * q.val = q.val; rw [h1]; omega

/-- Row `p` of the relative-position block at point `t` is row `1600 t + p` of the array. -/
theorem iblk4_apply (c : Dev nD) (t : Fin cfg0.N) (p : Fin 1600) (a : Fin 3) (k : Fin 128) :
    (iblk m c 4 t : Vec Ideal S1600x3x128 .f32) (ix3 p a k) = (V m c main_v80 : S320000x3x128.Idx → EReal) (ix3 (edge t p) a k) := by
  obtain ⟨h0, h1, h2⟩ := (idx_facts t).2.2.2.2.1
  unfold iblk
  rw [View.read_apply]
  show V m c main_v80 _ = V m c main_v80 _
  congr 1
  funext b
  apply Fin.ext
  match b with
  | ⟨0, _⟩ => show win0_4.index t (0 : Fin 3) * 1600 + 1 * p.val = 1600 * t.val + p.val; rw [h0]; omega
  | ⟨1, _⟩ => show win0_4.index t (1 : Fin 3) * 3 + 1 * a.val = a.val; rw [h1]; omega
  | ⟨2, _⟩ => show win0_4.index t (2 : Fin 3) * 128 + 1 * k.val = k.val; rw [h2]; omega

/-- Window 5 holds its whole array at every point. -/
theorem iblk5_apply (c : Dev nD) (t : Fin cfg0.N) (q : Fin 64) (d : Fin 64) :
    (iblk m c 5 t : Vec Ideal S64x64 .f32) (ix2 q d) = (V m c main_v99 : S64x64.Idx → EReal) (ix2 q d) := by
  obtain ⟨h0, h1⟩ := (idx_whole t).1
  unfold iblk
  rw [View.read_apply]
  show V m c main_v99 _ = V m c main_v99 _
  congr 1
  funext a
  apply Fin.ext
  match a with
  | ⟨0, _⟩ => show win0_5.index t (0 : Fin 2) * 64 + 1 * q.val = q.val; rw [h0]; omega
  | ⟨1, _⟩ => show win0_5.index t (1 : Fin 2) * 64 + 1 * d.val = d.val; rw [h1]; omega

/-- Window 6 holds its whole array at every point. -/
theorem iblk6_apply (c : Dev nD) (t : Fin cfg0.N) (q : Fin 64) (d : Fin 64) :
    (iblk m c 6 t : Vec Ideal S64x64 .f32) (ix2 q d) = (V m c main_v100 : S64x64.Idx → EReal) (ix2 q d) := by
  obtain ⟨h0, h1⟩ := (idx_whole t).2.1
  unfold iblk
  rw [View.read_apply]
  show V m c main_v100 _ = V m c main_v100 _
  congr 1
  funext a
  apply Fin.ext
  match a with
  | ⟨0, _⟩ => show win0_6.index t (0 : Fin 2) * 64 + 1 * q.val = q.val; rw [h0]; omega
  | ⟨1, _⟩ => show win0_6.index t (1 : Fin 2) * 64 + 1 * d.val = d.val; rw [h1]; omega

/-- Window 7 holds its whole array at every point. -/
theorem iblk7_apply (c : Dev nD) (t : Fin cfg0.N) (q : Fin 64) (d : Fin 64) :
    (iblk m c 7 t : Vec Ideal S64x64 .f32) (ix2 q d) = (V m c main_v101 : S64x64.Idx → EReal) (ix2 q d) := by
  obtain ⟨h0, h1⟩ := (idx_whole t).2.2.1
  unfold iblk
  rw [View.read_apply]
  show V m c main_v101 _ = V m c main_v101 _
  congr 1
  funext a
  apply Fin.ext
  match a with
  | ⟨0, _⟩ => show win0_7.index t (0 : Fin 2) * 64 + 1 * q.val = q.val; rw [h0]; omega
  | ⟨1, _⟩ => show win0_7.index t (1 : Fin 2) * 64 + 1 * d.val = d.val; rw [h1]; omega

/-- Window 8 holds its whole array at every point. -/
theorem iblk8_apply (c : Dev nD) (t : Fin cfg0.N) (q : Fin 128) (d : Fin 64) :
    (iblk m c 8 t : Vec Ideal S128x64 .f32) (ix2 q d) = (V m c main_v102 : S128x64.Idx → EReal) (ix2 q d) := by
  obtain ⟨h0, h1⟩ := (idx_whole t).2.2.2.1
  unfold iblk
  rw [View.read_apply]
  show V m c main_v102 _ = V m c main_v102 _
  congr 1
  funext a
  apply Fin.ext
  match a with
  | ⟨0, _⟩ => show win0_8.index t (0 : Fin 2) * 128 + 1 * q.val = q.val; rw [h0]; omega
  | ⟨1, _⟩ => show win0_8.index t (1 : Fin 2) * 64 + 1 * d.val = d.val; rw [h1]; omega

/-- Window 9 holds its whole array at every point. -/
theorem iblk9_apply (c : Dev nD) (t : Fin cfg0.N) (q : Fin 64) (d : Fin 64) :
    (iblk m c 9 t : Vec Ideal S64x64 .f32) (ix2 q d) = (V m c main_v103 : S64x64.Idx → EReal) (ix2 q d) := by
  obtain ⟨h0, h1⟩ := (idx_whole t).2.2.2.2.1
  unfold iblk
  rw [View.read_apply]
  show V m c main_v103 _ = V m c main_v103 _
  congr 1
  funext a
  apply Fin.ext
  match a with
  | ⟨0, _⟩ => show win0_9.index t (0 : Fin 2) * 64 + 1 * q.val = q.val; rw [h0]; omega
  | ⟨1, _⟩ => show win0_9.index t (1 : Fin 2) * 64 + 1 * d.val = d.val; rw [h1]; omega

/-- Window 10 holds its whole array at every point. -/
theorem iblk10_apply (c : Dev nD) (t : Fin cfg0.N) (q : Fin 1) (d : Fin 64) :
    (iblk m c 10 t : Vec Ideal S1x64 .f32) (ix2 q d) = (V m c main_v95 : S1x64.Idx → EReal) (ix2 q d) := by
  obtain ⟨h0, h1⟩ := (idx_whole t).2.2.2.2.2.1
  unfold iblk
  rw [View.read_apply]
  show V m c main_v95 _ = V m c main_v95 _
  congr 1
  funext a
  apply Fin.ext
  match a with
  | ⟨0, _⟩ => show win0_10.index t (0 : Fin 2) * 1 + 1 * q.val = q.val; rw [h0]; omega
  | ⟨1, _⟩ => show win0_10.index t (1 : Fin 2) * 64 + 1 * d.val = d.val; rw [h1]; omega

/-- Window 11 holds its whole array at every point. -/
theorem iblk11_apply (c : Dev nD) (t : Fin cfg0.N) (q : Fin 64) (d : Fin 64) :
    (iblk m c 11 t : Vec Ideal S64x64 .f32) (ix2 q d) = (V m c main_arg6 : S64x64.Idx → EReal) (ix2 q d) := by
  obtain ⟨h0, h1⟩ := (idx_whole t).2.2.2.2.2.2.1
  unfold iblk
  rw [View.read_apply]
  show V m c main_arg6 _ = V m c main_arg6 _
  congr 1
  funext a
  apply Fin.ext
  match a with
  | ⟨0, _⟩ => show win0_11.index t (0 : Fin 2) * 64 + 1 * q.val = q.val; rw [h0]; omega
  | ⟨1, _⟩ => show win0_11.index t (1 : Fin 2) * 64 + 1 * d.val = d.val; rw [h1]; omega

/-- Window 12 holds its whole array at every point. -/
theorem iblk12_apply (c : Dev nD) (t : Fin cfg0.N) (q : Fin 1) (d : Fin 64) :
    (iblk m c 12 t : Vec Ideal S1x64 .f32) (ix2 q d) = (V m c main_v96 : S1x64.Idx → EReal) (ix2 q d) := by
  obtain ⟨h0, h1⟩ := (idx_whole t).2.2.2.2.2.2.2.1
  unfold iblk
  rw [View.read_apply]
  show V m c main_v96 _ = V m c main_v96 _
  congr 1
  funext a
  apply Fin.ext
  match a with
  | ⟨0, _⟩ => show win0_12.index t (0 : Fin 2) * 1 + 1 * q.val = q.val; rw [h0]; omega
  | ⟨1, _⟩ => show win0_12.index t (1 : Fin 2) * 64 + 1 * d.val = d.val; rw [h1]; omega

/-- Window 13 holds its whole array at every point. -/
theorem iblk13_apply (c : Dev nD) (t : Fin cfg0.N) (q : Fin 64) (d : Fin 64) :
    (iblk m c 13 t : Vec Ideal S64x64 .f32) (ix2 q d) = (V m c main_arg8 : S64x64.Idx → EReal) (ix2 q d) := by
  obtain ⟨h0, h1⟩ := (idx_whole t).2.2.2.2.2.2.2.2.1
  unfold iblk
  rw [View.read_apply]
  show V m c main_arg8 _ = V m c main_arg8 _
  congr 1
  funext a
  apply Fin.ext
  match a with
  | ⟨0, _⟩ => show win0_13.index t (0 : Fin 2) * 64 + 1 * q.val = q.val; rw [h0]; omega
  | ⟨1, _⟩ => show win0_13.index t (1 : Fin 2) * 64 + 1 * d.val = d.val; rw [h1]; omega

/-- Window 14 holds its whole array at every point. -/
theorem iblk14_apply (c : Dev nD) (t : Fin cfg0.N) (q : Fin 1) (d : Fin 64) :
    (iblk m c 14 t : Vec Ideal S1x64 .f32) (ix2 q d) = (V m c main_v97 : S1x64.Idx → EReal) (ix2 q d) := by
  obtain ⟨h0, h1⟩ := (idx_whole t).2.2.2.2.2.2.2.2.2.1
  unfold iblk
  rw [View.read_apply]
  show V m c main_v97 _ = V m c main_v97 _
  congr 1
  funext a
  apply Fin.ext
  match a with
  | ⟨0, _⟩ => show win0_14.index t (0 : Fin 2) * 1 + 1 * q.val = q.val; rw [h0]; omega
  | ⟨1, _⟩ => show win0_14.index t (1 : Fin 2) * 64 + 1 * d.val = d.val; rw [h1]; omega

/-- Window 15 holds its whole array at every point. -/
theorem iblk15_apply (c : Dev nD) (t : Fin cfg0.N) (q : Fin 64) (d : Fin 128) :
    (iblk m c 15 t : Vec Ideal S64x128 .f32) (ix2 q d) = (V m c main_arg10 : S64x128.Idx → EReal) (ix2 q d) := by
  obtain ⟨h0, h1⟩ := (idx_whole t).2.2.2.2.2.2.2.2.2.2.1
  unfold iblk
  rw [View.read_apply]
  show V m c main_arg10 _ = V m c main_arg10 _
  congr 1
  funext a
  apply Fin.ext
  match a with
  | ⟨0, _⟩ => show win0_15.index t (0 : Fin 2) * 64 + 1 * q.val = q.val; rw [h0]; omega
  | ⟨1, _⟩ => show win0_15.index t (1 : Fin 2) * 128 + 1 * d.val = d.val; rw [h1]; omega

/-- Window 16 holds its whole array at every point. -/
theorem iblk16_apply (c : Dev nD) (t : Fin cfg0.N) (q : Fin 1) (d : Fin 128) :
    (iblk m c 16 t : Vec Ideal S1x128 .f32) (ix2 q d) = (V m c main_v98 : S1x128.Idx → EReal) (ix2 q d) := by
  obtain ⟨h0, h1⟩ := (idx_whole t).2.2.2.2.2.2.2.2.2.2.2
  unfold iblk
  rw [View.read_apply]
  show V m c main_v98 _ = V m c main_v98 _
  congr 1
  funext a
  apply Fin.ext
  match a with
  | ⟨0, _⟩ => show win0_16.index t (0 : Fin 2) * 1 + 1 * q.val = q.val; rw [h0]; omega
  | ⟨1, _⟩ => show win0_16.index t (1 : Fin 2) * 128 + 1 * d.val = d.val; rw [h1]; omega

/-- Entry `(p, a, k)` of the output block at point `t` sits at `(1600 t + p, a, k)` of the array. -/
theorem emb17 (t : Fin cfg0.N) (p : Fin 1600) (a : Fin 3) (k : Fin 128) :
    ((cfg0.win 17).blk t).view.emb (ix3 p a k : S1600x3x128.Idx) = (ix3 (edge t p) a k : S320000x3x128.Idx) := by
  obtain ⟨h0, h1, h2⟩ := (idx_facts t).2.2.2.2.2
  funext b
  apply Fin.ext
  match b with
  | ⟨0, _⟩ => show win0_17.index t (0 : Fin 3) * 1600 + 1 * p.val = 1600 * t.val + p.val; rw [h0]; omega
  | ⟨1, _⟩ => show win0_17.index t (1 : Fin 3) * 3 + 1 * a.val = a.val; rw [h1]; omega
  | ⟨2, _⟩ => show win0_17.index t (2 : Fin 3) * 128 + 1 * k.val = k.val; rw [h2]; omega

end Cert.KernelIdeal.KValue

end
-- ==== Proof.KernelValue.lean ====
/-
  What the one region writes, as one array, and the run.

  At grid point `t` the body writes back, at row `p` of its output block, the message of edge `1600 t + p`; the 200
  output blocks tile the 320000 rows, so the region leaves the array of all edges' messages. The host operations
  after the region then add each message onto its target node's row, and that sum onto an array the host computed
  before the region.
-/
import proofs.«144983_j80272938762991_1_alg».proof.Proof.Gen.KernelIdeal.Frame
import proofs.«144983_j80272938762991_1_alg».proof.Proof.EdgeSpec
import proofs.«144983_j80272938762991_1_alg».proof.Proof.KernelPayload
import proofs.«144983_j80272938762991_1_alg».proof.Proof.KernelWeights
import proofs.«144983_j80272938762991_1_alg».proof.Proof.KernelBlocks
import Idealize.ShloMosaic.Lib.Pipeline.Value
import Idealize.ShloMosaic.Lib.ValueIdx
import Idealize.ShloMosaic.Lib.Tactic

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What the region writes -/

/-- The array of all 320000 edges' messages, from the arrays as the region finds them: the two gathered feature arrays
    and the relative positions are the host's, the rest are arguments of the program. -/
abbrev contribK (c : Dev nD) : S320000x3x128.Idx → EReal :=
  Cert.Edge.G (E := 320000) (V m c main_v87 : S320000x64.Idx → EReal) (V m c main_v94 : S320000x64.Idx → EReal)
    (m ((c.tc : Thread nD τ).loc main_arg2)) (m ((c.tc : Thread nD τ).loc main_arg3))
    (V m c main_v80 : S320000x3x128.Idx → EReal)
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- What point `t` writes back is block `t` of the array of messages: entry `(p, a, k)` of the block is the message of
    edge `1600 t + p`, every input block read at that edge's row and every weight where the host took it from. -/
theorem flushed_eq (c : Dev nD) (t : Fin cfg0.N) :
    (dats m 0 c).flushed 17 t = ((cfg0.win 17).blk t).view.read (Elt Ideal) (contribK m c) := by
  show (cfg0.win 17).cut (grid0.coords t) ((dats m 0 c).after 17 t) = _
  rw [after0_17]
  funext (y : S1600x3x128.Idx)
  obtain ⟨p, a, k, rfl⟩ : ∃ (p : Fin 1600) (a : Fin 3) (k : Fin 128), y = ix3 p a k := ⟨y 0, y 1, y 2, eq_ix3 y⟩
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix3 p a k)
      = contribK m c (((cfg0.win 17).blk t).view.emb (ix3 p a k : S1600x3x128.Idx))
  rw [emb17]
  refine (Payload.out0_17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) p a k).trans ?_
  rw [funext (iblk0_apply m c t p), funext (iblk1_apply m c t p), funext (iblk2_apply m c t p), funext (iblk3_apply m c t p),
    funext₂ (iblk4_apply m c t p), funext₂ (iblk5_apply m c t), funext₂ (iblk6_apply m c t), funext₂ (iblk7_apply m c t),
    funext₂ (iblk8_apply m c t), funext₂ (iblk9_apply m c t), funext (iblk10_apply m c t 0), funext₂ (iblk11_apply m c t),
    funext (iblk12_apply m c t 0), funext₂ (iblk13_apply m c t), funext (iblk14_apply m c t 0), funext₂ (iblk15_apply m c t),
    funext (iblk16_apply m c t 0)]
  rw [funext₂ (V_main_v99_apply m c), funext₂ (V_main_v100_apply m c), funext₂ (V_main_v101_apply m c),
    funext₂ (V_main_v102_apply m c), funext₂ (V_main_v103_apply m c), funext (V_main_v95_apply m c),
    funext (V_main_v96_apply m c), funext (V_main_v97_apply m c), funext (V_main_v98_apply m c),
    V_main_arg2 m c, V_main_arg3 m c, V_main_arg6 m c, V_main_arg8 m c, V_main_arg10 m c]
  rfl

/-! ## The output blocks tile the array -/

/-- An index of the array is in point `t`'s output block iff each coordinate is in the block's range on its axis. -/
theorem mem_blk17 (t : Fin cfg0.N) (i : S320000x3x128.Idx) :
    i ∈ ((cfg0.win 17).blk t).view.set ↔ ∀ a : Fin 3, win0_17.index t a * S1600x3x128.size a ≤ (i a).val ∧ (i a).val < win0_17.index t a * S1600x3x128.size a + S1600x3x128.size a := by
  show i ∈ ((View.whole main_v104).slice (win0_17.rect t)).set ↔ _
  rw [View.set_slice_whole, Rect.mem_set_unit]
  exact Iff.rfl

/-- After the region the output array is the array of messages: row `r` is covered by point `r / 1600`. -/
theorem final (c : Dev nD) : (dats m 0 c).arrAt 17 cfg0.N = contribK m c :=
  (dats m 0 c).arrAt_eq_of_cover 17 (contribK m c) (fun t _ => flushed_eq m c t) fun i => by
    have hi0 : (i 0).val < 320000 := (i 0).isLt
    have hi1 : (i 1).val < 3 := (i 1).isLt
    have hi2 : (i 2).val < 128 := (i 2).isLt
    obtain ⟨t, ht⟩ : ∃ t : Fin cfg0.N, t.val = (i 0).val / 1600 := ⟨⟨(i 0).val / 1600, by have := N200; omega⟩, rfl⟩
    refine ⟨t, flush0_17 t, ?_⟩
    rw [mem_blk17]
    obtain ⟨h0, h1, h2⟩ := (idx_facts t).2.2.2.2.2
    intro a
    match a with
    | ⟨0, _⟩ => show win0_17.index t (0 : Fin 3) * 1600 ≤ (i 0).val ∧ (i 0).val < win0_17.index t (0 : Fin 3) * 1600 + 1600; omega
    | ⟨1, _⟩ => show win0_17.index t (1 : Fin 3) * 3 ≤ (i 1).val ∧ (i 1).val < win0_17.index t (1 : Fin 3) * 3 + 3; omega
    | ⟨2, _⟩ => show win0_17.index t (2 : Fin 3) * 128 ≤ (i 2).val ∧ (i 2).val < win0_17.index t (2 : Fin 3) * 128 + 128; omega

/-! ## The run, with the host operations after the region -/

/-- What the host operations after the region leave in the result buffer: the messages added onto their target
    nodes' rows of a zero array, and that added onto an array the host computed before the region. -/
theorem tail_value (c : Dev nD) :
    Pipeline.afterTail₀ cfgs (dats m) 0 (V0 m) [hostOps1] c main_v108
      = addf (V m c main_v47) (Host.scatterAdd (F := Ideal) scatter_S20000x3x128_S320000x1_S320000x3x128_12_0_0_1
          (broadcastInDim S20000x3x128 ![] bcast_S_S20000x3x128 (constant (F := Ideal) S_ .f32 0x00000000#32))
          (broadcastInDim S320000x1 ![0] bcast_S320000_S320000x1_0 (V m c main_v3)) (contribK m c)) := by
  have e104 : Pipeline.withArrays spec0 c (V0 m c) (fun w => (dats m 0 c).arrAt w cfg0.N) (Proc.devRef .tc main_v104) = contribK m c :=
    (Pipeline.withArrays_arr spec0 launch0.win.arr_inj c _ _ 17).trans (final m c)
  unfold Pipeline.afterTail₀
  show StableHlo.after hostOps1 _ (Proc.devRef .tc main_v108) = _
  after_results
  rw [Pipeline.withArrays_of_ne _ c (V0 m c) _ main_v47 (by exact (by decide : ∀ w, Pipeline.arrRef spec0 w ≠ main_v47)),
    Pipeline.withArrays_of_ne _ c (V0 m c) _ main_v3 (by exact (by decide : ∀ w, Pipeline.arrRef spec0 w ≠ main_v3)),
    e104]

set_option maxHeartbeats 1080000 in
/-- The run: the result buffer ends at the tail's value of the array of messages, and every argument as launched. -/
theorem run_value : θ_run defs (onTc (τ := τ) (main (F := Ideal))) ⟨m, fun _ => 0, ρ⟩ (fun r => ∀ c : Dev nD,
      r.2.mem ((c.tc : Thread nD τ).loc main_v108)
        = addf (V m c main_v47) (Host.scatterAdd (F := Ideal) scatter_S20000x3x128_S320000x1_S320000x3x128_12_0_0_1
            (broadcastInDim S20000x3x128 ![] bcast_S_S20000x3x128 (constant (F := Ideal) S_ .f32 0x00000000#32))
            (broadcastInDim S320000x1 ![0] bcast_S320000_S320000x1_0 (V m c main_v3)) (contribK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).2 main_v108 (Pipeline.mem_restRefs_of main_v108 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 11).trans (((dats m 0 c).arrAt_in 11 rfl _).trans ((A_eq m c 11).trans (V_main_arg6 m c))),
      ((h c).2 main_arg7 (Pipeline.mem_restRefs_of main_arg7 (by decide) (by decide))).trans (W_main_arg7 m (dats m) c),
      ((h c).1 13).trans (((dats m 0 c).arrAt_in 13 rfl _).trans ((A_eq m c 13).trans (V_main_arg8 m c))),
      ((h c).2 main_arg9 (Pipeline.mem_restRefs_of main_arg9 (by decide) (by decide))).trans (W_main_arg9 m (dats m) c),
      ((h c).1 15).trans (((dats m 0 c).arrAt_in 15 rfl _).trans ((A_eq m c 15).trans (V_main_arg10 m c))),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c)⟩)
    (run_main m ρ)

end Cert.KernelIdeal.KValue

end
-- ==== Proof.KernelWrites.lean ====
import proofs.«144983_j80272938762991_1_alg».proof.Proof.Gen.KernelIdeal.Launch
import Idealize.ShloMosaic.Lib.StableHlo.Run

noncomputable section

namespace Cert.KernelIdeal.KLine

open Cert.KernelIdeal Cert.KernelIdeal.Gen Idealize.ShloMosaic Idealize.ShloMosaic.TcCoe Idealize.SL.Sem Idealize.ShloMosaic.StableHlo

variable {F : FTy → Type} [FloatOps F]

/-- The references the 29 operations of the list 0 before the region write, in the operations' order. -/
abbrev wk0 : List (Ref sig .tc) :=
  [ main_v0, main_v1, main_v2, main_v3, main_cst, main_v4, main_v5, main_v6,
    main_cst_0, main_v7, main_cst_1, main_v8, main_v9, main_v10, main_cst_2, main_v11,
    main_v12, main_v13, main_v14, main_c, main_v15, main_v16, main_c_3, main_v17,
    main_v18, main_v19, main_v20, main_v21, main_v22 ]

/-- Position by position, each operation of the list 0 writes exactly that reference. -/
theorem hostOps0_writes : List.Forall₂ (fun (op : HloOp τ sig (Elt F)) (r : Ref sig .tc) => op.writes = {Proc.devRef (τ := τ) .tc r}) hostOps0 wk0 := by
  repeat (first | exact List.Forall₂.nil | refine List.Forall₂.cons rfl ?_)

/-- The references the 5 operations of the list 1 before the region write, in the operations' order. -/
abbrev wk1 : List (Ref sig .tc) :=
  [ main_call0_v0, main_call0_cst, main_call0_v1, main_call0_v2, main_v23 ]

/-- Position by position, each operation of the list 1 writes exactly that reference. -/
theorem hostOps0_1_writes : List.Forall₂ (fun (op : HloOp τ sig (Elt F)) (r : Ref sig .tc) => op.writes = {Proc.devRef (τ := τ) .tc r}) hostOps0_1 wk1 := by
  repeat (first | exact List.Forall₂.nil | refine List.Forall₂.cons rfl ?_)

/-- The references the 38 operations of the list 2 before the region write, in the operations' order. -/
abbrev wk2 : List (Ref sig .tc) :=
  [ main_cst_4, main_v24, main_v25, main_v26, main_cst_5, main_v27, main_cst_6, main_v28,
    main_v29, main_v30, main_cst_7, main_v31, main_v32, main_v33, main_v34, main_v35,
    main_v36, main_c_8, main_v37, main_v38, main_c_9, main_v39, main_v40, main_v41,
    main_v42, main_v43, main_cst_10, main_v44, main_v45, main_v46, main_v47, main_cst_11,
    main_v48, main_v49, main_cst_12, main_v50, main_v51, main_c_13 ]

/-- Position by position, each operation of the list 2 writes exactly that reference. -/
theorem hostOps0_2_writes : List.Forall₂ (fun (op : HloOp τ sig (Elt F)) (r : Ref sig .tc) => op.writes = {Proc.devRef (τ := τ) .tc r}) hostOps0_2 wk2 := by
  repeat (first | exact List.Forall₂.nil | refine List.Forall₂.cons rfl ?_)

/-- The references the 23 operations of the list 3 before the region write, in the operations' order. -/
abbrev wk3 : List (Ref sig .tc) :=
  [ main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10, main_call1_v11,
    main_call1_v12, main_call1_cst_3, main_call1_v13, main_call1_cst_4, main_call1_call0_v0, main_call1_call0_v1, main_v52 ]

/-- Position by position, each operation of the list 3 writes exactly that reference. -/
theorem hostOps0_3_writes : List.Forall₂ (fun (op : HloOp τ sig (Elt F)) (r : Ref sig .tc) => op.writes = {Proc.devRef (τ := τ) .tc r}) hostOps0_3 wk3 := by
  repeat (first | exact List.Forall₂.nil | refine List.Forall₂.cons rfl ?_)

/-- The references the 60 operations of the list 4 before the region write, in the operations' order. -/
abbrev wk4 : List (Ref sig .tc) :=
  [ main_v53, main_v54, main_cst_14, main_v55, main_v56, main_v57, main_v58, main_v59,
    main_v60, main_v61, main_v62, main_v63, main_v64, main_v65, main_c_15, main_v66,
    main_v67, main_c_16, main_v68, main_v69, main_v70, main_v71, main_v72, main_c_17,
    main_v73, main_v74, main_c_18, main_v75, main_v76, main_v77, main_v78, main_v79,
    main_v80, main_c_19, main_v81, main_v82, main_c_20, main_v83, main_v84, main_v85,
    main_v86, main_v87, main_c_21, main_v88, main_v89, main_c_22, main_v90, main_v91,
    main_v92, main_v93, main_v94, main_v95, main_v96, main_v97, main_v98, main_v99,
    main_v100, main_v101, main_v102, main_v103 ]

/-- Position by position, each operation of the list 4 writes exactly that reference. -/
theorem hostOps0_4_writes : List.Forall₂ (fun (op : HloOp τ sig (Elt F)) (r : Ref sig .tc) => op.writes = {Proc.devRef (τ := τ) .tc r}) hostOps0_4 wk4 := by
  repeat (first | exact List.Forall₂.nil | refine List.Forall₂.cons rfl ?_)

end Cert.KernelIdeal.KLine

end
-- ==== Proof.RefOps.lean ====
import proofs.«144983_j80272938762991_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 64 operations of @main's window 0, in order, each call's callee operations in its place over that call's buffers. -/
abbrev ops0 : List (HloOp τ sig (Elt F)) :=
  [ StableHlo.nullary main_cst (constant S_ .f32 0x00000000#32),
    StableHlo.unary main_cst main_v0 (broadcastInDim S64x3x128 ![] bcast_S_S64x3x128 : (⟨S_, .f32⟩ : BufTy).Contents (Elt F) → (⟨S64x3x128, .f32⟩ : BufTy).Contents (Elt F)),
    StableHlo.unary main_arg15 main_v1 (broadcastInDim S20000x1 ![0] bcast_S20000_S20000x1_0 : (⟨S20000, .i32⟩ : BufTy).Contents (Elt F) → (⟨S20000x1, .i32⟩ : BufTy).Contents (Elt F)),
    StableHlo.ternary main_v0 main_v1 main_arg0 main_v2 ((fun x i u => Host.scatterAdd scatter_S64x3x128_S20000x1_S20000x3x128_12_0_0_1 x i u) : (⟨S64x3x128, .f32⟩ : BufTy).Contents (Elt F) → (⟨S20000x1, .i32⟩ : BufTy).Contents (Elt F) → (⟨S20000x3x128, .f32⟩ : BufTy).Contents (Elt F) → (⟨S64x3x128, .f32⟩ : BufTy).Contents (Elt F)),
    StableHlo.nullary main_cst_0 (constant S_ .f32 0x3F800000#32),
    StableHlo.unary main_cst_0 main_v3 (broadcastInDim S20000x1x1 ![] bcast_S_S20000x1x1 : (⟨S_, .f32⟩ : BufTy).Contents (Elt F) → (⟨S20000x1x1, .f32⟩ : BufTy).Contents (Elt F)),
    StableHlo.nullary main_cst_1 (constant S_ .f32 0x00000000#32),
    StableHlo.unary main_cst_1 main_v4 (broadcastInDim S64x1x1 ![] bcast_S_S64x1x1 : (⟨S_, .f32⟩ : BufTy).Contents (Elt F) → (⟨S64x1x1, .f32⟩ : BufTy).Contents (Elt F)),
    StableHlo.unary main_arg15 main_v5 (broadcastInDim S20000x1 ![0] bcast_S20000_S20000x1_0 : (⟨S20000, .i32⟩ : BufTy).Contents (Elt F) → (⟨S20000x1, .i32⟩ : BufTy).Contents (Elt F)),
    StableHlo.ternary main_v4 main_v5 main_v3 main_v6 ((fun x i u => Host.scatterAdd scatter_S64x1x1_S20000x1_S20000x1x1_12_0_0_1 x i u) : (⟨S64x1x1, .f32⟩ : BufTy).Contents (Elt F) → (⟨S20000x1, .i32⟩ : BufTy).Contents (Elt F) → (⟨S20000x1x1, .f32⟩ : BufTy).Contents (Elt F) → (⟨S64x1x1, .f32⟩ : BufTy).Contents (Elt F)),
    StableHlo.nullary main_cst_2 (constant S_ .f32 0x3F800000#32),
    StableHlo.unary main_cst_2 main_v7 (broadcastInDim S64x1x1 ![] bcast_S_S64x1x1 : (⟨S_, .f32⟩ : BufTy).Contents (Elt F) → (⟨S64x1x1, .f32⟩ : BufTy).Contents (Elt F)),
    StableHlo.binary main_v6 main_v7 main_v8 (maximumf : (⟨S64x1x1, .f32⟩ : BufTy).Contents (Elt F) → (⟨S64x1x1, .f32⟩ : BufTy).Contents (Elt F) → (⟨S64x1x1, .f32⟩ : BufTy).Contents (Elt F)),
    StableHlo.unary main_v8 main_v9 (broadcastInDim S64x3x128 ![0, 1, 2] bcast_S64x1x1_S64x3x128_0_1_2 : (⟨S64x1x1, .f32⟩ : BufTy).Contents (Elt F) → (⟨S64x3x128, .f32⟩ : BufTy).Contents (Elt F)),
    StableHlo.binary main_v2 main_v9 main_v10 (Host.divf : (⟨S64x3x128, .f32⟩ : BufTy).Contents (Elt F) → (⟨S64x3x128, .f32⟩ : BufTy).Contents (Elt F) → (⟨S64x3x128, .f32⟩ : BufTy).Contents (Elt F)),
    StableHlo.nullary main_c (constantI S_ 32 0#32),
    StableHlo.unary main_c main_v11 (broadcastInDim S20000 ![] bcast_S_S20000 : (⟨S_, .i32⟩ : BufTy).Contents (Elt F) → (⟨S20000, .i32⟩ : BufTy).Contents (Elt F)),
    StableHlo.binary main_arg15 main_v11 main_v12 (cmpi .slt : (⟨S20000, .i32⟩ : BufTy).Contents (Elt F) → (⟨S20000, .i32⟩ : BufTy).Contents (Elt F) → (⟨S20000, .i1⟩ : BufTy).Contents (Elt F)),
    StableHlo.nullary main_c_3 (constantI S_ 32 64#32),
    StableHlo.unary main_c_3 main_v13 (broadcastInDim S20000 ![] bcast_S_S20000 : (⟨S_, .i32⟩ : BufTy).Contents (Elt F) → (⟨S20000, .i32⟩ : BufTy).Contents (Elt F)),
    StableHlo.binary main_arg15 main_v13 main_v14 (addi : (⟨S20000, .i32⟩ : BufTy).Contents (Elt F) → (⟨S20000, .i32⟩ : BufTy).Contents (Elt F) → (⟨S20000, .i32⟩ : BufTy).Contents (Elt F)),
    StableHlo.ternary main_v12 main_v14 main_arg15 main_v15 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v15 main_v16 (broadcastInDim S20000x1 ![0] bcast_S20000_S20000x1_0 : (⟨S20000, .i32⟩ : BufTy).Contents (Elt F) → (⟨S20000x1, .i32⟩ : BufTy).Contents (Elt F)),
    StableHlo.binary main_v10 main_v16 main_v17 ((fun x i => Host.gather gather_S64x3x128_S20000x1_S20000x3x128_12_0_n_n_0_1_13128 x i) : (⟨S64x3x128, .f32⟩ : BufTy).Contents (Elt F) → (⟨S20000x1, .i32⟩ : BufTy).Contents (Elt F) → (⟨S20000x3x128, .f32⟩ : BufTy).Contents (Elt F)),
    StableHlo.binary main_arg0 main_v17 main_v18 (subf : (⟨S20000x3x128, .f32⟩ : BufTy).Contents (Elt F) → (⟨S20000x3x128, .f32⟩ : BufTy).Contents (Elt F) → (⟨S20000x3x128, .f32⟩ : BufTy).Contents (Elt F)),
    StableHlo.TRef.binary (.of main_v18 : StableHlo.TRef sig ⟨S20000x3x128, .f32⟩) (.of main_v18 : StableHlo.TRef sig ⟨S20000x3x128, .f32⟩) main_call0.v0 mulf,
    StableHlo.TRef.nullary main_call0.cst (constant S_ .f32 0x00000000#32),
    StableHlo.TRef.binary main_call0.v0 main_call0.cst main_call0.v1 (fun x v => Host.reduceAdd x v reducesTo_S20000x3x128_S20000x128_d1 h_S_),
    StableHlo.TRef.unary main_call0.v1 main_call0.v2 (broadcastInDim S20000x1x128 ![0, 2] bcast_S20000x128_S20000x1x128_0_2),
    StableHlo.TRef.unary main_call0.v2 main_call0.v3 Host.sqrt,
    StableHlo.nullary main_cst_4 (constant S_ .f32 0x00000000#32),
    StableHlo.unary main_cst_4 main_v20 (broadcastInDim S64x1x128 ![] bcast_S_S64x1x128 : (⟨S_, .f32⟩ : BufTy).Contents (Elt F) → (⟨S64x1x128, .f32⟩ : BufTy).Contents (Elt F)),
    StableHlo.unary main_arg15 main_v21 (broadcastInDim S20000x1 ![0] bcast_S20000_S20000x1_0 : (⟨S20000, .i32⟩ : BufTy).Contents (Elt F) → (⟨S20000x1, .i32⟩ : BufTy).Contents (Elt F)),
    StableHlo.ternary main_v20 main_v21 main_v19 main_v22 ((fun x i u => Host.scatterAdd scatter_S64x1x128_S20000x1_S20000x1x128_12_0_0_1 x i u) : (⟨S64x1x128, .f32⟩ : BufTy).Contents (Elt F) → (⟨S20000x1, .i32⟩ : BufTy).Contents (Elt F) → (⟨S20000x1x128, .f32⟩ : BufTy).Contents (Elt F) → (⟨S64x1x128, .f32⟩ : BufTy).Contents (Elt F)),
    StableHlo.nullary main_cst_5 (constant S_ .f32 0x3F800000#32),
    StableHlo.unary main_cst_5 main_v23 (broadcastInDim S20000x1x1 ![] bcast_S_S20000x1x1 : (⟨S_, .f32⟩ : BufTy).Contents (Elt F) → (⟨S20000x1x1, .f32⟩ : BufTy).Contents (Elt F)),
    StableHlo.nullary main_cst_6 (constant S_ .f32 0x00000000#32),
    StableHlo.unary main_cst_6 main_v24 (broadcastInDim S64x1x1 ![] bcast_S_S64x1x1 : (⟨S_, .f32⟩ : BufTy).Contents (Elt F) → (⟨S64x1x1, .f32⟩ : BufTy).Contents (Elt F)),
    StableHlo.unary main_arg15 main_v25 (broadcastInDim S20000x1 ![0] bcast_S20000_S20000x1_0 : (⟨S20000, .i32⟩ : BufTy).Contents (Elt F) → (⟨S20000x1, .i32⟩ : BufTy).Contents (Elt F)),
    StableHlo.ternary main_v24 main_v25 main_v23 main_v26 ((fun x i u => Host.scatterAdd scatter_S64x1x1_S20000x1_S20000x1x1_12_0_0_1 x i u) : (⟨S64x1x1, .f32⟩ : BufTy).Contents (Elt F) → (⟨S20000x1, .i32⟩ : BufTy).Contents (Elt F) → (⟨S20000x1x1, .f32⟩ : BufTy).Contents (Elt F) → (⟨S64x1x1, .f32⟩ : BufTy).Contents (Elt F)),
    StableHlo.nullary main_cst_7 (constant S_ .f32 0x3F800000#32),
    StableHlo.unary main_cst_7 main_v27 (broadcastInDim S64x1x1 ![] bcast_S_S64x1x1 : (⟨S_, .f32⟩ : BufTy).Contents (Elt F) → (⟨S64x1x1, .f32⟩ : BufTy).Contents (Elt F)),
    StableHlo.binary main_v26 main_v27 main_v28 (maximumf : (⟨S64x1x1, .f32⟩ : BufTy).Contents (Elt F) → (⟨S64x1x1, .f32⟩ : BufTy).Contents (Elt F) → (⟨S64x1x1, .f32⟩ : BufTy).Contents (Elt F)),
    StableHlo.unary main_v28 main_v29 (broadcastInDim S64x1x128 ![0, 1, 2] bcast_S64x1x1_S64x1x128_0_1_2 : (⟨S64x1x1, .f32⟩ : BufTy).Contents (Elt F) → (⟨S64x1x128, .f32⟩ : BufTy).Contents (Elt F)),
    StableHlo.binary main_v22 main_v29 main_v30 (Host.divf : (⟨S64x1x128, .f32⟩ : BufTy).Contents (Elt F) → (⟨S64x1x128, .f32⟩ : BufTy).Contents (Elt F) → (⟨S64x1x128, .f32⟩ : BufTy).Contents (Elt F)),
    StableHlo.unary main_arg14 main_v31 (broadcastInDim S20000x3x128 ![0, 1, 2] bcast_S1x1x128_S20000x3x128_0_1_2 : (⟨S1x1x128, .f32⟩ : BufTy).Contents (Elt F) → (⟨S20000x3x128, .f32⟩ : BufTy).Contents (Elt F)),
    StableHlo.binary main_v31 main_v18 main_v32 (mulf : (⟨S20000x3x128, .f32⟩ : BufTy).Contents (Elt F) → (⟨S20000x3x128, .f32⟩ : BufTy).Contents (Elt F) → (⟨S20000x3x128, .f32⟩ : BufTy).Contents (Elt F)),
    StableHlo.nullary main_c_8 (constantI S_ 32 0#32),
    StableHlo.unary main_c_8 main_v33 (broadcastInDim S20000 ![] bcast_S_S20000 : (⟨S_, .i32⟩ : BufTy).Contents (Elt F) → (⟨S20000, .i32⟩ : BufTy).Contents (Elt F)),
    StableHlo.binary main_arg15 main_v33 main_v34 (cmpi .slt : (⟨S20000, .i32⟩ : BufTy).Contents (Elt F) → (⟨S20000, .i32⟩ : BufTy).Contents (Elt F) → (⟨S20000, .i1⟩ : BufTy).Contents (Elt F)),
    StableHlo.nullary main_c_9 (constantI S_ 32 64#32),
    StableHlo.unary main_c_9 main_v35 (broadcastInDim S20000 ![] bcast_S_S20000 : (⟨S_, .i32⟩ : BufTy).Contents (Elt F) → (⟨S20000, .i32⟩ : BufTy).Contents (Elt F)),
    StableHlo.binary main_arg15 main_v35 main_v36 (addi : (⟨S20000, .i32⟩ : BufTy).Contents (Elt F) → (⟨S20000, .i32⟩ : BufTy).Contents (Elt F) → (⟨S20000, .i32⟩ : BufTy).Contents (Elt F)),
    StableHlo.ternary main_v34 main_v36 main_arg15 main_v37 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v37 main_v38 (broadcastInDim S20000x1 ![0] bcast_S20000_S20000x1_0 : (⟨S20000, .i32⟩ : BufTy).Contents (Elt F) → (⟨S20000x1, .i32⟩ : BufTy).Contents (Elt F)),
    StableHlo.binary main_v30 main_v38 main_v39 ((fun x i => Host.gather gather_S64x1x128_S20000x1_S20000x1x128_12_0_n_n_0_1_11128 x i) : (⟨S64x1x128, .f32⟩ : BufTy).Contents (Elt F) → (⟨S20000x1, .i32⟩ : BufTy).Contents (Elt F) → (⟨S20000x1x128, .f32⟩ : BufTy).Contents (Elt F)),
    StableHlo.nullary main_cst_10 (constant S_ .f32 0x3727C5AC#32),
    StableHlo.unary main_cst_10 main_v40 (broadcastInDim S20000x1x128 ![] bcast_S_S20000x1x128 : (⟨S_, .f32⟩ : BufTy).Contents (Elt F) → (⟨S20000x1x128, .f32⟩ : BufTy).Contents (Elt F)),
    StableHlo.binary main_v39 main_v40 main_v41 (addf : (⟨S20000x1x128, .f32⟩ : BufTy).Contents (Elt F) → (⟨S20000x1x128, .f32⟩ : BufTy).Contents (Elt F) → (⟨S20000x1x128, .f32⟩ : BufTy).Contents (Elt F)),
    StableHlo.unary main_v41 main_v42 (broadcastInDim S20000x3x128 ![0, 1, 2] bcast_S20000x1x128_S20000x3x128_0_1_2 : (⟨S20000x1x128, .f32⟩ : BufTy).Contents (Elt F) → (⟨S20000x3x128, .f32⟩ : BufTy).Contents (Elt F)),
    StableHlo.binary main_v32 main_v42 main_v43 (Host.divf : (⟨S20000x3x128, .f32⟩ : BufTy).Contents (Elt F) → (⟨S20000x3x128, .f32⟩ : BufTy).Contents (Elt F) → (⟨S20000x3x128, .f32⟩ : BufTy).Contents (Elt F)),
    StableHlo.unary main_arg16 main_v44 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v44 main_v45 rfl shapeCasts_S1x320000_S320000,
    StableHlo.unary main_arg16 main_v46 ((extractStridedSlice S1x320000 ![1, 0] · slices_S2x320000_S1x320000_1_0) : (⟨S2x320000, .i32⟩ : BufTy).Contents (Elt F) → (⟨S1x320000, .i32⟩ : BufTy).Contents (Elt F)) ]

theorem ops0_sub : (ops0 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., binary_bufs_sub .., unary_bufs_sub .., unary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., unary_bufs_sub ..,
    binary_bufs_sub .., unary_bufs_sub .., reshape_bufs_sub .., unary_bufs_sub ..⟩

/-- The references window 0's operations write, in the operations' order. -/
abbrev w0 : List (Ref sig .tc) :=
  [ main_cst, main_v0, main_v1, main_v2, main_cst_0, main_v3, main_cst_1, main_v4,
    main_v5, main_v6, main_cst_2, main_v7, main_v8, main_v9, main_v10, main_c,
    main_v11, main_v12, main_c_3, main_v13, main_v14, main_v15, main_v16, main_v17,
    main_v18, main_call0.v0.ref, main_call0.cst.ref, main_call0.v1.ref, main_call0.v2.ref, main_call0.v3.ref, main_cst_4, main_v20,
    main_v21, main_v22, main_cst_5, main_v23, main_cst_6, main_v24, main_v25, main_v26,
    main_cst_7, main_v27, main_v28, main_v29, main_v30, main_v31, main_v32, main_c_8,
    main_v33, main_v34, main_c_9, main_v35, main_v36, main_v37, main_v38, main_v39,
    main_cst_10, main_v40, main_v41, main_v42, main_v43, main_v44, main_v45, main_v46 ]

/-- Position by position, each operation of window 0 writes exactly that reference. -/
theorem ops0_writes : List.Forall₂ (fun (op : HloOp τ sig (Elt F)) (r : Ref sig .tc) => op.writes = {Proc.devRef (τ := τ) .tc r}) ops0 w0 := by
  repeat (first | exact List.Forall₂.nil | refine List.Forall₂.cons rfl ?_)

/-- The 82 operations of @main's window 1, in order, each call's callee operations in its place over that call's buffers. -/
abbrev ops1 : List (HloOp τ sig (Elt F)) :=
  [ StableHlo.reshape main_v46 main_v47 rfl shapeCasts_S1x320000_S320000,
    StableHlo.nullary main_c_11 (constantI S_ 32 0#32),
    StableHlo.unary main_c_11 main_v48 (broadcastInDim S320000 ![] bcast_S_S320000 : (⟨S_, .i32⟩ : BufTy).Contents (Elt F) → (⟨S320000, .i32⟩ : BufTy).Contents (Elt F)),
    StableHlo.binary main_v45 main_v48 main_v49 (cmpi .slt : (⟨S320000, .i32⟩ : BufTy).Contents (Elt F) → (⟨S320000, .i32⟩ : BufTy).Contents (Elt F) → (⟨S320000, .i1⟩ : BufTy).Contents (Elt F)),
    StableHlo.nullary main_c_12 (constantI S_ 32 20000#32),
    StableHlo.unary main_c_12 main_v50 (broadcastInDim S320000 ![] bcast_S_S320000 : (⟨S_, .i32⟩ : BufTy).Contents (Elt F) → (⟨S320000, .i32⟩ : BufTy).Contents (Elt F)),
    StableHlo.binary main_v45 main_v50 main_v51 (addi : (⟨S320000, .i32⟩ : BufTy).Contents (Elt F) → (⟨S320000, .i32⟩ : BufTy).Contents (Elt F) → (⟨S320000, .i32⟩ : BufTy).Contents (Elt F)),
    StableHlo.ternary main_v49 main_v51 main_v45 main_v52 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v52 main_v53 (broadcastInDim S320000x1 ![0] bcast_S320000_S320000x1_0 : (⟨S320000, .i32⟩ : BufTy).Contents (Elt F) → (⟨S320000x1, .i32⟩ : BufTy).Contents (Elt F)),
    StableHlo.binary main_v43 main_v53 main_v54 ((fun x i => Host.gather gather_S20000x3x128_S320000x1_S320000x3x128_12_0_n_n_0_1_13128 x i) : (⟨S20000x3x128, .f32⟩ : BufTy).Contents (Elt F) → (⟨S320000x1, .i32⟩ : BufTy).Contents (Elt F) → (⟨S320000x3x128, .f32⟩ : BufTy).Contents (Elt F)),
    StableHlo.nullary main_c_13 (constantI S_ 32 0#32),
    StableHlo.unary main_c_13 main_v55 (broadcastInDim S320000 ![] bcast_S_S320000 : (⟨S_, .i32⟩ : BufTy).Contents (Elt F) → (⟨S320000, .i32⟩ : BufTy).Contents (Elt F)),
    StableHlo.binary main_v47 main_v55 main_v56 (cmpi .slt : (⟨S320000, .i32⟩ : BufTy).Contents (Elt F) → (⟨S320000, .i32⟩ : BufTy).Contents (Elt F) → (⟨S320000, .i1⟩ : BufTy).Contents (Elt F)),
    StableHlo.nullary main_c_14 (constantI S_ 32 20000#32),
    StableHlo.unary main_c_14 main_v57 (broadcastInDim S320000 ![] bcast_S_S320000 : (⟨S_, .i32⟩ : BufTy).Contents (Elt F) → (⟨S320000, .i32⟩ : BufTy).Contents (Elt F)),
    StableHlo.binary main_v47 main_v57 main_v58 (addi : (⟨S320000, .i32⟩ : BufTy).Contents (Elt F) → (⟨S320000, .i32⟩ : BufTy).Contents (Elt F) → (⟨S320000, .i32⟩ : BufTy).Contents (Elt F)),
    StableHlo.ternary main_v56 main_v58 main_v47 main_v59 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v59 main_v60 (broadcastInDim S320000x1 ![0] bcast_S320000_S320000x1_0 : (⟨S320000, .i32⟩ : BufTy).Contents (Elt F) → (⟨S320000x1, .i32⟩ : BufTy).Contents (Elt F)),
    StableHlo.binary main_v43 main_v60 main_v61 ((fun x i => Host.gather gather_S20000x3x128_S320000x1_S320000x3x128_12_0_n_n_0_1_13128 x i) : (⟨S20000x3x128, .f32⟩ : BufTy).Contents (Elt F) → (⟨S320000x1, .i32⟩ : BufTy).Contents (Elt F) → (⟨S320000x3x128, .f32⟩ : BufTy).Contents (Elt F)),
    StableHlo.binary main_v54 main_v61 main_v62 (subf : (⟨S320000x3x128, .f32⟩ : BufTy).Contents (Elt F) → (⟨S320000x3x128, .f32⟩ : BufTy).Contents (Elt F) → (⟨S320000x3x128, .f32⟩ : BufTy).Contents (Elt F)),
    StableHlo.binary main_v62 main_v62 main_v63 (mulf : (⟨S320000x3x128, .f32⟩ : BufTy).Contents (Elt F) → (⟨S320000x3x128, .f32⟩ : BufTy).Contents (Elt F) → (⟨S320000x3x128, .f32⟩ : BufTy).Contents (Elt F)),
    StableHlo.nullary main_cst_15 (constant S_ .f32 0x00000000#32),
    StableHlo.binary main_v63 main_cst_15 main_v64 ((fun x v => Host.reduceAdd x v reducesTo_S320000x3x128_S320000x128_d1 h_S_) : (⟨S320000x3x128, .f32⟩ : BufTy).Contents (Elt F) → (⟨S_, .f32⟩ : BufTy).Contents (Elt F) → (⟨S320000x128, .f32⟩ : BufTy).Contents (Elt F)),
    StableHlo.nullary main_cst_16 (constant S_ .f32 0x00000000#32),
    StableHlo.binary main_arg1 main_cst_16 main_v65 ((fun x v => Host.reduceAdd x v reducesTo_S20000x64_S20000_d1 h_S_) : (⟨S20000x64, .f32⟩ : BufTy).Contents (Elt F) → (⟨S_, .f32⟩ : BufTy).Contents (Elt F) → (⟨S20000, .f32⟩ : BufTy).Contents (Elt F)),
    StableHlo.unary main_v65 main_v66 (broadcastInDim S20000x1 ![0] bcast_S20000_S20000x1_0 : (⟨S20000, .f32⟩ : BufTy).Contents (Elt F) → (⟨S20000x1, .f32⟩ : BufTy).Contents (Elt F)),
    StableHlo.nullary main_cst_17 (constant S_ .f32 0x42800000#32),
    StableHlo.unary main_cst_17 main_v67 (broadcastInDim S20000x1 ![] bcast_S_S20000x1 : (⟨S_, .f32⟩ : BufTy).Contents (Elt F) → (⟨S20000x1, .f32⟩ : BufTy).Contents (Elt F)),
    StableHlo.binary main_v66 main_v67 main_v68 (Host.divf : (⟨S20000x1, .f32⟩ : BufTy).Contents (Elt F) → (⟨S20000x1, .f32⟩ : BufTy).Contents (Elt F) → (⟨S20000x1, .f32⟩ : BufTy).Contents (Elt F)),
    StableHlo.nullary main_c_18 (constantI S_ 32 0#32),
    StableHlo.TRef.nullary main_call1.cst (constant S_ .f32 0x00000000#32),
    StableHlo.TRef.binary (.of main_arg1 : StableHlo.TRef sig ⟨S20000x64, .f32⟩) main_call1.cst main_call1.v0 (fun x v => Host.reduceAdd x v reducesTo_S20000x64_S20000_d1 h_S_),
    StableHlo.TRef.unary main_call1.v0 main_call1.v1 (broadcastInDim S20000x1 ![0] bcast_S20000_S20000x1_0),
    StableHlo.TRef.nullary main_call1.cst_0 (constant S_ .f32 0x42800000#32),
    StableHlo.TRef.unary main_call1.cst_0 main_call1.v2 (broadcastInDim S20000x1 ![] bcast_S_S20000x1),
    StableHlo.TRef.binary main_call1.v1 main_call1.v2 main_call1.v3 Host.divf,
    StableHlo.TRef.unary main_call1.v3 main_call1.v4 (broadcastInDim S20000x64 ![0, 1] bcast_S20000x1_S20000x64_0_1),
    StableHlo.TRef.binary (.of main_arg1 : StableHlo.TRef sig ⟨S20000x64, .f32⟩) main_call1.v4 main_call1.v5 subf,
    StableHlo.TRef.binary main_call1.v5 main_call1.v5 main_call1.v6 mulf,
    StableHlo.TRef.unary (.of main_c_18 : StableHlo.TRef sig ⟨S_, .i32⟩) main_call1.v7 (sitofp .f32),
    StableHlo.TRef.nullary main_call1.cst_1 (constant S_ .f32 0x42800000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S20000x64_S20000_d1 h_S_),
    StableHlo.TRef.unary main_call1.v9 main_call1.v10 (broadcastInDim S20000x1 ![0] bcast_S20000_S20000x1_0),
    StableHlo.TRef.unary main_call1.v8 main_call1.v11 (broadcastInDim S20000x1 ![] bcast_S_S20000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S20000x1 ![] bcast_S_S20000x1),
    StableHlo.TRef.ternary main_call1.v13 main_call1.v12 main_call1.call0.v1 main_call1.call0.v2 (fun p a b => select (broadcastInDim S20000x1 ![] bcast_S_S20000x1 p) a b),
    StableHlo.unary main_v68 main_v70 (broadcastInDim S20000x64 ![0, 1] bcast_S20000x1_S20000x64_0_1 : (⟨S20000x1, .f32⟩ : BufTy).Contents (Elt F) → (⟨S20000x64, .f32⟩ : BufTy).Contents (Elt F)),
    StableHlo.binary main_arg1 main_v70 main_v71 (subf : (⟨S20000x64, .f32⟩ : BufTy).Contents (Elt F) → (⟨S20000x64, .f32⟩ : BufTy).Contents (Elt F) → (⟨S20000x64, .f32⟩ : BufTy).Contents (Elt F)),
    StableHlo.nullary main_cst_19 (constant S_ .f32 0x3727C5AC#32),
    StableHlo.unary main_cst_19 main_v72 (broadcastInDim S20000x1 ![] bcast_S_S20000x1 : (⟨S_, .f32⟩ : BufTy).Contents (Elt F) → (⟨S20000x1, .f32⟩ : BufTy).Contents (Elt F)),
    StableHlo.binary main_v69 main_v72 main_v73 (addf : (⟨S20000x1, .f32⟩ : BufTy).Contents (Elt F) → (⟨S20000x1, .f32⟩ : BufTy).Contents (Elt F) → (⟨S20000x1, .f32⟩ : BufTy).Contents (Elt F)),
    StableHlo.unary main_v73 main_v74 (Host.sqrt : (⟨S20000x1, .f32⟩ : BufTy).Contents (Elt F) → (⟨S20000x1, .f32⟩ : BufTy).Contents (Elt F)),
    StableHlo.unary main_v74 main_v75 (broadcastInDim S20000x64 ![0, 1] bcast_S20000x1_S20000x64_0_1 : (⟨S20000x1, .f32⟩ : BufTy).Contents (Elt F) → (⟨S20000x64, .f32⟩ : BufTy).Contents (Elt F)),
    StableHlo.binary main_v71 main_v75 main_v76 (Host.divf : (⟨S20000x64, .f32⟩ : BufTy).Contents (Elt F) → (⟨S20000x64, .f32⟩ : BufTy).Contents (Elt F) → (⟨S20000x64, .f32⟩ : BufTy).Contents (Elt F)),
    StableHlo.unary main_arg12 main_v77 (broadcastInDim S1x64 ![1] bcast_S64_S1x64_1 : (⟨S64, .f32⟩ : BufTy).Contents (Elt F) → (⟨S1x64, .f32⟩ : BufTy).Contents (Elt F)),
    StableHlo.unary main_v77 main_v78 (broadcastInDim S20000x64 ![0, 1] bcast_S1x64_S20000x64_0_1 : (⟨S1x64, .f32⟩ : BufTy).Contents (Elt F) → (⟨S20000x64, .f32⟩ : BufTy).Contents (Elt F)),
    StableHlo.binary main_v76 main_v78 main_v79 (mulf : (⟨S20000x64, .f32⟩ : BufTy).Contents (Elt F) → (⟨S20000x64, .f32⟩ : BufTy).Contents (Elt F) → (⟨S20000x64, .f32⟩ : BufTy).Contents (Elt F)),
    StableHlo.unary main_arg13 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S20000x64 ![0, 1] bcast_S1x64_S20000x64_0_1 : (⟨S1x64, .f32⟩ : BufTy).Contents (Elt F) → (⟨S20000x64, .f32⟩ : BufTy).Contents (Elt F)),
    StableHlo.binary main_v79 main_v81 main_v82 (addf : (⟨S20000x64, .f32⟩ : BufTy).Contents (Elt F) → (⟨S20000x64, .f32⟩ : BufTy).Contents (Elt F) → (⟨S20000x64, .f32⟩ : BufTy).Contents (Elt F)),
    StableHlo.nullary main_c_20 (constantI S_ 32 0#32),
    StableHlo.unary main_c_20 main_v83 (broadcastInDim S320000 ![] bcast_S_S320000 : (⟨S_, .i32⟩ : BufTy).Contents (Elt F) → (⟨S320000, .i32⟩ : BufTy).Contents (Elt F)),
    StableHlo.binary main_v47 main_v83 main_v84 (cmpi .slt : (⟨S320000, .i32⟩ : BufTy).Contents (Elt F) → (⟨S320000, .i32⟩ : BufTy).Contents (Elt F) → (⟨S320000, .i1⟩ : BufTy).Contents (Elt F)),
    StableHlo.nullary main_c_21 (constantI S_ 32 20000#32),
    StableHlo.unary main_c_21 main_v85 (broadcastInDim S320000 ![] bcast_S_S320000 : (⟨S_, .i32⟩ : BufTy).Contents (Elt F) → (⟨S320000, .i32⟩ : BufTy).Contents (Elt F)),
    StableHlo.binary main_v47 main_v85 main_v86 (addi : (⟨S320000, .i32⟩ : BufTy).Contents (Elt F) → (⟨S320000, .i32⟩ : BufTy).Contents (Elt F) → (⟨S320000, .i32⟩ : BufTy).Contents (Elt F)),
    StableHlo.ternary main_v84 main_v86 main_v47 main_v87 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v87 main_v88 (broadcastInDim S320000x1 ![0] bcast_S320000_S320000x1_0 : (⟨S320000, .i32⟩ : BufTy).Contents (Elt F) → (⟨S320000x1, .i32⟩ : BufTy).Contents (Elt F)),
    StableHlo.binary main_v82 main_v88 main_v89 ((fun x i => Host.gather gather_S20000x64_S320000x1_S320000x64_1_0_n_n_0_1_164 x i) : (⟨S20000x64, .f32⟩ : BufTy).Contents (Elt F) → (⟨S320000x1, .i32⟩ : BufTy).Contents (Elt F) → (⟨S320000x64, .f32⟩ : BufTy).Contents (Elt F)),
    StableHlo.nullary main_c_22 (constantI S_ 32 0#32),
    StableHlo.unary main_c_22 main_v90 (broadcastInDim S320000 ![] bcast_S_S320000 : (⟨S_, .i32⟩ : BufTy).Contents (Elt F) → (⟨S320000, .i32⟩ : BufTy).Contents (Elt F)),
    StableHlo.binary main_v45 main_v90 main_v91 (cmpi .slt : (⟨S320000, .i32⟩ : BufTy).Contents (Elt F) → (⟨S320000, .i32⟩ : BufTy).Contents (Elt F) → (⟨S320000, .i1⟩ : BufTy).Contents (Elt F)),
    StableHlo.nullary main_c_23 (constantI S_ 32 20000#32),
    StableHlo.unary main_c_23 main_v92 (broadcastInDim S320000 ![] bcast_S_S320000 : (⟨S_, .i32⟩ : BufTy).Contents (Elt F) → (⟨S320000, .i32⟩ : BufTy).Contents (Elt F)),
    StableHlo.binary main_v45 main_v92 main_v93 (addi : (⟨S320000, .i32⟩ : BufTy).Contents (Elt F) → (⟨S320000, .i32⟩ : BufTy).Contents (Elt F) → (⟨S320000, .i32⟩ : BufTy).Contents (Elt F)) ]

theorem ops1_sub : (ops1 : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., nullary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub ..⟩

/-- The references window 1's operations write, in the operations' order. -/
abbrev w1 : List (Ref sig .tc) :=
  [ main_v47, main_c_11, main_v48, main_v49, main_c_12, main_v50, main_v51, main_v52,
    main_v53, main_v54, main_c_13, main_v55, main_v56, main_c_14, main_v57, main_v58,
    main_v59, main_v60, main_v61, main_v62, main_v63, main_cst_15, main_v64, main_cst_16,
    main_v65, main_v66, main_cst_17, main_v67, main_v68, main_c_18, main_call1.cst.ref, main_call1.v0.ref,
    main_call1.v1.ref, main_call1.cst_0.ref, main_call1.v2.ref, main_call1.v3.ref, main_call1.v4.ref, main_call1.v5.ref, main_call1.v6.ref, main_call1.v7.ref,
    main_call1.cst_1.ref, main_call1.v8.ref, main_call1.cst_2.ref, main_call1.v9.ref, main_call1.v10.ref, main_call1.v11.ref, main_call1.v12.ref, main_call1.cst_3.ref,
    main_call1.v13.ref, main_call1.cst_4.ref, main_call1.call0.v0.ref, main_call1.call0.v1.ref, main_call1.call0.v2.ref, main_v70, main_v71, main_cst_19,
    main_v72, main_v73, main_v74, main_v75, main_v76, main_v77, main_v78, main_v79,
    main_v80, main_v81, main_v82, main_c_20, main_v83, main_v84, main_c_21, main_v85,
    main_v86, main_v87, main_v88, main_v89, main_c_22, main_v90, main_v91, main_c_23,
    main_v92, main_v93 ]

/-- Position by position, each operation of window 1 writes exactly that reference. -/
theorem ops1_writes : List.Forall₂ (fun (op : HloOp τ sig (Elt F)) (r : Ref sig .tc) => op.writes = {Proc.devRef (τ := τ) .tc r}) ops1 w1 := by
  repeat (first | exact List.Forall₂.nil | refine List.Forall₂.cons rfl ?_)

/-- The 64 operations of @main's window 2, in order, each call's callee operations in its place over that call's buffers. -/
abbrev ops2 : List (HloOp τ sig (Elt F)) :=
  [ StableHlo.ternary main_v91 main_v93 main_v45 main_v94 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v94 main_v95 (broadcastInDim S320000x1 ![0] bcast_S320000_S320000x1_0 : (⟨S320000, .i32⟩ : BufTy).Contents (Elt F) → (⟨S320000x1, .i32⟩ : BufTy).Contents (Elt F)),
    StableHlo.binary main_v82 main_v95 main_v96 ((fun x i => Host.gather gather_S20000x64_S320000x1_S320000x64_1_0_n_n_0_1_164 x i) : (⟨S20000x64, .f32⟩ : BufTy).Contents (Elt F) → (⟨S320000x1, .i32⟩ : BufTy).Contents (Elt F) → (⟨S320000x64, .f32⟩ : BufTy).Contents (Elt F)),
    StableHlo.nary ![main_v89, main_v96, main_arg2, main_v64, main_arg3] main_v97 (fun u => concatenate S320000x384 1 [⟨S320000x64, u 0⟩, ⟨S320000x64, u 1⟩, ⟨S320000x64, u 2⟩, ⟨S320000x128, u 3⟩, ⟨S320000x64, u 4⟩] concatenates_S320000x64_S320000x64_S320000x64_S320000x128_S320000x64_S320000x384_d1),
    StableHlo.binary main_v97 main_arg4 main_v98 ((fun l r => Host.dotGeneral dot_S320000x384_S384x64_S320000x64_1_0_0_1_n_n none l r) : (⟨S320000x384, .f32⟩ : BufTy).Contents (Elt F) → (⟨S384x64, .f32⟩ : BufTy).Contents (Elt F) → (⟨S320000x64, .f32⟩ : BufTy).Contents (Elt F)),
    StableHlo.unary main_arg5 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S320000x64 ![0, 1] bcast_S1x64_S320000x64_0_1 : (⟨S1x64, .f32⟩ : BufTy).Contents (Elt F) → (⟨S320000x64, .f32⟩ : BufTy).Contents (Elt F)),
    StableHlo.binary main_v98 main_v100 main_v101 (addf : (⟨S320000x64, .f32⟩ : BufTy).Contents (Elt F) → (⟨S320000x64, .f32⟩ : BufTy).Contents (Elt F) → (⟨S320000x64, .f32⟩ : BufTy).Contents (Elt F)),
    StableHlo.TRef.unary (.of main_v101 : StableHlo.TRef sig ⟨S320000x64, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S320000x64 ![] bcast_S_S320000x64),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S320000x64 ![] bcast_S_S320000x64),
    StableHlo.TRef.binary main_call2.v4 main_call2.v3 main_call2.v5 Host.divf,
    StableHlo.TRef.binary (.of main_v101 : StableHlo.TRef sig ⟨S320000x64, .f32⟩) main_call2.v5 main_call2.v6 mulf,
    StableHlo.binary main_v102 main_arg6 main_v103 ((fun l r => Host.dotGeneral dot_S320000x64_S64x64_S320000x64_1_0_0_1_n_n none l r) : (⟨S320000x64, .f32⟩ : BufTy).Contents (Elt F) → (⟨S64x64, .f32⟩ : BufTy).Contents (Elt F) → (⟨S320000x64, .f32⟩ : BufTy).Contents (Elt F)),
    StableHlo.unary main_arg7 main_v104 (broadcastInDim S1x64 ![1] bcast_S64_S1x64_1 : (⟨S64, .f32⟩ : BufTy).Contents (Elt F) → (⟨S1x64, .f32⟩ : BufTy).Contents (Elt F)),
    StableHlo.unary main_v104 main_v105 (broadcastInDim S320000x64 ![0, 1] bcast_S1x64_S320000x64_0_1 : (⟨S1x64, .f32⟩ : BufTy).Contents (Elt F) → (⟨S320000x64, .f32⟩ : BufTy).Contents (Elt F)),
    StableHlo.binary main_v103 main_v105 main_v106 (addf : (⟨S320000x64, .f32⟩ : BufTy).Contents (Elt F) → (⟨S320000x64, .f32⟩ : BufTy).Contents (Elt F) → (⟨S320000x64, .f32⟩ : BufTy).Contents (Elt F)),
    StableHlo.binary main_v106 main_arg8 main_v107 ((fun l r => Host.dotGeneral dot_S320000x64_S64x64_S320000x64_1_0_0_1_n_n none l r) : (⟨S320000x64, .f32⟩ : BufTy).Contents (Elt F) → (⟨S64x64, .f32⟩ : BufTy).Contents (Elt F) → (⟨S320000x64, .f32⟩ : BufTy).Contents (Elt F)),
    StableHlo.unary main_arg9 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S320000x64 ![0, 1] bcast_S1x64_S320000x64_0_1 : (⟨S1x64, .f32⟩ : BufTy).Contents (Elt F) → (⟨S320000x64, .f32⟩ : BufTy).Contents (Elt F)),
    StableHlo.binary main_v107 main_v109 main_v110 (addf : (⟨S320000x64, .f32⟩ : BufTy).Contents (Elt F) → (⟨S320000x64, .f32⟩ : BufTy).Contents (Elt F) → (⟨S320000x64, .f32⟩ : BufTy).Contents (Elt F)),
    StableHlo.TRef.unary (.of main_v110 : StableHlo.TRef sig ⟨S320000x64, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S320000x64 ![] bcast_S_S320000x64),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S320000x64 ![] bcast_S_S320000x64),
    StableHlo.TRef.binary main_call3.v4 main_call3.v3 main_call3.v5 Host.divf,
    StableHlo.TRef.binary (.of main_v110 : StableHlo.TRef sig ⟨S320000x64, .f32⟩) main_call3.v5 main_call3.v6 mulf,
    StableHlo.binary main_v111 main_arg10 main_v112 ((fun l r => Host.dotGeneral dot_S320000x64_S64x128_S320000x128_1_0_0_1_n_n none l r) : (⟨S320000x64, .f32⟩ : BufTy).Contents (Elt F) → (⟨S64x128, .f32⟩ : BufTy).Contents (Elt F) → (⟨S320000x128, .f32⟩ : BufTy).Contents (Elt F)),
    StableHlo.unary main_arg11 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S320000x128 ![0, 1] bcast_S1x128_S320000x128_0_1 : (⟨S1x128, .f32⟩ : BufTy).Contents (Elt F) → (⟨S320000x128, .f32⟩ : BufTy).Contents (Elt F)),
    StableHlo.binary main_v112 main_v114 main_v115 (addf : (⟨S320000x128, .f32⟩ : BufTy).Contents (Elt F) → (⟨S320000x128, .f32⟩ : BufTy).Contents (Elt F) → (⟨S320000x128, .f32⟩ : BufTy).Contents (Elt F)),
    StableHlo.nullary main_cst_24 (constant S_ .f32 0xC1200000#32),
    StableHlo.nullary main_cst_25 (constant S_ .f32 0x41200000#32),
    StableHlo.TRef.unary (.of main_cst_24 : StableHlo.TRef sig ⟨S_, .f32⟩) main_call4.v0 id,
    StableHlo.TRef.unary main_call4.v0 main_call4.v1 (broadcastInDim S320000x128 ![] bcast_S_S320000x128),
    StableHlo.TRef.binary main_call4.v1 (.of main_v115 : StableHlo.TRef sig ⟨S320000x128, .f32⟩) main_call4.v2 maximumf,
    StableHlo.TRef.unary (.of main_cst_25 : StableHlo.TRef sig ⟨S_, .f32⟩) main_call4.v3 id,
    StableHlo.TRef.unary main_call4.v3 main_call4.v4 (broadcastInDim S320000x128 ![] bcast_S_S320000x128),
    StableHlo.TRef.binary main_call4.v4 main_call4.v2 main_call4.v5 minimumf,
    StableHlo.unary main_v64 main_v117 (broadcastInDim S320000x1x128 ![0, 2] bcast_S320000x128_S320000x1x128_0_2 : (⟨S320000x128, .f32⟩ : BufTy).Contents (Elt F) → (⟨S320000x1x128, .f32⟩ : BufTy).Contents (Elt F)),
    StableHlo.nullary main_cst_26 (constant S_ .f32 0x322BCC77#32),
    StableHlo.unary main_cst_26 main_v118 (broadcastInDim S320000x1x128 ![] bcast_S_S320000x1x128 : (⟨S_, .f32⟩ : BufTy).Contents (Elt F) → (⟨S320000x1x128, .f32⟩ : BufTy).Contents (Elt F)),
    StableHlo.binary main_v117 main_v118 main_v119 (addf : (⟨S320000x1x128, .f32⟩ : BufTy).Contents (Elt F) → (⟨S320000x1x128, .f32⟩ : BufTy).Contents (Elt F) → (⟨S320000x1x128, .f32⟩ : BufTy).Contents (Elt F)),
    StableHlo.unary main_v119 main_v120 (Host.sqrt : (⟨S320000x1x128, .f32⟩ : BufTy).Contents (Elt F) → (⟨S320000x1x128, .f32⟩ : BufTy).Contents (Elt F)),
    StableHlo.nullary main_cst_27 (constant S_ .f32 0x3F800000#32),
    StableHlo.unary main_cst_27 main_v121 (broadcastInDim S320000x1x128 ![] bcast_S_S320000x1x128 : (⟨S_, .f32⟩ : BufTy).Contents (Elt F) → (⟨S320000x1x128, .f32⟩ : BufTy).Contents (Elt F)),
    StableHlo.binary main_v121 main_v120 main_v122 (addf : (⟨S320000x1x128, .f32⟩ : BufTy).Contents (Elt F) → (⟨S320000x1x128, .f32⟩ : BufTy).Contents (Elt F) → (⟨S320000x1x128, .f32⟩ : BufTy).Contents (Elt F)),
    StableHlo.unary main_v122 main_v123 (broadcastInDim S320000x3x128 ![0, 1, 2] bcast_S320000x1x128_S320000x3x128_0_1_2 : (⟨S320000x1x128, .f32⟩ : BufTy).Contents (Elt F) → (⟨S320000x3x128, .f32⟩ : BufTy).Contents (Elt F)),
    StableHlo.binary main_v62 main_v123 main_v124 (Host.divf : (⟨S320000x3x128, .f32⟩ : BufTy).Contents (Elt F) → (⟨S320000x3x128, .f32⟩ : BufTy).Contents (Elt F) → (⟨S320000x3x128, .f32⟩ : BufTy).Contents (Elt F)),
    StableHlo.unary main_v116 main_v125 (broadcastInDim S320000x1x128 ![0, 2] bcast_S320000x128_S320000x1x128_0_2 : (⟨S320000x128, .f32⟩ : BufTy).Contents (Elt F) → (⟨S320000x1x128, .f32⟩ : BufTy).Contents (Elt F)),
    StableHlo.unary main_v125 main_v126 (broadcastInDim S320000x3x128 ![0, 1, 2] bcast_S320000x1x128_S320000x3x128_0_1_2 : (⟨S320000x1x128, .f32⟩ : BufTy).Contents (Elt F) → (⟨S320000x3x128, .f32⟩ : BufTy).Contents (Elt F)),
    StableHlo.binary main_v124 main_v126 main_v127 (mulf : (⟨S320000x3x128, .f32⟩ : BufTy).Contents (Elt F) → (⟨S320000x3x128, .f32⟩ : BufTy).Contents (Elt F) → (⟨S320000x3x128, .f32⟩ : BufTy).Contents (Elt F)),
    StableHlo.nullary main_cst_28 (constant S_ .f32 0x00000000#32),
    StableHlo.unary main_cst_28 main_v128 (broadcastInDim S20000x3x128 ![] bcast_S_S20000x3x128 : (⟨S_, .f32⟩ : BufTy).Contents (Elt F) → (⟨S20000x3x128, .f32⟩ : BufTy).Contents (Elt F)),
    StableHlo.unary main_v47 main_v129 (broadcastInDim S320000x1 ![0] bcast_S320000_S320000x1_0 : (⟨S320000, .i32⟩ : BufTy).Contents (Elt F) → (⟨S320000x1, .i32⟩ : BufTy).Contents (Elt F)),
    StableHlo.ternary main_v128 main_v129 main_v127 main_v130 ((fun x i u => Host.scatterAdd scatter_S20000x3x128_S320000x1_S320000x3x128_12_0_0_1 x i u) : (⟨S20000x3x128, .f32⟩ : BufTy).Contents (Elt F) → (⟨S320000x1, .i32⟩ : BufTy).Contents (Elt F) → (⟨S320000x3x128, .f32⟩ : BufTy).Contents (Elt F) → (⟨S20000x3x128, .f32⟩ : BufTy).Contents (Elt F)),
    StableHlo.binary main_v43 main_v130 main_v131 (addf : (⟨S20000x3x128, .f32⟩ : BufTy).Contents (Elt F) → (⟨S20000x3x128, .f32⟩ : BufTy).Contents (Elt F) → (⟨S20000x3x128, .f32⟩ : BufTy).Contents (Elt F)) ]

theorem ops2_sub : (ops2 : List (HloOp τ sig (Elt F))).Forall fun op => op.bufs ⊆ tcRefs τ sig :=
  ⟨ternary_bufs_sub .., unary_bufs_sub .., binary_bufs_sub .., nary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., nullary_bufs_sub ..,
    unary_bufs_sub .., binary_bufs_sub .., unary_bufs_sub .., nullary_bufs_sub .., unary_bufs_sub .., binary_bufs_sub ..,
    unary_bufs_sub .., binary_bufs_sub .., unary_bufs_sub .., unary_bufs_sub .., binary_bufs_sub .., nullary_bufs_sub ..,
    unary_bufs_sub .., unary_bufs_sub .., ternary_bufs_sub .., binary_bufs_sub ..⟩

/-- The references window 2's operations write, in the operations' order. -/
abbrev w2 : List (Ref sig .tc) :=
  [ main_v94, main_v95, main_v96, main_v97, main_v98, main_v99, main_v100, main_v101,
    main_call2.v0.ref, main_call2.v1.ref, main_call2.cst.ref, main_call2.v2.ref, main_call2.v3.ref, main_call2.cst_0.ref, main_call2.v4.ref, main_call2.v5.ref,
    main_call2.v6.ref, main_v103, main_v104, main_v105, main_v106, main_v107, main_v108, main_v109,
    main_v110, main_call3.v0.ref, main_call3.v1.ref, main_call3.cst.ref, main_call3.v2.ref, main_call3.v3.ref, main_call3.cst_0.ref, main_call3.v4.ref,
    main_call3.v5.ref, main_call3.v6.ref, main_v112, main_v113, main_v114, main_v115, main_cst_24, main_cst_25,
    main_call4.v0.ref, main_call4.v1.ref, main_call4.v2.ref, main_call4.v3.ref, main_call4.v4.ref, main_call4.v5.ref, main_v117, main_cst_26,
    main_v118, main_v119, main_v120, main_cst_27, main_v121, main_v122, main_v123, main_v124,
    main_v125, main_v126, main_v127, main_cst_28, main_v128, main_v129, main_v130, main_v131 ]

/-- Position by position, each operation of window 2 writes exactly that reference. -/
theorem ops2_writes : List.Forall₂ (fun (op : HloOp τ sig (Elt F)) (r : Ref sig .tc) => op.writes = {Proc.devRef (τ := τ) .tc r}) ops2 w2 := by
  repeat (first | exact List.Forall₂.nil | refine List.Forall₂.cons rfl ?_)

end Cert.ReferenceIdeal.RefRun

end
-- ==== Proof.RefChain.lean ====
import proofs.«144983_j80272938762991_1_alg».proof.ReferenceIdeal

noncomputable section

namespace Cert.ReferenceIdeal.RefRun

open Cert.ReferenceIdeal Cert.ReferenceIdeal.Facts₀ Idealize.ShloMosaic Idealize.SL.Sem

variable {F : FTy → Type} [FloatOps F] [Facts]

/-- The per-edge message as one term of the edge stage's inputs. With `ht`, `hs` the normalized node features
    gathered at an edge's two ends, `ea`, `te` the two per-edge feature tables and `rel` the difference of the
    two ends' coordinates: the squared length `d2 = Σ_k rel²` (summed over the middle axis of 3); the five blocks
    `[ht, hs, ea, d2, te]` side by side (384 columns) through the first layer `· wm1 + bm1`, `silu`
    (`x · 1 / (1 + exp (−x))`), the second layer `· wm2 + bm2`, then `· wx1 + bx1`, `silu` again and
    `· wx2 + bx2`, clamped to `[−10, 10]` (the lower bound first, then the upper); the result, one row of 128 per
    edge, scales each of the 3 components of `rel / (1 + √(d2 + 1e-8))`. -/
def refChain (ht hs ea te : (⟨S320000x64, .f32⟩ : BufTy).Contents (Elt F)) (rel : (⟨S320000x3x128, .f32⟩ : BufTy).Contents (Elt F))
    (wm1 : (⟨S384x64, .f32⟩ : BufTy).Contents (Elt F)) (bm1 : (⟨S64, .f32⟩ : BufTy).Contents (Elt F)) (wm2 : (⟨S64x64, .f32⟩ : BufTy).Contents (Elt F)) (bm2 : (⟨S64, .f32⟩ : BufTy).Contents (Elt F))
    (wx1 : (⟨S64x64, .f32⟩ : BufTy).Contents (Elt F)) (bx1 : (⟨S64, .f32⟩ : BufTy).Contents (Elt F)) (wx2 : (⟨S64x128, .f32⟩ : BufTy).Contents (Elt F)) (bx2 : (⟨S128, .f32⟩ : BufTy).Contents (Elt F)) :
    (⟨S320000x3x128, .f32⟩ : BufTy).Contents (Elt F) :=
  mulf (Host.divf rel (broadcastInDim S320000x3x128 ![0, 1, 2] bcast_S320000x1x128_S320000x3x128_0_1_2 (addf (broadcastInDim S320000x1x128 ![] bcast_S_S320000x1x128 (constant S_ .f32 0x3F800000#32)) (Host.sqrt (addf (broadcastInDim S320000x1x128 ![0, 2] bcast_S320000x128_S320000x1x128_0_2 (Host.reduceAdd (mulf rel rel) (constant S_ .f32 0x00000000#32) reducesTo_S320000x3x128_S320000x128_d1 h_S_)) (broadcastInDim S320000x1x128 ![] bcast_S_S320000x1x128 (constant S_ .f32 0x322BCC77#32))))))) (broadcastInDim S320000x3x128 ![0, 1, 2] bcast_S320000x1x128_S320000x3x128_0_1_2 (broadcastInDim S320000x1x128 ![0, 2] bcast_S320000x128_S320000x1x128_0_2 (minimumf (broadcastInDim S320000x128 ![] bcast_S_S320000x128 (id (constant S_ .f32 0x41200000#32))) (maximumf (broadcastInDim S320000x128 ![] bcast_S_S320000x128 (id (constant S_ .f32 0xC1200000#32))) (addf (Host.dotGeneral dot_S320000x64_S64x128_S320000x128_1_0_0_1_n_n none (mulf (addf (Host.dotGeneral dot_S320000x64_S64x64_S320000x64_1_0_0_1_n_n none (addf (Host.dotGeneral dot_S320000x64_S64x64_S320000x64_1_0_0_1_n_n none (mulf (addf (Host.dotGeneral dot_S320000x384_S384x64_S320000x64_1_0_0_1_n_n none (concatenate S320000x384 1 [⟨S320000x64, ht⟩, ⟨S320000x64, hs⟩, ⟨S320000x64, ea⟩, ⟨S320000x128, (Host.reduceAdd (mulf rel rel) (constant S_ .f32 0x00000000#32) reducesTo_S320000x3x128_S320000x128_d1 h_S_)⟩, ⟨S320000x64, te⟩] concatenates_S320000x64_S320000x64_S320000x64_S320000x128_S320000x64_S320000x384_d1) wm1) (broadcastInDim S320000x64 ![0, 1] bcast_S1x64_S320000x64_0_1 (broadcastInDim S1x64 ![1] bcast_S64_S1x64_1 bm1))) (Host.divf (broadcastInDim S320000x64 ![] bcast_S_S320000x64 (constant S_ .f32 0x3F800000#32)) (addf (broadcastInDim S320000x64 ![] bcast_S_S320000x64 (constant S_ .f32 0x3F800000#32)) (Host.exp (Host.negf (addf (Host.dotGeneral dot_S320000x384_S384x64_S320000x64_1_0_0_1_n_n none (concatenate S320000x384 1 [⟨S320000x64, ht⟩, ⟨S320000x64, hs⟩, ⟨S320000x64, ea⟩, ⟨S320000x128, (Host.reduceAdd (mulf rel rel) (constant S_ .f32 0x00000000#32) reducesTo_S320000x3x128_S320000x128_d1 h_S_)⟩, ⟨S320000x64, te⟩] concatenates_S320000x64_S320000x64_S320000x64_S320000x128_S320000x64_S320000x384_d1) wm1) (broadcastInDim S320000x64 ![0, 1] bcast_S1x64_S320000x64_0_1 (broadcastInDim S1x64 ![1] bcast_S64_S1x64_1 bm1)))))))) wm2) (broadcastInDim S320000x64 ![0, 1] bcast_S1x64_S320000x64_0_1 (broadcastInDim S1x64 ![1] bcast_S64_S1x64_1 bm2))) wx1) (broadcastInDim S320000x64 ![0, 1] bcast_S1x64_S320000x64_0_1 (broadcastInDim S1x64 ![1] bcast_S64_S1x64_1 bx1))) (Host.divf (broadcastInDim S320000x64 ![] bcast_S_S320000x64 (constant S_ .f32 0x3F800000#32)) (addf (broadcastInDim S320000x64 ![] bcast_S_S320000x64 (constant S_ .f32 0x3F800000#32)) (Host.exp (Host.negf (addf (Host.dotGeneral dot_S320000x64_S64x64_S320000x64_1_0_0_1_n_n none (addf (Host.dotGeneral dot_S320000x64_S64x64_S320000x64_1_0_0_1_n_n none (mulf (addf (Host.dotGeneral dot_S320000x384_S384x64_S320000x64_1_0_0_1_n_n none (concatenate S320000x384 1 [⟨S320000x64, ht⟩, ⟨S320000x64, hs⟩, ⟨S320000x64, ea⟩, ⟨S320000x128, (Host.reduceAdd (mulf rel rel) (constant S_ .f32 0x00000000#32) reducesTo_S320000x3x128_S320000x128_d1 h_S_)⟩, ⟨S320000x64, te⟩] concatenates_S320000x64_S320000x64_S320000x64_S320000x128_S320000x64_S320000x384_d1) wm1) (broadcastInDim S320000x64 ![0, 1] bcast_S1x64_S320000x64_0_1 (broadcastInDim S1x64 ![1] bcast_S64_S1x64_1 bm1))) (Host.divf (broadcastInDim S320000x64 ![] bcast_S_S320000x64 (constant S_ .f32 0x3F800000#32)) (addf (broadcastInDim S320000x64 ![] bcast_S_S320000x64 (constant S_ .f32 0x3F800000#32)) (Host.exp (Host.negf (addf (Host.dotGeneral dot_S320000x384_S384x64_S320000x64_1_0_0_1_n_n none (concatenate S320000x384 1 [⟨S320000x64, ht⟩, ⟨S320000x64, hs⟩, ⟨S320000x64, ea⟩, ⟨S320000x128, (Host.reduceAdd (mulf rel rel) (constant S_ .f32 0x00000000#32) reducesTo_S320000x3x128_S320000x128_d1 h_S_)⟩, ⟨S320000x64, te⟩] concatenates_S320000x64_S320000x64_S320000x64_S320000x128_S320000x64_S320000x384_d1) wm1) (broadcastInDim S320000x64 ![0, 1] bcast_S1x64_S320000x64_0_1 (broadcastInDim S1x64 ![1] bcast_S64_S1x64_1 bm1)))))))) wm2) (broadcastInDim S320000x64 ![0, 1] bcast_S1x64_S320000x64_0_1 (broadcastInDim S1x64 ![1] bcast_S64_S1x64_1 bm2))) wx1) (broadcastInDim S320000x64 ![0, 1] bcast_S1x64_S320000x64_0_1 (broadcastInDim S1x64 ![1] bcast_S64_S1x64_1 bx1)))))))) wx2) (broadcastInDim S320000x128 ![0, 1] bcast_S1x128_S320000x128_0_1 (broadcastInDim S1x128 ![1] bcast_S128_S1x128_1 bx2)))))))

end Cert.ReferenceIdeal.RefRun

end
-- ==== Proof.LibAfterAppend.lean ====
/-
  A general fact about a straight line of host operations: running one list of operations and then another leaves
  every buffer holding what running their concatenation leaves. It lets a long line be read stretch by stretch, the
  contents after an earlier stretch standing as a name while a later stretch is computed.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

end Cert.LibAfterAppend
-- ==== Proof.RefRun.lean ====
import proofs.«144983_j80272938762991_1_alg».proof.Proof.RefOps
import proofs.«144983_j80272938762991_1_alg».proof.Proof.RefChain
import proofs.«144983_j80272938762991_1_alg».proof.Proof.LibAfterAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: the three windows' in order. -/
abbrev ops : List (HloOp τ sig (Elt F)) := ops0 ++ ops1 ++ ops2

-- each window is some sixty binds re-associated, a callee's body unfolded at its call
set_option maxRecDepth 8192 in
/-- The first window is its straight line: the callee's definition unfolded at the call and the record at its
    fields, both sides are one chain of `hlo` steps once sequencing is reassociated. -/
theorem main_part0_eq (c : Dev nD) : main_part0 (F := F) c = seq ops0 := by
  simp only [main_part0, fn_norm.body, seq, bind_assoc, pure_bind]
  rfl

set_option maxRecDepth 8192 in
/-- The second window likewise; the variance's callee calls the select's. -/
theorem main_part1_eq (c : Dev nD) : main_part1 (F := F) c = seq ops1 := by
  simp only [main_part1, fn_var.body, fn_where.body, seq, bind_assoc, pure_bind]
  rfl

set_option maxRecDepth 8192 in
/-- The third window likewise: the two activations' and the clamp's callees. -/
theorem main_part2_eq (c : Dev nD) : main_part2 (F := F) c = seq ops2 := by
  simp only [main_part2, fn_silu.body, fn_clip.body, seq, bind_assoc, pure_bind]

/-- @main is the three windows' lines run one after the other, which is their concatenation run as one. -/
theorem main_eq (c : Dev nD) : main (F := F) c = seq ops := by
  rw [show (ops : List (HloOp τ sig (Elt F))) = ops0 ++ (ops1 ++ ops2) from List.append_assoc _ _ _,
    seq_append, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨ops0_sub, ops1_sub⟩, ops2_sub⟩

/-- Every operation of a window determines its results: none allocates. By cases on the literal list. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · rcases List.mem_append.mp h with h | h
    · exact ops0_fresh op h
    · exact ops1_fresh op h
  · exact ops2_fresh op h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## Reading the line

A straight line in which every operation writes one buffer of its own is read one operation at a time: a buffer holds,
at the end, what the last operation that writes it left, and that operation's operands hold what they held when it ran
provided nothing later writes them. The lists `w0`, `w1`, `w2` name the buffer each operation writes, so "nothing later
writes it" is membership in a list of references, which is decided. -/

section Line
variable {τ' : Topo} {sig' : RefSig} {Val : EltTy → Type}

/-- Position by position, the operation writes exactly that reference. -/
abbrev WritesAt (l : List (HloOp τ' sig' Val)) (w : List (Ref sig' .tc)) : Prop :=
  List.Forall₂ (fun (op : HloOp τ' sig' Val) (r : Ref sig' .tc) => op.writes = {Proc.devRef (τ := τ') .tc r}) l w

/-- A reference none of the line's operations writes keeps its contents. -/
theorem after_kept {l : List (HloOp τ' sig' Val)} {w : List (Ref sig' .tc)} (h : WritesAt l w) {r : Ref sig' .tc} (hr : r ∉ w)
    (E : Valuation τ' sig' Val) : after l E (Proc.devRef .tc r) = E (Proc.devRef .tc r) := by
  induction h generalizing E with
  | nil => rfl
  | @cons op y l w hop _ ih =>
    rw [after_cons, ih (fun hm => hr (List.mem_cons_of_mem _ hm)),
      op.result_of_not_mem E (by
        rw [hop, Finset.mem_singleton]
        exact devRef_ne_of_ne fun e => hr (e ▸ List.mem_cons_self))]

/-- The line read in two stretches at any position. -/
theorem after_take_drop (l : List (HloOp τ' sig' Val)) (k : Nat) (E : Valuation τ' sig' Val) :
    after l E = after (l.drop k) (after (l.take k) E) := by
  conv_lhs => rw [← List.take_append_drop k l]
  exact Cert.LibAfterAppend.after_append _ _ _

/-- A reference no operation from position `k` on writes holds, at the end, what it held after the first `k`. -/
theorem after_before {l : List (HloOp τ' sig' Val)} {w : List (Ref sig' .tc)} (h : WritesAt l w) (k : Nat) {r : Ref sig' .tc}
    (hr : r ∉ w.drop k) (E : Valuation τ' sig' Val) :
    after l E (Proc.devRef .tc r) = after (l.take k) E (Proc.devRef .tc r) := by
  rw [after_take_drop l k E, after_kept (List.forall₂_drop k h) hr]

/-- A reference no operation after position `k` writes holds, at the end, what the `k`-th operation leaves it. -/
theorem after_at {l : List (HloOp τ' sig' Val)} {w : List (Ref sig' .tc)} (h : WritesAt l w) (k : Nat) {op : HloOp τ' sig' Val}
    (hop : l[k]? = some op) {r : Ref sig' .tc} (hr : r ∉ w.drop (k + 1)) (E : Valuation τ' sig' Val) :
    after l E (Proc.devRef .tc r) = op.result (after (l.take k) E) (Proc.devRef .tc r) := by
  obtain ⟨hk, rfl⟩ := List.getElem?_eq_some_iff.mp hop
  rw [after_take_drop l k E, List.drop_eq_getElem_cons hk, after_cons, after_kept (List.forall₂_drop (k + 1) h) hr]

end Line

/-- The whole line's written references, position by position. -/
theorem ops_writes : WritesAt (ops : List (HloOp τ sig (Elt F))) (w0 ++ w1 ++ w2) :=
  List.rel_append (List.rel_append ops0_writes ops1_writes) ops2_writes

/-- The line read window by window. -/
theorem after_ops (V : Valuation τ sig (Elt F)) : after ops V = after ops2 (after ops1 (after ops0 V)) := by
  rw [show (ops : List (HloOp τ sig (Elt F))) = ops0 ++ ops1 ++ ops2 from rfl, Cert.LibAfterAppend.after_append,
    Cert.LibAfterAppend.after_append]

/-! ## The reads -/

section Steps
variable {τ' : Topo} {sig' : RefSig} {Val : EltTy → Type}
variable {l : List (HloOp τ' sig' Val)} {w : List (Ref sig' .tc)}

/-- One operation read at the end of the line: its result there is its function of its operands there, when nothing
    later writes the result and nothing from it on writes an operand. -/
theorem step_nullary (h : WritesAt l w) (k : Nat) {y : Ref sig' .tc} {v : y.ty.Contents Val} {hy}
    (hop : l[k]? = some (nullary (τ := τ') y v hy)) (hy' : y ∉ w.drop (k + 1)) (E : Valuation τ' sig' Val) :
    after l E (Proc.devRef .tc y) = v := by
  rw [after_at h k hop hy', nullary_result]

theorem step_unary (h : WritesAt l w) (k : Nat) {x y : Ref sig' .tc} {f : x.ty.Contents Val → y.ty.Contents Val} {hx hy}
    (hop : l[k]? = some (unary (τ := τ') x y f hx hy)) (hy' : y ∉ w.drop (k + 1)) (hx' : x ∉ w.drop k)
    (E : Valuation τ' sig' Val) :
    after l E (Proc.devRef .tc y) = f (after l E (Proc.devRef .tc x)) := by
  rw [after_at h k hop hy', unary_result, after_before h k hx']

theorem step_binary (h : WritesAt l w) (k : Nat) {a b y : Ref sig' .tc}
    {f : a.ty.Contents Val → b.ty.Contents Val → y.ty.Contents Val} {ha hb hy}
    (hop : l[k]? = some (binary (τ := τ') a b y f ha hb hy)) (hy' : y ∉ w.drop (k + 1)) (ha' : a ∉ w.drop k)
    (hb' : b ∉ w.drop k) (E : Valuation τ' sig' Val) :
    after l E (Proc.devRef .tc y) = f (after l E (Proc.devRef .tc a)) (after l E (Proc.devRef .tc b)) := by
  rw [after_at h k hop hy', binary_result, after_before h k ha', after_before h k hb']

theorem step_ternary (h : WritesAt l w) (k : Nat) {c a b y : Ref sig' .tc}
    {f : c.ty.Contents Val → a.ty.Contents Val → b.ty.Contents Val → y.ty.Contents Val} {hc ha hb hy}
    (hop : l[k]? = some (ternary (τ := τ') c a b y f hc ha hb hy)) (hy' : y ∉ w.drop (k + 1)) (hc' : c ∉ w.drop k)
    (ha' : a ∉ w.drop k) (hb' : b ∉ w.drop k) (E : Valuation τ' sig' Val) :
    after l E (Proc.devRef .tc y)
      = f (after l E (Proc.devRef .tc c)) (after l E (Proc.devRef .tc a)) (after l E (Proc.devRef .tc b)) := by
  rw [after_at h k hop hy', ternary_result, after_before h k hc', after_before h k ha', after_before h k hb']

theorem step_reshape (h : WritesAt l w) (k : Nat) {x y : Ref sig' .tc} {he : x.ty.elt = y.ty.elt}
    {hn : x.ty.shape.ShapeCasts y.ty.shape} {hx hy}
    (hop : l[k]? = some (reshape (τ := τ') (Val := Val) x y he hn hx hy)) (hy' : y ∉ w.drop (k + 1)) (hx' : x ∉ w.drop k)
    (E : Valuation τ' sig' Val) :
    after l E (Proc.devRef .tc y) = fun i => he ▸ shapeCast y.ty.shape (after l E (Proc.devRef .tc x)) hn i := by
  rw [after_at h k hop hy', reshape_result, after_before h k hx']

end Steps

/-- The five blocks of an edge's input side by side: the features at its two ends, the first edge table, the squared
    length and the second edge table (384 columns). -/
def concat5 (p0 p1 p2 : (⟨S320000x64, .f32⟩ : BufTy).Contents (Elt F)) (p3 : (⟨S320000x128, .f32⟩ : BufTy).Contents (Elt F)) (p4 : (⟨S320000x64, .f32⟩ : BufTy).Contents (Elt F)) :
    (⟨S320000x384, .f32⟩ : BufTy).Contents (Elt F) :=
  concatenate S320000x384 1 [⟨S320000x64, p0⟩, ⟨S320000x64, p1⟩, ⟨S320000x64, p2⟩, ⟨S320000x128, p3⟩, ⟨S320000x64, p4⟩]
    concatenates_S320000x64_S320000x64_S320000x64_S320000x128_S320000x64_S320000x384_d1

/-- The concatenation's result with each block's contents at its own reference, as a plain function of the five: the
    blocks' contents go on being read (inside the list they would not be: the shape evidence depends on the list). -/
theorem v97_result' (G : Valuation τ sig (Elt F)) :
    (StableHlo.nary ![main_v89, main_v96, main_arg2, main_v64, main_arg3] main_v97 (fun u => concatenate S320000x384 1 [⟨S320000x64, u 0⟩, ⟨S320000x64, u 1⟩, ⟨S320000x64, u 2⟩, ⟨S320000x128, u 3⟩, ⟨S320000x64, u 4⟩] concatenates_S320000x64_S320000x64_S320000x64_S320000x128_S320000x64_S320000x384_d1) : HloOp τ sig (Elt F)).result G
        (no_index (Proc.devRef .tc main_v97))
      = concat5 (G (Proc.devRef .tc main_v89)) (G (Proc.devRef .tc main_v96)) (G (Proc.devRef .tc main_arg2))
          (G (Proc.devRef .tc main_v64)) (G (Proc.devRef .tc main_arg3)) := by
  rw [nary_result]; rfl

/-- The line's results by one pass (the concatenation by the lemma above). -/
macro "line_results" : tactic =>
  `(tactic| (simp (disch := decide) only [after_cons, after_nil,
      nullary_result', unary_result', binary_result', ternary_result', reshape_result', v97_result',
      nullary_result_ne', unary_result_ne', binary_result_ne', ternary_result_ne', reshape_result_ne', nary_result_ne']))

/-- Within the second window, from any contents `E` before it: the squared length of every edge's relative position. -/
theorem win1_v64 (E : Valuation τ sig (Elt F)) :
    after ops1 E (main_v64 : DevRef τ sig)
      = Host.reduceAdd (mulf (after ops1 E (main_v62 : DevRef τ sig)) (after ops1 E (main_v62 : DevRef τ sig))) (constant S_ .f32 0x00000000#32)
          reducesTo_S320000x3x128_S320000x128_d1 h_S_ := by
  rw [step_binary ops1_writes 22 (y := main_v64) (by rfl) (by decide) (by decide) (by decide) E,
    step_binary ops1_writes 20 (y := main_v63) (by rfl) (by decide) (by decide) (by decide) E,
    step_nullary ops1_writes 21 (y := main_cst_15) (by rfl) (by decide) E]

set_option maxRecDepth 8192 in
set_option maxHeartbeats 1600000 in
/-- Within the third window, from any contents `E` before it in which `main_v64` holds the squared length of
    `main_v62`: the message is the chain of the features at the two ends, the two edge tables and the relative
    position. -/
theorem win2_v127 (E : Valuation τ sig (Elt F))
    (h64 : E (main_v64 : DevRef τ sig)
      = Host.reduceAdd (mulf (E (main_v62 : DevRef τ sig)) (E (main_v62 : DevRef τ sig))) (constant S_ .f32 0x00000000#32)
          reducesTo_S320000x3x128_S320000x128_d1 h_S_) :
    after ops2 E (main_v127 : DevRef τ sig)
      = refChain (E (main_v89 : DevRef τ sig)) (after ops2 E (main_v96 : DevRef τ sig)) (E (main_arg2 : DevRef τ sig)) (E (main_arg3 : DevRef τ sig)) (E (main_v62 : DevRef τ sig))
          (E (main_arg4 : DevRef τ sig)) (E (main_arg5 : DevRef τ sig)) (E (main_arg6 : DevRef τ sig)) (E (main_arg7 : DevRef τ sig)) (E (main_arg8 : DevRef τ sig)) (E (main_arg9 : DevRef τ sig)) (E (main_arg10 : DevRef τ sig)) (E (main_arg11 : DevRef τ sig)) := by
  line_results
  rw [h64]
  rfl

/-- A reference neither of the first two windows writes holds, after them, what it held at the start. -/
theorem through01 {r : Ref sig .tc} (h0 : r ∉ w0) (h1 : r ∉ w1) (V : Valuation τ sig (Elt F)) :
    after ops1 (after ops0 V) (Proc.devRef .tc r) = V (Proc.devRef .tc r) := by
  rw [after_kept ops1_writes h1, after_kept ops0_writes h0]

set_option maxRecDepth 8192 in
/-- The message of every edge, at the end of the line, as the chain of the buffers it is formed from. -/
theorem v127_eq (V : Valuation τ sig (Elt F)) :
    after ops V (main_v127 : DevRef τ sig)
      = refChain (after ops V (main_v89 : DevRef τ sig)) (after ops V (main_v96 : DevRef τ sig)) (V (main_arg2 : DevRef τ sig)) (V (main_arg3 : DevRef τ sig)) (after ops V (main_v62 : DevRef τ sig))
          (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp only [after_ops]
  rw [win2_v127 _ (win1_v64 (after ops0 V)),
    after_kept ops2_writes (r := main_v89) (by decide), after_kept ops2_writes (r := main_v62) (by decide),
    through01 (r := main_arg2) (by decide) (by decide), through01 (r := main_arg3) (by decide) (by decide),
    through01 (r := main_arg4) (by decide) (by decide),
    through01 (r := main_arg5) (by decide) (by decide),
    through01 (r := main_arg6) (by decide) (by decide),
    through01 (r := main_arg7) (by decide) (by decide),
    through01 (r := main_arg8) (by decide) (by decide),
    through01 (r := main_arg9) (by decide) (by decide),
    through01 (r := main_arg10) (by decide) (by decide),
    through01 (r := main_arg11) (by decide) (by decide)]

set_option maxRecDepth 8192 in
/-- The END: the result is the normalised coordinates plus the messages summed at every edge's target node. -/
theorem v131_eq (V : Valuation τ sig (Elt F)) :
    after ops V (main_v131 : DevRef τ sig)
      = addf (after ops V (main_v43 : DevRef τ sig))
          (Host.scatterAdd scatter_S20000x3x128_S320000x1_S320000x3x128_12_0_0_1
            (broadcastInDim S20000x3x128 ![] bcast_S_S20000x3x128 (constant S_ .f32 0x00000000#32))
            (broadcastInDim S320000x1 ![0] bcast_S320000_S320000x1_0 (after ops V (main_v47 : DevRef τ sig)))
            (after ops V (main_v127 : DevRef τ sig))) := by
  rw [step_binary ops_writes 209 (y := main_v131) (by rfl) (by decide) (by decide) (by decide) V,
    step_ternary ops_writes 208 (y := main_v130) (by rfl) (by decide) (by decide) (by decide) (by decide) V,
    step_unary ops_writes 206 (y := main_v128) (by rfl) (by decide) (by decide) V,
    step_nullary ops_writes 205 (y := main_cst_28) (by rfl) (by decide) V,
    step_unary ops_writes 207 (y := main_v129) (by rfl) (by decide) (by decide) V]

/-! The arguments are written by no operation: each holds at the end what it held at the start. -/

set_option maxRecDepth 8192
theorem arg0_kept (V : Valuation τ sig (Elt F)) : after ops V (main_arg0 : DevRef τ sig) = V (main_arg0 : DevRef τ sig) :=
  after_kept ops_writes (by decide) V
theorem arg1_kept (V : Valuation τ sig (Elt F)) : after ops V (main_arg1 : DevRef τ sig) = V (main_arg1 : DevRef τ sig) :=
  after_kept ops_writes (by decide) V
theorem arg2_kept (V : Valuation τ sig (Elt F)) : after ops V (main_arg2 : DevRef τ sig) = V (main_arg2 : DevRef τ sig) :=
  after_kept ops_writes (by decide) V
theorem arg3_kept (V : Valuation τ sig (Elt F)) : after ops V (main_arg3 : DevRef τ sig) = V (main_arg3 : DevRef τ sig) :=
  after_kept ops_writes (by decide) V
theorem arg4_kept (V : Valuation τ sig (Elt F)) : after ops V (main_arg4 : DevRef τ sig) = V (main_arg4 : DevRef τ sig) :=
  after_kept ops_writes (by decide) V
theorem arg5_kept (V : Valuation τ sig (Elt F)) : after ops V (main_arg5 : DevRef τ sig) = V (main_arg5 : DevRef τ sig) :=
  after_kept ops_writes (by decide) V
theorem arg6_kept (V : Valuation τ sig (Elt F)) : after ops V (main_arg6 : DevRef τ sig) = V (main_arg6 : DevRef τ sig) :=
  after_kept ops_writes (by decide) V
theorem arg7_kept (V : Valuation τ sig (Elt F)) : after ops V (main_arg7 : DevRef τ sig) = V (main_arg7 : DevRef τ sig) :=
  after_kept ops_writes (by decide) V
theorem arg8_kept (V : Valuation τ sig (Elt F)) : after ops V (main_arg8 : DevRef τ sig) = V (main_arg8 : DevRef τ sig) :=
  after_kept ops_writes (by decide) V
theorem arg9_kept (V : Valuation τ sig (Elt F)) : after ops V (main_arg9 : DevRef τ sig) = V (main_arg9 : DevRef τ sig) :=
  after_kept ops_writes (by decide) V
theorem arg10_kept (V : Valuation τ sig (Elt F)) : after ops V (main_arg10 : DevRef τ sig) = V (main_arg10 : DevRef τ sig) :=
  after_kept ops_writes (by decide) V
theorem arg11_kept (V : Valuation τ sig (Elt F)) : after ops V (main_arg11 : DevRef τ sig) = V (main_arg11 : DevRef τ sig) :=
  after_kept ops_writes (by decide) V
theorem arg12_kept (V : Valuation τ sig (Elt F)) : after ops V (main_arg12 : DevRef τ sig) = V (main_arg12 : DevRef τ sig) :=
  after_kept ops_writes (by decide) V
theorem arg13_kept (V : Valuation τ sig (Elt F)) : after ops V (main_arg13 : DevRef τ sig) = V (main_arg13 : DevRef τ sig) :=
  after_kept ops_writes (by decide) V
theorem arg14_kept (V : Valuation τ sig (Elt F)) : after ops V (main_arg14 : DevRef τ sig) = V (main_arg14 : DevRef τ sig) :=
  after_kept ops_writes (by decide) V
theorem arg15_kept (V : Valuation τ sig (Elt F)) : after ops V (main_arg15 : DevRef τ sig) = V (main_arg15 : DevRef τ sig) :=
  after_kept ops_writes (by decide) V
theorem arg16_kept (V : Valuation τ sig (Elt F)) : after ops V (main_arg16 : DevRef τ sig) = V (main_arg16 : DevRef τ sig) :=
  after_kept ops_writes (by decide) V

end Cert.ReferenceIdeal.RefRun

end
-- ==== Proof.KernelLineBase.lean ====
/-
  The kernel program's host operations before its region as ONE straight line, with the table of the references its
  operations write, position by position: the frame in which the line is read one operation at a time. The contents a
  TensorCore finds when the region is entered are the fold of this line over the launch contents.
-/
import proofs.«144983_j80272938762991_1_alg».proof.Proof.Gen.KernelIdeal.Frame
import proofs.«144983_j80272938762991_1_alg».proof.Proof.KernelWrites
import proofs.«144983_j80272938762991_1_alg».proof.Proof.RefRun

noncomputable section

namespace Cert.KernelIdeal.KLine

open Cert.KernelIdeal Cert.KernelIdeal.Gen Idealize.ShloMosaic Idealize.ShloMosaic.TcCoe Idealize.SL.Sem
  Idealize.ShloMosaic.StableHlo
open Cert.ReferenceIdeal.RefRun (WritesAt)

variable {F : FTy → Type} [FloatOps F]

/-- The host operations before the region, the five lists in order, as one list. -/
abbrev allOps : List (HloOp τ sig (Elt F)) := hostOps0 ++ hostOps0_1 ++ hostOps0_2 ++ hostOps0_3 ++ hostOps0_4

/-- Position by position, each of them writes exactly the reference the tables name. -/
theorem all_writes : WritesAt (allOps : List (HloOp τ sig (Elt F))) (wk0 ++ wk1 ++ wk2 ++ wk3 ++ wk4) :=
  List.rel_append (List.rel_append (List.rel_append (List.rel_append hostOps0_writes hostOps0_1_writes) hostOps0_2_writes)
    hostOps0_3_writes) hostOps0_4_writes

/-- The list of the five lists, flattened, is their concatenation. -/
theorem flatten_eq :
    List.flatten [hostOps0, hostOps0_1, hostOps0_2, hostOps0_3, hostOps0_4] = (allOps : List (HloOp τ sig (Elt F))) := by
  simp only [List.flatten_cons, List.flatten_nil, List.append_nil, List.append_assoc]

variable (m : (ℓ : Loc nD τ sig) → Buf (Elt F) ℓ)

/-- The contents when the region is entered are the fold of the one line over the launch contents. -/
theorem V0_eq (c : Dev nD) : Gen.V0 m c = StableHlo.after allOps (fun b => m (c, b)) := by
  show StableHlo.after (List.flatten [hostOps0, hostOps0_1, hostOps0_2, hostOps0_3, hostOps0_4]) (fun b => m (c, b)) = _
  rw [flatten_eq]

/-- The same at a TensorCore reference. -/
theorem V_eq (c : Dev nD) (b : Ref sig .tc) :
    Gen.V m c b = StableHlo.after allOps (fun b => m (c, b)) (Proc.devRef .tc b) := by
  show Gen.V0 m c (Proc.devRef .tc b) = _
  rw [V0_eq]

end Cert.KernelIdeal.KLine

end
-- ==== Proof.SharedHost.lean ====
/-
  The values both programs compute the same way before the edges' messages are formed, each as one term of the
  argument arrays.

  * The node coordinates centred per graph: `x - (segment sum of x / max(count, 1))[batch]`.
  * Their normalisation: the centred coordinates scaled by a per-channel weight and divided by the graph's mean norm
    (the norm taken over the three spatial coordinates) plus `1e-5`.
  * The node features normalised along the feature axis: `(h - mean) / √(var + 1e-5) · g + b`, the variance taken
    about the mean with divisor 64.
  * The two rows of the edge list (source and target node of every edge), and an index row wrapped the way a lookup
    reads it: a negative number counted from the end.
  * The features gathered at an edge's end, and the difference of the normalised coordinates of an edge's two ends.
-/
import proofs.«144983_j80272938762991_1_alg».proof.Proof.Gen.KernelIdeal

noncomputable section

namespace Cert.KernelIdeal.Shared

open Cert.KernelIdeal Cert.KernelIdeal.Facts₀ Idealize.ShloMosaic Idealize.SL.Sem

variable {F : FTy → Type} [FloatOps F]

/-- The graph number of every node, as a column of scatter or gather positions. -/
def seg (bt : (⟨S20000, .i32⟩ : BufTy).Contents (Elt F)) : (⟨S20000x1, .i32⟩ : BufTy).Contents (Elt F) :=
  broadcastInDim S20000x1 ![0] bcast_S20000_S20000x1_0 bt

/-- The same with a negative number counted from the last of the 64 graphs. -/
def segWrapped (bt : (⟨S20000, .i32⟩ : BufTy).Contents (Elt F)) : (⟨S20000x1, .i32⟩ : BufTy).Contents (Elt F) :=
  broadcastInDim S20000x1 ![0] bcast_S20000_S20000x1_0
    (select (cmpi .slt bt (broadcastInDim S20000 ![] bcast_S_S20000 (constantI S_ 32 0#32)))
      (addi bt (broadcastInDim S20000 ![] bcast_S_S20000 (constantI S_ 32 64#32))) bt)

/-- The number of nodes of each graph, at least one. -/
def count (bt : (⟨S20000, .i32⟩ : BufTy).Contents (Elt F)) : (⟨S64x1x1, .f32⟩ : BufTy).Contents (Elt F) :=
  maximumf
    (Host.scatterAdd scatter_S64x1x1_S20000x1_S20000x1x1_12_0_0_1
      (broadcastInDim S64x1x1 ![] bcast_S_S64x1x1 (constant S_ .f32 0x00000000#32)) (seg bt)
      (broadcastInDim S20000x1x1 ![] bcast_S_S20000x1x1 (constant S_ .f32 0x3F800000#32)))
    (broadcastInDim S64x1x1 ![] bcast_S_S64x1x1 (constant S_ .f32 0x3F800000#32))

/-- The coordinates centred per graph. -/
def centred (x : (⟨S20000x3x128, .f32⟩ : BufTy).Contents (Elt F)) (bt : (⟨S20000, .i32⟩ : BufTy).Contents (Elt F)) :
    (⟨S20000x3x128, .f32⟩ : BufTy).Contents (Elt F) :=
  subf x
    (Host.gather gather_S64x3x128_S20000x1_S20000x3x128_12_0_n_n_0_1_13128
      (Host.divf
        (Host.scatterAdd scatter_S64x3x128_S20000x1_S20000x3x128_12_0_0_1
          (broadcastInDim S64x3x128 ![] bcast_S_S64x3x128 (constant S_ .f32 0x00000000#32)) (seg bt) x)
        (broadcastInDim S64x3x128 ![0, 1, 2] bcast_S64x1x1_S64x3x128_0_1_2 (count bt)))
      (segWrapped bt))

/-- The norm of the centred coordinates over the three spatial coordinates, per node and channel. -/
def norm (x : (⟨S20000x3x128, .f32⟩ : BufTy).Contents (Elt F)) (bt : (⟨S20000, .i32⟩ : BufTy).Contents (Elt F)) :
    (⟨S20000x1x128, .f32⟩ : BufTy).Contents (Elt F) :=
  Host.sqrt
    (broadcastInDim S20000x1x128 ![0, 2] bcast_S20000x128_S20000x1x128_0_2
      (Host.reduceAdd (mulf (centred x bt) (centred x bt)) (constant S_ .f32 0x00000000#32)
        reducesTo_S20000x3x128_S20000x128_d1 h_S_))

/-- The normalised coordinates. -/
def coords (x : (⟨S20000x3x128, .f32⟩ : BufTy).Contents (Elt F)) (w : (⟨S1x1x128, .f32⟩ : BufTy).Contents (Elt F))
    (bt : (⟨S20000, .i32⟩ : BufTy).Contents (Elt F)) : (⟨S20000x3x128, .f32⟩ : BufTy).Contents (Elt F) :=
  Host.divf
    (mulf (broadcastInDim S20000x3x128 ![0, 1, 2] bcast_S1x1x128_S20000x3x128_0_1_2 w) (centred x bt))
    (broadcastInDim S20000x3x128 ![0, 1, 2] bcast_S20000x1x128_S20000x3x128_0_1_2
      (addf
        (Host.gather gather_S64x1x128_S20000x1_S20000x1x128_12_0_n_n_0_1_11128
          (Host.divf
            (Host.scatterAdd scatter_S64x1x128_S20000x1_S20000x1x128_12_0_0_1
              (broadcastInDim S64x1x128 ![] bcast_S_S64x1x128 (constant S_ .f32 0x00000000#32)) (seg bt) (norm x bt))
            (broadcastInDim S64x1x128 ![0, 1, 2] bcast_S64x1x1_S64x1x128_0_1_2 (count bt)))
          (segWrapped bt))
        (broadcastInDim S20000x1x128 ![] bcast_S_S20000x1x128 (constant S_ .f32 0x3727C5AC#32))))

/-- The mean of a node's 64 features, as a column. -/
def featMean (h : (⟨S20000x64, .f32⟩ : BufTy).Contents (Elt F)) : (⟨S20000x1, .f32⟩ : BufTy).Contents (Elt F) :=
  Host.divf
    (broadcastInDim S20000x1 ![0] bcast_S20000_S20000x1_0
      (Host.reduceAdd h (constant S_ .f32 0x00000000#32) reducesTo_S20000x64_S20000_d1 h_S_))
    (broadcastInDim S20000x1 ![] bcast_S_S20000x1 (constant S_ .f32 0x42800000#32))

/-- The divisor of the variance, `64 - 0`. -/
def varDiv : (⟨S_, .f32⟩ : BufTy).Contents (Elt F) :=
  subf (constant S_ .f32 0x42800000#32) (sitofp .f32 (constantI S_ 32 0#32))

/-- The variance of a node's features about their mean, as a column (kept when the divisor is positive). -/
def featVar (h : (⟨S20000x64, .f32⟩ : BufTy).Contents (Elt F)) : (⟨S20000x1, .f32⟩ : BufTy).Contents (Elt F) :=
  select (broadcastInDim S20000x1 ![] bcast_S_S20000x1 (cmpf .ogt (varDiv (F := F)) (constant S_ .f32 0x00000000#32)))
    (Host.divf
      (broadcastInDim S20000x1 ![0] bcast_S20000_S20000x1_0
        (Host.reduceAdd
          (mulf (subf h (broadcastInDim S20000x64 ![0, 1] bcast_S20000x1_S20000x64_0_1 (featMean h)))
            (subf h (broadcastInDim S20000x64 ![0, 1] bcast_S20000x1_S20000x64_0_1 (featMean h))))
          (constant S_ .f32 0x00000000#32) reducesTo_S20000x64_S20000_d1 h_S_))
      (broadcastInDim S20000x1 ![] bcast_S_S20000x1 (varDiv (F := F))))
    (broadcastInDim S20000x1 ![] bcast_S_S20000x1 (id (constant S_ .f32 0x7FC00000#32)))

/-- The normalised node features. -/
def feats (h : (⟨S20000x64, .f32⟩ : BufTy).Contents (Elt F)) (g b : (⟨S64, .f32⟩ : BufTy).Contents (Elt F)) :
    (⟨S20000x64, .f32⟩ : BufTy).Contents (Elt F) :=
  addf
    (mulf
      (Host.divf (subf h (broadcastInDim S20000x64 ![0, 1] bcast_S20000x1_S20000x64_0_1 (featMean h)))
        (broadcastInDim S20000x64 ![0, 1] bcast_S20000x1_S20000x64_0_1
          (Host.sqrt (addf (featVar h) (broadcastInDim S20000x1 ![] bcast_S_S20000x1 (constant S_ .f32 0x3727C5AC#32))))))
      (broadcastInDim S20000x64 ![0, 1] bcast_S1x64_S20000x64_0_1 (broadcastInDim S1x64 ![1] bcast_S64_S1x64_1 g)))
    (broadcastInDim S20000x64 ![0, 1] bcast_S1x64_S20000x64_0_1 (broadcastInDim S1x64 ![1] bcast_S64_S1x64_1 b))

/-- The source node of every edge: row 0 of the edge list. -/
def srcRow (ei : (⟨S2x320000, .i32⟩ : BufTy).Contents (Elt F)) : (⟨S320000, .i32⟩ : BufTy).Contents (Elt F) :=
  shapeCast S320000 (extractStridedSlice S1x320000 ![0, 0] ei slices_S2x320000_S1x320000_0_0) shapeCasts_S1x320000_S320000

/-- The target node of every edge: row 1 of the edge list. -/
def tgtRow (ei : (⟨S2x320000, .i32⟩ : BufTy).Contents (Elt F)) : (⟨S320000, .i32⟩ : BufTy).Contents (Elt F) :=
  shapeCast S320000 (extractStridedSlice S1x320000 ![1, 0] ei slices_S2x320000_S1x320000_1_0) shapeCasts_S1x320000_S320000

/-- An index row as a lookup reads it: a negative number counted from the last of the 20000 nodes, as a column. -/
def nodeWrapped (ix : (⟨S320000, .i32⟩ : BufTy).Contents (Elt F)) : (⟨S320000x1, .i32⟩ : BufTy).Contents (Elt F) :=
  broadcastInDim S320000x1 ![0] bcast_S320000_S320000x1_0
    (select (cmpi .slt ix (broadcastInDim S320000 ![] bcast_S_S320000 (constantI S_ 32 0#32)))
      (addi ix (broadcastInDim S320000 ![] bcast_S_S320000 (constantI S_ 32 20000#32))) ix)

/-- Node features looked up at every edge's node `ix`. -/
def featsAt (hn : (⟨S20000x64, .f32⟩ : BufTy).Contents (Elt F)) (ix : (⟨S320000, .i32⟩ : BufTy).Contents (Elt F)) :
    (⟨S320000x64, .f32⟩ : BufTy).Contents (Elt F) :=
  Host.gather gather_S20000x64_S320000x1_S320000x64_1_0_n_n_0_1_164 hn (nodeWrapped ix)

/-- The relative position of every edge: the source's normalised coordinates minus the target's. -/
def relPos (xn : (⟨S20000x3x128, .f32⟩ : BufTy).Contents (Elt F)) (src tgt : (⟨S320000, .i32⟩ : BufTy).Contents (Elt F)) :
    (⟨S320000x3x128, .f32⟩ : BufTy).Contents (Elt F) :=
  subf (Host.gather gather_S20000x3x128_S320000x1_S320000x3x128_12_0_n_n_0_1_13128 xn (nodeWrapped src))
    (Host.gather gather_S20000x3x128_S320000x1_S320000x3x128_12_0_n_n_0_1_13128 xn (nodeWrapped tgt))

end Cert.KernelIdeal.Shared

end
-- ==== Proof.KernelLineCoords.lean ====
import proofs.«144983_j80272938762991_1_alg».proof.Proof.KernelLineBase
import proofs.«144983_j80272938762991_1_alg».proof.Proof.RefRun
import proofs.«144983_j80272938762991_1_alg».proof.Proof.SharedHost

/-
  The coordinate stretch of the kernel program's host line: the edge list's two rows, the normalised coordinates and
  the relative position of every edge, each as the shared term of the argument arrays. Every buffer of the line is
  written by one operation of its own, so a buffer is read one operation at a time: what the operation that writes it
  left, as that operation's function of its operands.
-/

set_option maxRecDepth 8192

noncomputable section

namespace Cert.KernelIdeal.KLine

open Cert.KernelIdeal Cert.KernelIdeal.Gen Idealize.ShloMosaic Idealize.ShloMosaic.TcCoe Idealize.SL.Sem
  Idealize.ShloMosaic.StableHlo
open Cert.ReferenceIdeal.RefRun (WritesAt after_kept step_nullary step_unary step_binary step_ternary step_reshape)

variable {F : FTy → Type} [FloatOps F]

/-- The target row of the edge list, after the whole host line from any contents `E`. -/
theorem line_tgt (E : Valuation τ sig (Elt F)) : after allOps E (main_v3 : DevRef τ sig) = Shared.tgtRow (E (main_arg16 : DevRef τ sig)) := by
  rw [step_reshape all_writes 3 (y := main_v3) (by rfl) (by decide) (by decide) E,
    step_unary all_writes 2 (y := main_v2) (by rfl) (by decide) (by decide) E,
    after_kept all_writes (r := main_arg16) (by decide) E]
  rfl

/-- The source row likewise. -/
theorem line_src (E : Valuation τ sig (Elt F)) : after allOps E (main_v1 : DevRef τ sig) = Shared.srcRow (E (main_arg16 : DevRef τ sig)) := by
  rw [step_reshape all_writes 1 (y := main_v1) (by rfl) (by decide) (by decide) E,
    step_unary all_writes 0 (y := main_v0) (by rfl) (by decide) (by decide) E,
    after_kept all_writes (r := main_arg16) (by decide) E]
  rfl

set_option maxHeartbeats 1600000 in
/-- The normalised coordinates: every operation they are formed by read once, back to the three arguments. -/
theorem line_coords (E : Valuation τ sig (Elt F)) : after allOps E (main_v47 : DevRef τ sig) = Shared.coords (E (main_arg0 : DevRef τ sig)) (E (main_arg14 : DevRef τ sig)) (E (main_arg15 : DevRef τ sig)) := by
  rw [step_binary all_writes 64 (y := main_v47) (by rfl) (by decide) (by decide) (by decide) E,
    step_binary all_writes 50 (y := main_v36) (by rfl) (by decide) (by decide) (by decide) E,
    step_unary all_writes 49 (y := main_v35) (by rfl) (by decide) (by decide) E,
    step_binary all_writes 28 (y := main_v22) (by rfl) (by decide) (by decide) (by decide) E,
    step_binary all_writes 27 (y := main_v21) (by rfl) (by decide) (by decide) (by decide) E,
    step_binary all_writes 18 (y := main_v14) (by rfl) (by decide) (by decide) (by decide) E,
    step_ternary all_writes 7 (y := main_v6) (by rfl) (by decide) (by decide) (by decide) (by decide) E,
    step_unary all_writes 5 (y := main_v4) (by rfl) (by decide) (by decide) E,
    step_nullary all_writes 4 (y := main_cst) (by rfl) (by decide) E,
    step_unary all_writes 6 (y := main_v5) (by rfl) (by decide) (by decide) E,
    step_unary all_writes 17 (y := main_v13) (by rfl) (by decide) (by decide) E,
    step_binary all_writes 16 (y := main_v12) (by rfl) (by decide) (by decide) (by decide) E,
    step_ternary all_writes 13 (y := main_v10) (by rfl) (by decide) (by decide) (by decide) (by decide) E,
    step_unary all_writes 11 (y := main_v8) (by rfl) (by decide) (by decide) E,
    step_nullary all_writes 10 (y := main_cst_1) (by rfl) (by decide) E,
    step_unary all_writes 12 (y := main_v9) (by rfl) (by decide) (by decide) E,
    step_unary all_writes 9 (y := main_v7) (by rfl) (by decide) (by decide) E,
    step_nullary all_writes 8 (y := main_cst_0) (by rfl) (by decide) E,
    step_unary all_writes 15 (y := main_v11) (by rfl) (by decide) (by decide) E,
    step_nullary all_writes 14 (y := main_cst_2) (by rfl) (by decide) E,
    step_unary all_writes 26 (y := main_v20) (by rfl) (by decide) (by decide) E,
    step_ternary all_writes 25 (y := main_v19) (by rfl) (by decide) (by decide) (by decide) (by decide) E,
    step_binary all_writes 21 (y := main_v16) (by rfl) (by decide) (by decide) (by decide) E,
    step_unary all_writes 20 (y := main_v15) (by rfl) (by decide) (by decide) E,
    step_nullary all_writes 19 (y := main_c) (by rfl) (by decide) E,
    step_binary all_writes 24 (y := main_v18) (by rfl) (by decide) (by decide) (by decide) E,
    step_unary all_writes 23 (y := main_v17) (by rfl) (by decide) (by decide) E,
    step_nullary all_writes 22 (y := main_c_3) (by rfl) (by decide) E,
    step_unary all_writes 63 (y := main_v46) (by rfl) (by decide) (by decide) E,
    step_binary all_writes 62 (y := main_v45) (by rfl) (by decide) (by decide) (by decide) E,
    step_binary all_writes 59 (y := main_v43) (by rfl) (by decide) (by decide) (by decide) E,
    step_binary all_writes 48 (y := main_v34) (by rfl) (by decide) (by decide) (by decide) E,
    step_ternary all_writes 37 (y := main_v26) (by rfl) (by decide) (by decide) (by decide) (by decide) E,
    step_unary all_writes 35 (y := main_v24) (by rfl) (by decide) (by decide) E,
    step_nullary all_writes 34 (y := main_cst_4) (by rfl) (by decide) E,
    step_unary all_writes 36 (y := main_v25) (by rfl) (by decide) (by decide) E,
    step_unary all_writes 33 (y := main_v23) (by rfl) (by decide) (by decide) E,
    step_unary all_writes 32 (y := main_call0_v2) (by rfl) (by decide) (by decide) E,
    step_binary all_writes 31 (y := main_call0_v1) (by rfl) (by decide) (by decide) (by decide) E,
    step_binary all_writes 29 (y := main_call0_v0) (by rfl) (by decide) (by decide) (by decide) E,
    step_nullary all_writes 30 (y := main_call0_cst) (by rfl) (by decide) E,
    step_unary all_writes 47 (y := main_v33) (by rfl) (by decide) (by decide) E,
    step_binary all_writes 46 (y := main_v32) (by rfl) (by decide) (by decide) (by decide) E,
    step_ternary all_writes 43 (y := main_v30) (by rfl) (by decide) (by decide) (by decide) (by decide) E,
    step_unary all_writes 41 (y := main_v28) (by rfl) (by decide) (by decide) E,
    step_nullary all_writes 40 (y := main_cst_6) (by rfl) (by decide) E,
    step_unary all_writes 42 (y := main_v29) (by rfl) (by decide) (by decide) E,
    step_unary all_writes 39 (y := main_v27) (by rfl) (by decide) (by decide) E,
    step_nullary all_writes 38 (y := main_cst_5) (by rfl) (by decide) E,
    step_unary all_writes 45 (y := main_v31) (by rfl) (by decide) (by decide) E,
    step_nullary all_writes 44 (y := main_cst_7) (by rfl) (by decide) E,
    step_unary all_writes 58 (y := main_v42) (by rfl) (by decide) (by decide) E,
    step_ternary all_writes 57 (y := main_v41) (by rfl) (by decide) (by decide) (by decide) (by decide) E,
    step_binary all_writes 53 (y := main_v38) (by rfl) (by decide) (by decide) (by decide) E,
    step_unary all_writes 52 (y := main_v37) (by rfl) (by decide) (by decide) E,
    step_nullary all_writes 51 (y := main_c_8) (by rfl) (by decide) E,
    step_binary all_writes 56 (y := main_v40) (by rfl) (by decide) (by decide) (by decide) E,
    step_unary all_writes 55 (y := main_v39) (by rfl) (by decide) (by decide) E,
    step_nullary all_writes 54 (y := main_c_9) (by rfl) (by decide) E,
    step_unary all_writes 61 (y := main_v44) (by rfl) (by decide) (by decide) E,
    step_nullary all_writes 60 (y := main_cst_10) (by rfl) (by decide) E,
    after_kept all_writes (r := main_arg14) (by decide) E,
    after_kept all_writes (r := main_arg0) (by decide) E,
    after_kept all_writes (r := main_arg15) (by decide) E]
  rfl

/-- The relative position of every edge: the normalised coordinates looked up at the wrapped source row minus those at
    the wrapped target row. -/
theorem line_rel (E : Valuation τ sig (Elt F)) :
    after allOps E (main_v80 : DevRef τ sig) = Shared.relPos (Shared.coords (E (main_arg0 : DevRef τ sig)) (E (main_arg14 : DevRef τ sig)) (E (main_arg15 : DevRef τ sig))) (Shared.srcRow (E (main_arg16 : DevRef τ sig))) (Shared.tgtRow (E (main_arg16 : DevRef τ sig))) := by
  rw [step_binary all_writes 127 (y := main_v80) (by rfl) (by decide) (by decide) (by decide) E,
    step_binary all_writes 117 (y := main_v72) (by rfl) (by decide) (by decide) (by decide) E,
    step_unary all_writes 116 (y := main_v71) (by rfl) (by decide) (by decide) E,
    step_ternary all_writes 115 (y := main_v70) (by rfl) (by decide) (by decide) (by decide) (by decide) E,
    step_binary all_writes 111 (y := main_v67) (by rfl) (by decide) (by decide) (by decide) E,
    step_unary all_writes 110 (y := main_v66) (by rfl) (by decide) (by decide) E,
    step_nullary all_writes 109 (y := main_c_15) (by rfl) (by decide) E,
    step_binary all_writes 114 (y := main_v69) (by rfl) (by decide) (by decide) (by decide) E,
    step_unary all_writes 113 (y := main_v68) (by rfl) (by decide) (by decide) E,
    step_nullary all_writes 112 (y := main_c_16) (by rfl) (by decide) E,
    step_binary all_writes 126 (y := main_v79) (by rfl) (by decide) (by decide) (by decide) E,
    step_unary all_writes 125 (y := main_v78) (by rfl) (by decide) (by decide) E,
    step_ternary all_writes 124 (y := main_v77) (by rfl) (by decide) (by decide) (by decide) (by decide) E,
    step_binary all_writes 120 (y := main_v74) (by rfl) (by decide) (by decide) (by decide) E,
    step_unary all_writes 119 (y := main_v73) (by rfl) (by decide) (by decide) E,
    step_nullary all_writes 118 (y := main_c_17) (by rfl) (by decide) E,
    step_binary all_writes 123 (y := main_v76) (by rfl) (by decide) (by decide) (by decide) E,
    step_unary all_writes 122 (y := main_v75) (by rfl) (by decide) (by decide) E,
    step_nullary all_writes 121 (y := main_c_18) (by rfl) (by decide) E,
    line_coords, line_src, line_tgt]
  rfl

variable (m : (ℓ : Loc nD τ sig) → Buf (Elt F) ℓ)

/-- The target row of the edge list. -/
theorem V_tgt (c : Dev nD) :
    (V m c main_v3 : (⟨S320000, .i32⟩ : BufTy).Contents (Elt F))
      = Shared.tgtRow (m ((c.tc : Thread nD τ).loc main_arg16)) := by
  have h := line_tgt (F := F) (fun b => m (c, b))
  rw [← V0_eq m c] at h
  exact h

/-- The normalised coordinates. -/
theorem V_coords (c : Dev nD) :
    (V m c main_v47 : (⟨S20000x3x128, .f32⟩ : BufTy).Contents (Elt F))
      = Shared.coords (m ((c.tc : Thread nD τ).loc main_arg0)) (m ((c.tc : Thread nD τ).loc main_arg14))
          (m ((c.tc : Thread nD τ).loc main_arg15)) := by
  have h := line_coords (F := F) (fun b => m (c, b))
  rw [← V0_eq m c] at h
  exact h

/-- The relative position of every edge. -/
theorem V_rel (c : Dev nD) :
    (V m c main_v80 : (⟨S320000x3x128, .f32⟩ : BufTy).Contents (Elt F))
      = Shared.relPos
          (Shared.coords (m ((c.tc : Thread nD τ).loc main_arg0)) (m ((c.tc : Thread nD τ).loc main_arg14))
            (m ((c.tc : Thread nD τ).loc main_arg15)))
          (Shared.srcRow (m ((c.tc : Thread nD τ).loc main_arg16)))
          (Shared.tgtRow (m ((c.tc : Thread nD τ).loc main_arg16))) := by
  have h := line_rel (F := F) (fun b => m (c, b))
  rw [← V0_eq m c] at h
  exact h

end Cert.KernelIdeal.KLine

end
-- ==== Proof.KernelLine.lean ====
/-
  The node-feature arrays the edge stage starts from, as the kernel's program holds them when its region is entered.

  The host operations before the region form one straight line in which every operation writes a buffer of its own. A
  buffer's contents at the end are what the operation writing it computes from its operands' contents at the end, since
  nothing later overwrites either. Reading the line this way, one operation at a time and from the arguments upward,
  each buffer is recognised as one of the shared terms: the mean and the variance of a node's features, the normalised
  features, an index row as a lookup reads it, and the features looked up at an edge's two ends.
-/
import proofs.«144983_j80272938762991_1_alg».proof.Proof.KernelLineBase
import proofs.«144983_j80272938762991_1_alg».proof.Proof.SharedHost

set_option maxRecDepth 8192

noncomputable section

namespace Cert.KernelIdeal.KLine

open Cert.KernelIdeal Cert.KernelIdeal.Gen Idealize.ShloMosaic Idealize.ShloMosaic.TcCoe Idealize.SL.Sem
  Idealize.ShloMosaic.StableHlo
open Cert.ReferenceIdeal.RefRun (WritesAt after_kept step_nullary step_unary step_binary step_ternary step_reshape)

variable {F : FTy → Type} [FloatOps F]

section Reads
variable (E : Valuation τ sig (Elt F))

/-- The source row of the edge list: a slice of row 0, flattened. -/
theorem r_v1 : after allOps E (main_v1 : DevRef τ sig) = Shared.srcRow (E (main_arg16 : DevRef τ sig)) := by
  rw [step_reshape all_writes 1 (x := main_v0) (y := main_v1) (by rfl) (by decide) (by decide) E,
    step_unary all_writes 0 (x := main_arg16) (y := main_v0) (by rfl) (by decide) (by decide) E,
    after_kept all_writes (r := main_arg16) (by decide) E]
  rfl

/-- The target row of the edge list: a slice of row 1, flattened. -/
theorem r_v3 : after allOps E (main_v3 : DevRef τ sig) = Shared.tgtRow (E (main_arg16 : DevRef τ sig)) := by
  rw [step_reshape all_writes 3 (x := main_v2) (y := main_v3) (by rfl) (by decide) (by decide) E,
    step_unary all_writes 2 (x := main_arg16) (y := main_v2) (by rfl) (by decide) (by decide) E,
    after_kept all_writes (r := main_arg16) (by decide) E]
  rfl

/-- The mean of a node's features, as the main line computes it. -/
theorem r_v51 : after allOps E (main_v51 : DevRef τ sig) = Shared.featMean (E (main_arg1 : DevRef τ sig)) := by
  rw [step_binary all_writes 70 (a := main_v49) (b := main_v50) (y := main_v51) (by rfl) (by decide) (by decide) (by decide) E,
    step_unary all_writes 67 (x := main_v48) (y := main_v49) (by rfl) (by decide) (by decide) E,
    step_binary all_writes 66 (a := main_arg1) (b := main_cst_11) (y := main_v48) (by rfl) (by decide) (by decide) (by decide) E,
    step_nullary all_writes 65 (y := main_cst_11) (by rfl) (by decide) E,
    step_unary all_writes 69 (x := main_cst_12) (y := main_v50) (by rfl) (by decide) (by decide) E,
    step_nullary all_writes 68 (y := main_cst_12) (by rfl) (by decide) E,
    after_kept all_writes (r := main_arg1) (by decide) E]
  rfl

/-- The same mean, computed again inside the variance. -/
theorem r_call1_v3 : after allOps E (main_call1_v3 : DevRef τ sig) = Shared.featMean (E (main_arg1 : DevRef τ sig)) := by
  rw [step_binary all_writes 77 (a := main_call1_v1) (b := main_call1_v2) (y := main_call1_v3) (by rfl) (by decide) (by decide) (by decide) E,
    step_unary all_writes 74 (x := main_call1_v0) (y := main_call1_v1) (by rfl) (by decide) (by decide) E,
    step_binary all_writes 73 (a := main_arg1) (b := main_call1_cst) (y := main_call1_v0) (by rfl) (by decide) (by decide) (by decide) E,
    step_nullary all_writes 72 (y := main_call1_cst) (by rfl) (by decide) E,
    step_unary all_writes 76 (x := main_call1_cst_0) (y := main_call1_v2) (by rfl) (by decide) (by decide) E,
    step_nullary all_writes 75 (y := main_call1_cst_0) (by rfl) (by decide) E,
    after_kept all_writes (r := main_arg1) (by decide) E]
  rfl

/-- The divisor of the variance. -/
theorem r_call1_v8 : after allOps E (main_call1_v8 : DevRef τ sig) = Shared.varDiv (F := F) := by
  rw [step_binary all_writes 83 (a := main_call1_cst_1) (b := main_call1_v7) (y := main_call1_v8) (by rfl) (by decide) (by decide) (by decide) E,
    step_nullary all_writes 82 (y := main_call1_cst_1) (by rfl) (by decide) E,
    step_unary all_writes 81 (x := main_c_13) (y := main_call1_v7) (by rfl) (by decide) (by decide) E,
    step_nullary all_writes 71 (y := main_c_13) (by rfl) (by decide) E]
  rfl

/-- The variance of a node's features. -/
theorem r_v52 : after allOps E (main_v52 : DevRef τ sig) = Shared.featVar (E (main_arg1 : DevRef τ sig)) := by
  rw [step_ternary all_writes 94 (c := main_call1_v13) (a := main_call1_v12) (b := main_call1_call0_v1) (y := main_v52) (by rfl) (by decide) (by decide) (by decide) (by decide) E,
    step_binary all_writes 90 (a := main_call1_v8) (b := main_call1_cst_3) (y := main_call1_v13) (by rfl) (by decide) (by decide) (by decide) E,
    step_nullary all_writes 89 (y := main_call1_cst_3) (by rfl) (by decide) E,
    step_binary all_writes 88 (a := main_call1_v10) (b := main_call1_v11) (y := main_call1_v12) (by rfl) (by decide) (by decide) (by decide) E,
    step_unary all_writes 86 (x := main_call1_v9) (y := main_call1_v10) (by rfl) (by decide) (by decide) E,
    step_binary all_writes 85 (a := main_call1_v6) (b := main_call1_cst_2) (y := main_call1_v9) (by rfl) (by decide) (by decide) (by decide) E,
    step_nullary all_writes 84 (y := main_call1_cst_2) (by rfl) (by decide) E,
    step_binary all_writes 80 (a := main_call1_v5) (b := main_call1_v5) (y := main_call1_v6) (by rfl) (by decide) (by decide) (by decide) E,
    step_binary all_writes 79 (a := main_arg1) (b := main_call1_v4) (y := main_call1_v5) (by rfl) (by decide) (by decide) (by decide) E,
    step_unary all_writes 78 (x := main_call1_v3) (y := main_call1_v4) (by rfl) (by decide) (by decide) E,
    r_call1_v3,
    step_unary all_writes 87 (x := main_call1_v8) (y := main_call1_v11) (by rfl) (by decide) (by decide) E,
    r_call1_v8,
    step_unary all_writes 93 (x := main_call1_call0_v0) (y := main_call1_call0_v1) (by rfl) (by decide) (by decide) E,
    step_unary all_writes 92 (x := main_call1_cst_4) (y := main_call1_call0_v0) (by rfl) (by decide) (by decide) E,
    step_nullary all_writes 91 (y := main_call1_cst_4) (by rfl) (by decide) E,
    after_kept all_writes (r := main_arg1) (by decide) E]
  rfl

/-- The normalised node features. -/
theorem r_v65 : after allOps E (main_v65 : DevRef τ sig)
    = Shared.feats (E (main_arg1 : DevRef τ sig)) (E (main_arg12 : DevRef τ sig)) (E (main_arg13 : DevRef τ sig)) := by
  rw [step_binary all_writes 108 (a := main_v62) (b := main_v64) (y := main_v65) (by rfl) (by decide) (by decide) (by decide) E,
    step_binary all_writes 105 (a := main_v59) (b := main_v61) (y := main_v62) (by rfl) (by decide) (by decide) (by decide) E,
    step_binary all_writes 102 (a := main_v54) (b := main_v58) (y := main_v59) (by rfl) (by decide) (by decide) (by decide) E,
    step_binary all_writes 96 (a := main_arg1) (b := main_v53) (y := main_v54) (by rfl) (by decide) (by decide) (by decide) E,
    step_unary all_writes 95 (x := main_v51) (y := main_v53) (by rfl) (by decide) (by decide) E,
    r_v51,
    step_unary all_writes 101 (x := main_v57) (y := main_v58) (by rfl) (by decide) (by decide) E,
    step_unary all_writes 100 (x := main_v56) (y := main_v57) (by rfl) (by decide) (by decide) E,
    step_binary all_writes 99 (a := main_v52) (b := main_v55) (y := main_v56) (by rfl) (by decide) (by decide) (by decide) E,
    r_v52,
    step_unary all_writes 98 (x := main_cst_14) (y := main_v55) (by rfl) (by decide) (by decide) E,
    step_nullary all_writes 97 (y := main_cst_14) (by rfl) (by decide) E,
    step_unary all_writes 104 (x := main_v60) (y := main_v61) (by rfl) (by decide) (by decide) E,
    step_unary all_writes 103 (x := main_arg12) (y := main_v60) (by rfl) (by decide) (by decide) E,
    step_unary all_writes 107 (x := main_v63) (y := main_v64) (by rfl) (by decide) (by decide) E,
    step_unary all_writes 106 (x := main_arg13) (y := main_v63) (by rfl) (by decide) (by decide) E,
    after_kept all_writes (r := main_arg1) (by decide) E,
    after_kept all_writes (r := main_arg12) (by decide) E,
    after_kept all_writes (r := main_arg13) (by decide) E]
  rfl

/-- The target row as the feature lookup reads it. -/
theorem r_v86 : after allOps E (main_v86 : DevRef τ sig) = Shared.nodeWrapped (Shared.tgtRow (E (main_arg16 : DevRef τ sig))) := by
  rw [step_unary all_writes 135 (x := main_v85) (y := main_v86) (by rfl) (by decide) (by decide) E,
    step_ternary all_writes 134 (c := main_v82) (a := main_v84) (b := main_v3) (y := main_v85) (by rfl) (by decide) (by decide) (by decide) (by decide) E,
    step_binary all_writes 130 (a := main_v3) (b := main_v81) (y := main_v82) (by rfl) (by decide) (by decide) (by decide) E,
    step_unary all_writes 129 (x := main_c_19) (y := main_v81) (by rfl) (by decide) (by decide) E,
    step_nullary all_writes 128 (y := main_c_19) (by rfl) (by decide) E,
    step_binary all_writes 133 (a := main_v3) (b := main_v83) (y := main_v84) (by rfl) (by decide) (by decide) (by decide) E,
    step_unary all_writes 132 (x := main_c_20) (y := main_v83) (by rfl) (by decide) (by decide) E,
    step_nullary all_writes 131 (y := main_c_20) (by rfl) (by decide) E,
    r_v3]
  rfl

/-- The source row as the feature lookup reads it. -/
theorem r_v93 : after allOps E (main_v93 : DevRef τ sig) = Shared.nodeWrapped (Shared.srcRow (E (main_arg16 : DevRef τ sig))) := by
  rw [step_unary all_writes 144 (x := main_v92) (y := main_v93) (by rfl) (by decide) (by decide) E,
    step_ternary all_writes 143 (c := main_v89) (a := main_v91) (b := main_v1) (y := main_v92) (by rfl) (by decide) (by decide) (by decide) (by decide) E,
    step_binary all_writes 139 (a := main_v1) (b := main_v88) (y := main_v89) (by rfl) (by decide) (by decide) (by decide) E,
    step_unary all_writes 138 (x := main_c_21) (y := main_v88) (by rfl) (by decide) (by decide) E,
    step_nullary all_writes 137 (y := main_c_21) (by rfl) (by decide) E,
    step_binary all_writes 142 (a := main_v1) (b := main_v90) (y := main_v91) (by rfl) (by decide) (by decide) (by decide) E,
    step_unary all_writes 141 (x := main_c_22) (y := main_v90) (by rfl) (by decide) (by decide) E,
    step_nullary all_writes 140 (y := main_c_22) (by rfl) (by decide) E,
    r_v1]
  rfl

/-- The node features looked up at every edge's target. -/
theorem r_v87 : after allOps E (main_v87 : DevRef τ sig)
    = Shared.featsAt (Shared.feats (E (main_arg1 : DevRef τ sig)) (E (main_arg12 : DevRef τ sig)) (E (main_arg13 : DevRef τ sig)))
        (Shared.tgtRow (E (main_arg16 : DevRef τ sig))) := by
  rw [step_binary all_writes 136 (a := main_v65) (b := main_v86) (y := main_v87) (by rfl) (by decide) (by decide) (by decide) E,
    r_v65,
    r_v86]
  rfl

/-- The node features looked up at every edge's source. -/
theorem r_v94 : after allOps E (main_v94 : DevRef τ sig)
    = Shared.featsAt (Shared.feats (E (main_arg1 : DevRef τ sig)) (E (main_arg12 : DevRef τ sig)) (E (main_arg13 : DevRef τ sig)))
        (Shared.srcRow (E (main_arg16 : DevRef τ sig))) := by
  rw [step_binary all_writes 145 (a := main_v65) (b := main_v93) (y := main_v94) (by rfl) (by decide) (by decide) (by decide) E,
    r_v65,
    r_v93]
  rfl

end Reads

variable (m : (ℓ : Loc nD τ sig) → Buf (Elt F) ℓ)

/-- The node features looked up at every edge's target. -/
theorem V_featsTgt (c : Dev nD) :
    (V m c main_v87 : (⟨S320000x64, .f32⟩ : BufTy).Contents (Elt F))
      = Shared.featsAt (Shared.feats (m ((c.tc : Thread nD τ).loc main_arg1)) (m ((c.tc : Thread nD τ).loc main_arg12))
            (m ((c.tc : Thread nD τ).loc main_arg13)))
          (Shared.tgtRow (m ((c.tc : Thread nD τ).loc main_arg16))) := by
  rw [V_eq, r_v87]

/-- The node features looked up at every edge's source. -/
theorem V_featsSrc (c : Dev nD) :
    (V m c main_v94 : (⟨S320000x64, .f32⟩ : BufTy).Contents (Elt F))
      = Shared.featsAt (Shared.feats (m ((c.tc : Thread nD τ).loc main_arg1)) (m ((c.tc : Thread nD τ).loc main_arg12))
            (m ((c.tc : Thread nD τ).loc main_arg13)))
          (Shared.srcRow (m ((c.tc : Thread nD τ).loc main_arg16))) := by
  rw [V_eq, r_v94]

end Cert.KernelIdeal.KLine

end
-- ==== Proof.RefSharedFeats.lean ====
import proofs.«144983_j80272938762991_1_alg».proof.Proof.RefRun
import proofs.«144983_j80272938762991_1_alg».proof.Proof.SharedHost

noncomputable section

namespace Cert.ReferenceIdeal.RefShared

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxRecDepth 8192

/-- The source node of every edge: row 0 of the edge list, as one row. -/
theorem v45_src (V : Valuation τ sig (Elt F)) : after ops V (main_v45 : DevRef τ sig) = Cert.KernelIdeal.Shared.srcRow (V (main_arg16 : DevRef τ sig)) := by
  rw [step_reshape ops_writes 62 (y := main_v45) (by rfl) (by decide) (by decide) V,
    step_unary ops_writes 61 (y := main_v44) (by rfl) (by decide) (by decide) V, arg16_kept V]
  rfl

/-- The target node of every edge: row 1 of the edge list, as one row. -/
theorem v47_tgt (V : Valuation τ sig (Elt F)) : after ops V (main_v47 : DevRef τ sig) = Cert.KernelIdeal.Shared.tgtRow (V (main_arg16 : DevRef τ sig)) := by
  rw [step_reshape ops_writes 64 (y := main_v47) (by rfl) (by decide) (by decide) V,
    step_unary ops_writes 63 (y := main_v46) (by rfl) (by decide) (by decide) V, arg16_kept V]
  rfl

/-- The target row as a lookup reads it: a negative number counted from the last node, as a column. -/
theorem v88_wrapped (V : Valuation τ sig (Elt F)) : after ops V (main_v88 : DevRef τ sig) = Cert.KernelIdeal.Shared.nodeWrapped (after ops V (main_v47 : DevRef τ sig)) := by
  rw [step_unary ops_writes 138 (y := main_v88) (by rfl) (by decide) (by decide) V,
    step_ternary ops_writes 137 (y := main_v87) (by rfl) (by decide) (by decide) (by decide) (by decide) V,
    step_binary ops_writes 133 (y := main_v84) (by rfl) (by decide) (by decide) (by decide) V,
    step_unary ops_writes 132 (y := main_v83) (by rfl) (by decide) (by decide) V,
    step_nullary ops_writes 131 (y := main_c_20) (by rfl) (by decide) V,
    step_binary ops_writes 136 (y := main_v86) (by rfl) (by decide) (by decide) (by decide) V,
    step_unary ops_writes 135 (y := main_v85) (by rfl) (by decide) (by decide) V,
    step_nullary ops_writes 134 (y := main_c_21) (by rfl) (by decide) V]
  rfl

/-- The source row likewise. -/
theorem v95_wrapped (V : Valuation τ sig (Elt F)) : after ops V (main_v95 : DevRef τ sig) = Cert.KernelIdeal.Shared.nodeWrapped (after ops V (main_v45 : DevRef τ sig)) := by
  rw [step_unary ops_writes 147 (y := main_v95) (by rfl) (by decide) (by decide) V,
    step_ternary ops_writes 146 (y := main_v94) (by rfl) (by decide) (by decide) (by decide) (by decide) V,
    step_binary ops_writes 142 (y := main_v91) (by rfl) (by decide) (by decide) (by decide) V,
    step_unary ops_writes 141 (y := main_v90) (by rfl) (by decide) (by decide) V,
    step_nullary ops_writes 140 (y := main_c_22) (by rfl) (by decide) V,
    step_binary ops_writes 145 (y := main_v93) (by rfl) (by decide) (by decide) (by decide) V,
    step_unary ops_writes 144 (y := main_v92) (by rfl) (by decide) (by decide) V,
    step_nullary ops_writes 143 (y := main_c_23) (by rfl) (by decide) V]
  rfl

set_option maxHeartbeats 1600000 in
/-- The node features normalised along the feature axis: the mean and the variance about it (divisor 64, the variance
    kept where the divisor is positive), `(h − mean) / √(var + 1e-5) · g + b`. Every operation of it lies in the second
    window, which reads only the arguments from before it. -/
theorem v82_feats (V : Valuation τ sig (Elt F)) : after ops V (main_v82 : DevRef τ sig) = Cert.KernelIdeal.Shared.feats (V (main_arg1 : DevRef τ sig)) (V (main_arg12 : DevRef τ sig)) (V (main_arg13 : DevRef τ sig)) := by
  have h1 := after_kept ops0_writes (r := main_arg1) (by decide) V
  have h12 := after_kept ops0_writes (r := main_arg12) (by decide) V
  have h13 := after_kept ops0_writes (r := main_arg13) (by decide) V
  rw [after_ops, after_kept ops2_writes (r := main_v82) (by decide)]
  generalize after ops0 V = W0 at h1 h12 h13 ⊢
  line_results
  rw [h1, h12, h13]
  rfl

/-- R3: the features gathered at every edge's target node. -/
theorem v89_featsAt (V : Valuation τ sig (Elt F)) :
    after ops V (main_v89 : DevRef τ sig) = Cert.KernelIdeal.Shared.featsAt (Cert.KernelIdeal.Shared.feats (V (main_arg1 : DevRef τ sig)) (V (main_arg12 : DevRef τ sig)) (V (main_arg13 : DevRef τ sig))) (Cert.KernelIdeal.Shared.tgtRow (V (main_arg16 : DevRef τ sig))) := by
  rw [step_binary ops_writes 139 (y := main_v89) (by rfl) (by decide) (by decide) (by decide) V,
    v82_feats, v88_wrapped, v47_tgt]
  rfl

/-- R4: the features gathered at every edge's source node. -/
theorem v96_featsAt (V : Valuation τ sig (Elt F)) :
    after ops V (main_v96 : DevRef τ sig) = Cert.KernelIdeal.Shared.featsAt (Cert.KernelIdeal.Shared.feats (V (main_arg1 : DevRef τ sig)) (V (main_arg12 : DevRef τ sig)) (V (main_arg13 : DevRef τ sig))) (Cert.KernelIdeal.Shared.srcRow (V (main_arg16 : DevRef τ sig))) := by
  rw [step_binary ops_writes 148 (y := main_v96) (by rfl) (by decide) (by decide) (by decide) V,
    v82_feats, v95_wrapped, v45_src]
  rfl

end Cert.ReferenceIdeal.RefShared

end
-- ==== Proof.RefSharedCoords.lean ====
import proofs.«144983_j80272938762991_1_alg».proof.Proof.RefSharedFeats
import proofs.«144983_j80272938762991_1_alg».proof.Proof.RefRun
import proofs.«144983_j80272938762991_1_alg».proof.Proof.SharedHost

/-
  The coordinate stretch of the reference program's line: the normalised coordinates and the relative position of every
  edge, each as the shared term of the argument arrays. Every buffer is read one operation at a time, back to the
  arguments.
-/

set_option maxRecDepth 8192

noncomputable section

namespace Cert.ReferenceIdeal.RefShared

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

set_option maxHeartbeats 1600000 in
/-- The normalised coordinates: the coordinates centred per graph (the segment sum over the graph's nodes divided by
    their number, at least one, looked up at each node's graph), scaled by the per-channel weight and divided by the
    graph's mean norm (the norm over the three spatial coordinates) plus `1e-5`. -/
theorem v43_coords (V : Valuation τ sig (Elt F)) : after ops V (main_v43 : DevRef τ sig) = Cert.KernelIdeal.Shared.coords (V (main_arg0 : DevRef τ sig)) (V (main_arg14 : DevRef τ sig)) (V (main_arg15 : DevRef τ sig)) := by
  rw [step_binary ops_writes 60 (y := main_v43) (by rfl) (by decide) (by decide) (by decide) V,
    step_binary ops_writes 46 (y := main_v32) (by rfl) (by decide) (by decide) (by decide) V,
    step_unary ops_writes 45 (y := main_v31) (by rfl) (by decide) (by decide) V,
    step_binary ops_writes 24 (y := main_v18) (by rfl) (by decide) (by decide) (by decide) V,
    step_binary ops_writes 23 (y := main_v17) (by rfl) (by decide) (by decide) (by decide) V,
    step_binary ops_writes 14 (y := main_v10) (by rfl) (by decide) (by decide) (by decide) V,
    step_ternary ops_writes 3 (y := main_v2) (by rfl) (by decide) (by decide) (by decide) (by decide) V,
    step_unary ops_writes 1 (y := main_v0) (by rfl) (by decide) (by decide) V,
    step_nullary ops_writes 0 (y := main_cst) (by rfl) (by decide) V,
    step_unary ops_writes 2 (y := main_v1) (by rfl) (by decide) (by decide) V,
    step_unary ops_writes 13 (y := main_v9) (by rfl) (by decide) (by decide) V,
    step_binary ops_writes 12 (y := main_v8) (by rfl) (by decide) (by decide) (by decide) V,
    step_ternary ops_writes 9 (y := main_v6) (by rfl) (by decide) (by decide) (by decide) (by decide) V,
    step_unary ops_writes 7 (y := main_v4) (by rfl) (by decide) (by decide) V,
    step_nullary ops_writes 6 (y := main_cst_1) (by rfl) (by decide) V,
    step_unary ops_writes 8 (y := main_v5) (by rfl) (by decide) (by decide) V,
    step_unary ops_writes 5 (y := main_v3) (by rfl) (by decide) (by decide) V,
    step_nullary ops_writes 4 (y := main_cst_0) (by rfl) (by decide) V,
    step_unary ops_writes 11 (y := main_v7) (by rfl) (by decide) (by decide) V,
    step_nullary ops_writes 10 (y := main_cst_2) (by rfl) (by decide) V,
    step_unary ops_writes 22 (y := main_v16) (by rfl) (by decide) (by decide) V,
    step_ternary ops_writes 21 (y := main_v15) (by rfl) (by decide) (by decide) (by decide) (by decide) V,
    step_binary ops_writes 17 (y := main_v12) (by rfl) (by decide) (by decide) (by decide) V,
    step_unary ops_writes 16 (y := main_v11) (by rfl) (by decide) (by decide) V,
    step_nullary ops_writes 15 (y := main_c) (by rfl) (by decide) V,
    step_binary ops_writes 20 (y := main_v14) (by rfl) (by decide) (by decide) (by decide) V,
    step_unary ops_writes 19 (y := main_v13) (by rfl) (by decide) (by decide) V,
    step_nullary ops_writes 18 (y := main_c_3) (by rfl) (by decide) V,
    step_unary ops_writes 59 (y := main_v42) (by rfl) (by decide) (by decide) V,
    step_binary ops_writes 58 (y := main_v41) (by rfl) (by decide) (by decide) (by decide) V,
    step_binary ops_writes 55 (y := main_v39) (by rfl) (by decide) (by decide) (by decide) V,
    step_binary ops_writes 44 (y := main_v30) (by rfl) (by decide) (by decide) (by decide) V,
    step_ternary ops_writes 33 (y := main_v22) (by rfl) (by decide) (by decide) (by decide) (by decide) V,
    step_unary ops_writes 31 (y := main_v20) (by rfl) (by decide) (by decide) V,
    step_nullary ops_writes 30 (y := main_cst_4) (by rfl) (by decide) V,
    step_unary ops_writes 32 (y := main_v21) (by rfl) (by decide) (by decide) V,
    step_unary ops_writes 29 (y := main_v19) (by rfl) (by decide) (by decide) V,
    step_unary ops_writes 28 (y := main_call0.v2.ref) (by rfl) (by decide) (by decide) V,
    step_binary ops_writes 27 (y := main_call0.v1.ref) (by rfl) (by decide) (by decide) (by decide) V,
    step_binary ops_writes 25 (y := main_call0.v0.ref) (by rfl) (by decide) (by decide) (by decide) V,
    step_nullary ops_writes 26 (y := main_call0.cst.ref) (by rfl) (by decide) V,
    step_unary ops_writes 43 (y := main_v29) (by rfl) (by decide) (by decide) V,
    step_binary ops_writes 42 (y := main_v28) (by rfl) (by decide) (by decide) (by decide) V,
    step_ternary ops_writes 39 (y := main_v26) (by rfl) (by decide) (by decide) (by decide) (by decide) V,
    step_unary ops_writes 37 (y := main_v24) (by rfl) (by decide) (by decide) V,
    step_nullary ops_writes 36 (y := main_cst_6) (by rfl) (by decide) V,
    step_unary ops_writes 38 (y := main_v25) (by rfl) (by decide) (by decide) V,
    step_unary ops_writes 35 (y := main_v23) (by rfl) (by decide) (by decide) V,
    step_nullary ops_writes 34 (y := main_cst_5) (by rfl) (by decide) V,
    step_unary ops_writes 41 (y := main_v27) (by rfl) (by decide) (by decide) V,
    step_nullary ops_writes 40 (y := main_cst_7) (by rfl) (by decide) V,
    step_unary ops_writes 54 (y := main_v38) (by rfl) (by decide) (by decide) V,
    step_ternary ops_writes 53 (y := main_v37) (by rfl) (by decide) (by decide) (by decide) (by decide) V,
    step_binary ops_writes 49 (y := main_v34) (by rfl) (by decide) (by decide) (by decide) V,
    step_unary ops_writes 48 (y := main_v33) (by rfl) (by decide) (by decide) V,
    step_nullary ops_writes 47 (y := main_c_8) (by rfl) (by decide) V,
    step_binary ops_writes 52 (y := main_v36) (by rfl) (by decide) (by decide) (by decide) V,
    step_unary ops_writes 51 (y := main_v35) (by rfl) (by decide) (by decide) V,
    step_nullary ops_writes 50 (y := main_c_9) (by rfl) (by decide) V,
    step_unary ops_writes 57 (y := main_v40) (by rfl) (by decide) (by decide) V,
    step_nullary ops_writes 56 (y := main_cst_10) (by rfl) (by decide) V,
    arg14_kept V,
    arg0_kept V,
    arg15_kept V]
  rfl

/-- The relative position of every edge: the normalised coordinates looked up at the wrapped source row minus those
    looked up at the wrapped target row. -/
theorem v62_relPos (V : Valuation τ sig (Elt F)) :
    after ops V (main_v62 : DevRef τ sig) = Cert.KernelIdeal.Shared.relPos (Cert.KernelIdeal.Shared.coords (V (main_arg0 : DevRef τ sig)) (V (main_arg14 : DevRef τ sig)) (V (main_arg15 : DevRef τ sig))) (Cert.KernelIdeal.Shared.srcRow (V (main_arg16 : DevRef τ sig))) (Cert.KernelIdeal.Shared.tgtRow (V (main_arg16 : DevRef τ sig))) := by
  rw [step_binary ops_writes 83 (y := main_v62) (by rfl) (by decide) (by decide) (by decide) V,
    step_binary ops_writes 73 (y := main_v54) (by rfl) (by decide) (by decide) (by decide) V,
    step_unary ops_writes 72 (y := main_v53) (by rfl) (by decide) (by decide) V,
    step_ternary ops_writes 71 (y := main_v52) (by rfl) (by decide) (by decide) (by decide) (by decide) V,
    step_binary ops_writes 67 (y := main_v49) (by rfl) (by decide) (by decide) (by decide) V,
    step_unary ops_writes 66 (y := main_v48) (by rfl) (by decide) (by decide) V,
    step_nullary ops_writes 65 (y := main_c_11) (by rfl) (by decide) V,
    step_binary ops_writes 70 (y := main_v51) (by rfl) (by decide) (by decide) (by decide) V,
    step_unary ops_writes 69 (y := main_v50) (by rfl) (by decide) (by decide) V,
    step_nullary ops_writes 68 (y := main_c_12) (by rfl) (by decide) V,
    step_binary ops_writes 82 (y := main_v61) (by rfl) (by decide) (by decide) (by decide) V,
    step_unary ops_writes 81 (y := main_v60) (by rfl) (by decide) (by decide) V,
    step_ternary ops_writes 80 (y := main_v59) (by rfl) (by decide) (by decide) (by decide) (by decide) V,
    step_binary ops_writes 76 (y := main_v56) (by rfl) (by decide) (by decide) (by decide) V,
    step_unary ops_writes 75 (y := main_v55) (by rfl) (by decide) (by decide) V,
    step_nullary ops_writes 74 (y := main_c_13) (by rfl) (by decide) V,
    step_binary ops_writes 79 (y := main_v58) (by rfl) (by decide) (by decide) (by decide) V,
    step_unary ops_writes 78 (y := main_v57) (by rfl) (by decide) (by decide) V,
    step_nullary ops_writes 77 (y := main_c_14) (by rfl) (by decide) V,
    v43_coords, v45_src, v47_tgt]
  rfl

end Cert.ReferenceIdeal.RefShared

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«144983_j80272938762991_1_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.RefChainValue.lean ====
/-
  The reference's per-edge chain of whole-array operations, read entry by entry at the ideal values.

  The chain is a nest of array operations over all 320000 edges: a sum of squares over the three spatial coordinates,
  five arrays laid side by side, four dense layers with two activations, a clip, and a final scaling. Read at one
  entry (e, a, k), every operation either acts entry by entry, or is a sum along one axis (the reduction, the dense
  layers), or only re-indexes (the concatenation and the broadcasts). Reading them one after another gives, at every
  entry, the per-edge expression of the edge's message; so the whole array is the array of per-edge messages.
-/
import Idealize.ShloMosaic.Lib.StackMember
import Idealize.ShloMosaic.Lib.ValueIdx
import Idealize.ShloMosaic.Lib.Pipeline.Value
import Idealize.ShloMosaic.PureOps.Ideal.Laws
import Idealize.ShloMosaic.Lib.IdealHost
import proofs.«144983_j80272938762991_1_alg».proof.Proof.LibRowOps
import proofs.«144983_j80272938762991_1_alg».proof.Proof.EdgeSpec
import proofs.«144983_j80272938762991_1_alg».proof.Proof.RefChain

noncomputable section

open scoped BigOperators

namespace Cert.ReferenceIdeal.RefValue

open Cert.ReferenceIdeal Cert.ReferenceIdeal.Facts₀ Idealize.ShloMosaic Idealize.ShloMosaic.ValueIdx

/-! ## Re-indexing operations at an entry -/

/-- A scalar constant spread over any shape reads the constant's value everywhere. -/
theorem splat_apply {t : Shape} (w : BitVec FTy.f32.bits) (h : (⟨0, ![]⟩ : Shape).BroadcastsInDim t ![]) (j : t.Idx) :
    broadcastInDim t ![] h (constant (F := Ideal) ⟨0, ![]⟩ .f32 w) j = Ideal.ofBits .f32 w := rfl

/-- An [E, c] array given a unit middle axis reads, at (e, u, k), the array at (e, k). -/
theorem bcastMid_apply {E c : Nat} {α : Type} (v : (⟨2, ![E, c]⟩ : Shape).Idx → α)
    (h : (⟨2, ![E, c]⟩ : Shape).BroadcastsInDim ⟨3, ![E, 1, c]⟩ ![0, 2]) (e : Fin E) (u : Fin 1) (k : Fin c) :
    broadcastInDim ⟨3, ![E, 1, c]⟩ ![0, 2] h v (ix3 e u k) = v (ix2 e k) := by
  refine broadcastInDim_apply ![0, 2] h v (ix3 e u k) (ix2 e k) fun ax => ?_
  match ax with
  | ⟨0, _⟩ =>
    show e.val = if E = 1 then 0 else e.val
    split
    · have := e.isLt; omega
    · rfl
  | ⟨1, _⟩ =>
    show k.val = if c = 1 then 0 else k.val
    split
    · have := k.isLt; omega
    · rfl

/-- An [E, 1, c] array repeated along its middle axis reads, at (e, a, k), the array at (e, 0, k). -/
theorem bcastRep_apply {E n c : Nat} {α : Type} (v : (⟨3, ![E, 1, c]⟩ : Shape).Idx → α)
    (h : (⟨3, ![E, 1, c]⟩ : Shape).BroadcastsInDim ⟨3, ![E, n, c]⟩ ![0, 1, 2]) (e : Fin E) (a : Fin n) (k : Fin c) :
    broadcastInDim ⟨3, ![E, n, c]⟩ ![0, 1, 2] h v (ix3 e a k) = v (ix3 e (0 : Fin 1) k) := by
  refine broadcastInDim_apply ![0, 1, 2] h v (ix3 e a k) (ix3 e (0 : Fin 1) k) fun ax => ?_
  match ax with
  | ⟨0, _⟩ =>
    show e.val = if E = 1 then 0 else e.val
    split
    · have := e.isLt; omega
    · rfl
  | ⟨1, _⟩ => rfl
  | ⟨2, _⟩ =>
    show k.val = if c = 1 then 0 else k.val
    split
    · have := k.isLt; omega
    · rfl

/-! ## The sum over the middle axis -/

/-- The host's sum over the middle axis of an [E, n, c] array from a scalar initial value, at (e, k). -/
theorem host_midsum_apply {E n c : Nat} (v : FVec Ideal ⟨3, ![E, n, c]⟩ .f32) (init : FVec Ideal ⟨0, ![]⟩ .f32)
    (h' : (⟨3, ![E, n, c]⟩ : Shape).ReducesTo [1] ⟨2, ![E, c]⟩) (h : (⟨3, ![E, n, c]⟩ : Shape).Reduces [1] ⟨2, ![E, c]⟩)
    (hu : 0 < (⟨0, ![]⟩ : Shape).numel) (e : Fin E) (k : Fin c) :
    Host.reduceAdd v init h' hu (ix2 e k) = init ix0 + ∑ a : Fin n, v (ix3 e a k) := by
  show Ideal.hostReduceAdd h' v (init (Shape.Idx.first hu)) (ix2 e k) = _
  rw [Ideal.hostReduceAdd_single h' h, eq_ix0 (Shape.Idx.first hu)]
  refine congrArg (_ + ·) (Finset.sum_congr rfl fun q _ => congrArg v (funext fun ax => Fin.ext ?_))
  match ax with
  | ⟨0, _⟩ => rfl
  | ⟨1, _⟩ => rfl
  | ⟨2, _⟩ => rfl

/-! ## A sum over 384 terms as five sums -/

/-- A sum over 384 = 64 + 64 + 64 + 128 + 64 terms is the sum of the sums over the five stretches. -/
theorem sum384 {M : Type} [AddCommMonoid M] (f : Fin 384 → M) :
    ∑ r, f r = ((((∑ q : Fin 64, f (Cert.Edge.row 0 (by decide) q)) + ∑ q : Fin 64, f (Cert.Edge.row 64 (by decide) q))
        + ∑ q : Fin 64, f (Cert.Edge.row 128 (by decide) q)) + ∑ q : Fin 128, f (Cert.Edge.row 192 (by decide) q))
        + ∑ q : Fin 64, f (Cert.Edge.row 320 (by decide) q) := by
  have h4 := Fin.sum_univ_add (a := 64 + 64 + 64 + 128) (b := 64) f
  have h3 := Fin.sum_univ_add (a := 64 + 64 + 64) (b := 128) fun i => f (Fin.castAdd 64 i)
  have h2 := Fin.sum_univ_add (a := 64 + 64) (b := 64) fun i => f (Fin.castAdd 64 (Fin.castAdd 128 i))
  have h1 := Fin.sum_univ_add (a := 64) (b := 64) fun i => f (Fin.castAdd 64 (Fin.castAdd 128 (Fin.castAdd 64 i)))
  refine h4.trans ?_
  rw [h3, h2, h1]
  refine congrArg₂ (· + ·) (congrArg₂ (· + ·) (congrArg₂ (· + ·) (congrArg₂ (· + ·) ?_ ?_) ?_) ?_) ?_
  · exact Finset.sum_congr rfl fun q _ => congrArg f (Fin.ext (Nat.zero_add _).symm)
  · exact Finset.sum_congr rfl fun q _ => congrArg f (Fin.ext rfl)
  · exact Finset.sum_congr rfl fun q _ => congrArg f (Fin.ext rfl)
  · exact Finset.sum_congr rfl fun q _ => congrArg f (Fin.ext rfl)
  · exact Finset.sum_congr rfl fun q _ => congrArg f (Fin.ext rfl)

/-! ## The five arrays side by side -/

/-- Column 0 + q of the five arrays laid side by side is column q of the first one. -/
theorem cat_piece0 {E : Nat} {α : Type} (x0 x1 x2 : (⟨2, ![E, 64]⟩ : Shape).Idx → α) (x3 : (⟨2, ![E, 128]⟩ : Shape).Idx → α)
    (x4 : (⟨2, ![E, 64]⟩ : Shape).Idx → α)
    (h : Shape.Concatenates [(⟨2, ![E, 64]⟩ : Shape), ⟨2, ![E, 64]⟩, ⟨2, ![E, 64]⟩, ⟨2, ![E, 128]⟩, ⟨2, ![E, 64]⟩] ⟨2, ![E, 384]⟩ 1)
    (e : Fin E) (q : Fin 64) :
    concatenate ⟨2, ![E, 384]⟩ 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
        (ix2 e (Cert.Edge.row 0 (by decide) q)) = x0 (ix2 e q) := by
  refine concatenate_apply_piece (t := ⟨2, ![E, 384]⟩) 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
    (ix2 e (Cert.Edge.row 0 (by decide) q)) 0 (by show (0 : ℕ) < 5; omega) ⟨2, ![E, 64]⟩ x0 rfl rfl 0 rfl (ix2 e q) (fun b hb => ?_) rfl
  match b with
  | ⟨0, _⟩ => rfl
  | ⟨1, _⟩ => exact absurd rfl hb

/-- Column 64 + q of the five arrays laid side by side is column q of the second one. -/
theorem cat_piece1 {E : Nat} {α : Type} (x0 x1 x2 : (⟨2, ![E, 64]⟩ : Shape).Idx → α) (x3 : (⟨2, ![E, 128]⟩ : Shape).Idx → α)
    (x4 : (⟨2, ![E, 64]⟩ : Shape).Idx → α)
    (h : Shape.Concatenates [(⟨2, ![E, 64]⟩ : Shape), ⟨2, ![E, 64]⟩, ⟨2, ![E, 64]⟩, ⟨2, ![E, 128]⟩, ⟨2, ![E, 64]⟩] ⟨2, ![E, 384]⟩ 1)
    (e : Fin E) (q : Fin 64) :
    concatenate ⟨2, ![E, 384]⟩ 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
        (ix2 e (Cert.Edge.row 64 (by decide) q)) = x1 (ix2 e q) := by
  refine concatenate_apply_piece (t := ⟨2, ![E, 384]⟩) 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
    (ix2 e (Cert.Edge.row 64 (by decide) q)) 1 (by show (1 : ℕ) < 5; omega) ⟨2, ![E, 64]⟩ x1 rfl rfl 64 rfl (ix2 e q) (fun b hb => ?_) rfl
  match b with
  | ⟨0, _⟩ => rfl
  | ⟨1, _⟩ => exact absurd rfl hb

/-- Column 128 + q of the five arrays laid side by side is column q of the third one. -/
theorem cat_piece2 {E : Nat} {α : Type} (x0 x1 x2 : (⟨2, ![E, 64]⟩ : Shape).Idx → α) (x3 : (⟨2, ![E, 128]⟩ : Shape).Idx → α)
    (x4 : (⟨2, ![E, 64]⟩ : Shape).Idx → α)
    (h : Shape.Concatenates [(⟨2, ![E, 64]⟩ : Shape), ⟨2, ![E, 64]⟩, ⟨2, ![E, 64]⟩, ⟨2, ![E, 128]⟩, ⟨2, ![E, 64]⟩] ⟨2, ![E, 384]⟩ 1)
    (e : Fin E) (q : Fin 64) :
    concatenate ⟨2, ![E, 384]⟩ 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
        (ix2 e (Cert.Edge.row 128 (by decide) q)) = x2 (ix2 e q) := by
  refine concatenate_apply_piece (t := ⟨2, ![E, 384]⟩) 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
    (ix2 e (Cert.Edge.row 128 (by decide) q)) 2 (by show (2 : ℕ) < 5; omega) ⟨2, ![E, 64]⟩ x2 rfl rfl 128 rfl (ix2 e q) (fun b hb => ?_) rfl
  match b with
  | ⟨0, _⟩ => rfl
  | ⟨1, _⟩ => exact absurd rfl hb

/-- Column 192 + q of the five arrays laid side by side is column q of the fourth one. -/
theorem cat_piece3 {E : Nat} {α : Type} (x0 x1 x2 : (⟨2, ![E, 64]⟩ : Shape).Idx → α) (x3 : (⟨2, ![E, 128]⟩ : Shape).Idx → α)
    (x4 : (⟨2, ![E, 64]⟩ : Shape).Idx → α)
    (h : Shape.Concatenates [(⟨2, ![E, 64]⟩ : Shape), ⟨2, ![E, 64]⟩, ⟨2, ![E, 64]⟩, ⟨2, ![E, 128]⟩, ⟨2, ![E, 64]⟩] ⟨2, ![E, 384]⟩ 1)
    (e : Fin E) (q : Fin 128) :
    concatenate ⟨2, ![E, 384]⟩ 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
        (ix2 e (Cert.Edge.row 192 (by decide) q)) = x3 (ix2 e q) := by
  refine concatenate_apply_piece (t := ⟨2, ![E, 384]⟩) 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
    (ix2 e (Cert.Edge.row 192 (by decide) q)) 3 (by show (3 : ℕ) < 5; omega) ⟨2, ![E, 128]⟩ x3 rfl rfl 192 rfl (ix2 e q) (fun b hb => ?_) rfl
  match b with
  | ⟨0, _⟩ => rfl
  | ⟨1, _⟩ => exact absurd rfl hb

/-- Column 320 + q of the five arrays laid side by side is column q of the fifth one. -/
theorem cat_piece4 {E : Nat} {α : Type} (x0 x1 x2 : (⟨2, ![E, 64]⟩ : Shape).Idx → α) (x3 : (⟨2, ![E, 128]⟩ : Shape).Idx → α)
    (x4 : (⟨2, ![E, 64]⟩ : Shape).Idx → α)
    (h : Shape.Concatenates [(⟨2, ![E, 64]⟩ : Shape), ⟨2, ![E, 64]⟩, ⟨2, ![E, 64]⟩, ⟨2, ![E, 128]⟩, ⟨2, ![E, 64]⟩] ⟨2, ![E, 384]⟩ 1)
    (e : Fin E) (q : Fin 64) :
    concatenate ⟨2, ![E, 384]⟩ 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
        (ix2 e (Cert.Edge.row 320 (by decide) q)) = x4 (ix2 e q) := by
  refine concatenate_apply_piece (t := ⟨2, ![E, 384]⟩) 1 [⟨⟨2, ![E, 64]⟩, x0⟩, ⟨⟨2, ![E, 64]⟩, x1⟩, ⟨⟨2, ![E, 64]⟩, x2⟩, ⟨⟨2, ![E, 128]⟩, x3⟩, ⟨⟨2, ![E, 64]⟩, x4⟩] h
    (ix2 e (Cert.Edge.row 320 (by decide) q)) 4 (by show (4 : ℕ) < 5; omega) ⟨2, ![E, 64]⟩ x4 rfl rfl 320 rfl (ix2 e q) (fun b hb => ?_) rfl
  match b with
  | ⟨0, _⟩ => rfl
  | ⟨1, _⟩ => exact absurd rfl hb

/-! ## Entry-by-entry operations of the host that Lib/ValueIdx.lean does not list -/

/-- The host's exponential at an index. -/
theorem hostExp_apply {s : Shape} (x : FVec Ideal s .f32) (i : s.Idx) : Host.exp x i = Ideal.exp (x i) := rfl
/-- The host's negation at an index. -/
theorem hostNegf_apply {s : Shape} (x : FVec Ideal s .f32) (i : s.Idx) : Host.negf x i = -(x i) := rfl
/-- The host's square root at an index. -/
theorem hostSqrt_apply {s : Shape} (x : FVec Ideal s .f32) (i : s.Idx) : Host.sqrt x i = Ideal.sqrt (x i) := rfl

/-! ## The stages of the chain, named -/

variable [Facts]

/-- The squared length per edge and channel: the sum of squares over the three spatial coordinates. -/
def rdA (rel : FVec Ideal S320000x3x128 .f32) : FVec Ideal S320000x128 .f32 :=
  Host.reduceAdd (mulf rel rel) (constant S_ .f32 0x00000000#32) reducesTo_S320000x3x128_S320000x128_d1 h_S_

/-- The first dense layer on the five arrays side by side. -/
def h1A (ht hs ea te : FVec Ideal S320000x64 .f32) (rd : FVec Ideal S320000x128 .f32) (wm1 : FVec Ideal S384x64 .f32)
    (bm1 : FVec Ideal S64 .f32) : FVec Ideal S320000x64 .f32 :=
  addf (Host.dotGeneral dot_S320000x384_S384x64_S320000x64_1_0_0_1_n_n none (concatenate S320000x384 1 [⟨S320000x64, ht⟩, ⟨S320000x64, hs⟩, ⟨S320000x64, ea⟩, ⟨S320000x128, rd⟩, ⟨S320000x64, te⟩] concatenates_S320000x64_S320000x64_S320000x64_S320000x128_S320000x64_S320000x384_d1) wm1) (broadcastInDim S320000x64 ![0, 1] bcast_S1x64_S320000x64_0_1 (broadcastInDim S1x64 ![1] bcast_S64_S1x64_1 bm1))

/-- The activation x · 1 / (1 + exp (−x)) over a whole array. -/
def silu64 (x : FVec Ideal S320000x64 .f32) : FVec Ideal S320000x64 .f32 :=
  mulf x (Host.divf (broadcastInDim S320000x64 ![] bcast_S_S320000x64 (constant S_ .f32 0x3F800000#32)) (addf (broadcastInDim S320000x64 ![] bcast_S_S320000x64 (constant S_ .f32 0x3F800000#32)) (Host.exp (Host.negf x))))

/-- A dense layer from 64 to 64 features. -/
def aff64 (x : FVec Ideal S320000x64 .f32) (w : FVec Ideal S64x64 .f32) (b : FVec Ideal S64 .f32) : FVec Ideal S320000x64 .f32 :=
  addf (Host.dotGeneral dot_S320000x64_S64x64_S320000x64_1_0_0_1_n_n none x w) (broadcastInDim S320000x64 ![0, 1] bcast_S1x64_S320000x64_0_1 (broadcastInDim S1x64 ![1] bcast_S64_S1x64_1 b))

/-- A dense layer from 64 features to 128 channels. -/
def aff128 (x : FVec Ideal S320000x64 .f32) (w : FVec Ideal S64x128 .f32) (b : FVec Ideal S128 .f32) : FVec Ideal S320000x128 .f32 :=
  addf (Host.dotGeneral dot_S320000x64_S64x128_S320000x128_1_0_0_1_n_n none x w) (broadcastInDim S320000x128 ![0, 1] bcast_S1x128_S320000x128_0_1 (broadcastInDim S1x128 ![1] bcast_S128_S1x128_1 b))

/-- The clip to [-10, 10]: the lower bound first, then the upper. -/
def clipA (x : FVec Ideal S320000x128 .f32) : FVec Ideal S320000x128 .f32 :=
  minimumf (broadcastInDim S320000x128 ![] bcast_S_S320000x128 (id (constant S_ .f32 0x41200000#32))) (maximumf (broadcastInDim S320000x128 ![] bcast_S_S320000x128 (id (constant S_ .f32 0xC1200000#32))) x)

/-- The last step: the relative position over 1 + √(rd + ε), times the gate, both repeated along the spatial axis. -/
def finalA (rel : FVec Ideal S320000x3x128 .f32) (rd g : FVec Ideal S320000x128 .f32) : FVec Ideal S320000x3x128 .f32 :=
  mulf (Host.divf rel (broadcastInDim S320000x3x128 ![0, 1, 2] bcast_S320000x1x128_S320000x3x128_0_1_2 (addf (broadcastInDim S320000x1x128 ![] bcast_S_S320000x1x128 (constant S_ .f32 0x3F800000#32)) (Host.sqrt (addf (broadcastInDim S320000x1x128 ![0, 2] bcast_S320000x128_S320000x1x128_0_2 rd) (broadcastInDim S320000x1x128 ![] bcast_S_S320000x1x128 (constant S_ .f32 0x322BCC77#32))))))) (broadcastInDim S320000x3x128 ![0, 1, 2] bcast_S320000x1x128_S320000x3x128_0_1_2 (broadcastInDim S320000x1x128 ![0, 2] bcast_S320000x128_S320000x1x128_0_2 g))

/-- The chain is the composition of the named stages (the same term, with its repeated parts named). -/
theorem refChain_eq_stages (ht hs ea te : FVec Ideal S320000x64 .f32) (rel : FVec Ideal S320000x3x128 .f32)
    (wm1 : FVec Ideal S384x64 .f32) (bm1 : FVec Ideal S64 .f32) (wm2 : FVec Ideal S64x64 .f32) (bm2 : FVec Ideal S64 .f32)
    (wx1 : FVec Ideal S64x64 .f32) (bx1 : FVec Ideal S64 .f32) (wx2 : FVec Ideal S64x128 .f32) (bx2 : FVec Ideal S128 .f32) :
    Cert.ReferenceIdeal.RefRun.refChain (F := Ideal) ht hs ea te rel wm1 bm1 wm2 bm2 wx1 bx1 wx2 bx2
      = finalA rel (rdA rel) (clipA (aff128 (silu64 (aff64 (aff64 (silu64 (h1A ht hs ea te (rdA rel) wm1 bm1)) wm2 bm2) wx1 bx1)) wx2 bx2)) := rfl

/-! ## Each stage at an entry -/

/-- The squared length at (e, k). -/
theorem rdA_apply (rel : FVec Ideal S320000x3x128 .f32) (e : Fin 320000) (k : Fin 128) :
    rdA rel (ix2 e k) = Cert.Edge.sqLen (fun a k' => rel (ix3 e a k')) k := by
  unfold rdA
  rw [host_midsum_apply _ _ _ (by decide)]
  show Ideal.ofBits .f32 0x00000000#32 + ∑ a : Fin 3, rel (ix3 e a k) * rel (ix3 e a k) = ∑ a : Fin 3, rel (ix3 e a k) * rel (ix3 e a k)
  rw [Ideal.ofBits_zero_f32, zero_add]

/-- The activation at an index. -/
theorem silu64_apply (x : FVec Ideal S320000x64 .f32) (i : S320000x64.Idx) : silu64 x i = Cert.Edge.silu (x i) := by
  show x i * Ideal.div (Ideal.ofBits .f32 0x3F800000#32) (Ideal.ofBits .f32 0x3F800000#32 + Ideal.exp (-(x i)))
      = x i * Ideal.div 1 (1 + Ideal.exp (-(x i)))
  rw [Ideal.ofBits_one_f32]

/-- A 64-to-64 dense layer at (e, d). -/
theorem aff64_apply (x : FVec Ideal S320000x64 .f32) (w : FVec Ideal S64x64 .f32) (b : FVec Ideal S64 .f32) (e : Fin 320000) (d : Fin 64) :
    aff64 x w b (ix2 e d) = Cert.Edge.layer (fun q => x (ix2 e q)) (fun q d' => w (ix2 q d')) (fun d' => b (ix1 d')) d := by
  unfold aff64
  exact Cert.LibRowOps.host_affine_apply _ rfl none x w b _ _ e d

/-- The 64-to-128 dense layer at (e, k). -/
theorem aff128_apply (x : FVec Ideal S320000x64 .f32) (w : FVec Ideal S64x128 .f32) (b : FVec Ideal S128 .f32) (e : Fin 320000) (k : Fin 128) :
    aff128 x w b (ix2 e k) = Cert.Edge.layer (fun q => x (ix2 e q)) (fun q d' => w (ix2 q d')) (fun d' => b (ix1 d')) k := by
  unfold aff128
  exact Cert.LibRowOps.host_affine_apply _ rfl none x w b _ _ e k

/-- The clip at an index. -/
theorem clipA_apply (x : FVec Ideal S320000x128 .f32) (i : S320000x128.Idx) :
    clipA x i = min (Ideal.ofBits .f32 0x41200000#32) (max (Ideal.ofBits .f32 0xC1200000#32) (x i)) := rfl

/-- The first dense layer at (e, d): five partial inner products, one per stretch of the 384 columns, plus the bias. -/
theorem h1A_apply (ht hs ea te : FVec Ideal S320000x64 .f32) (rd : FVec Ideal S320000x128 .f32) (wm1 : FVec Ideal S384x64 .f32)
    (bm1 : FVec Ideal S64 .f32) (e : Fin 320000) (d : Fin 64) :
    h1A ht hs ea te rd wm1 bm1 (ix2 e d)
      = Cert.Edge.hpre (fun q => ht (ix2 e q)) (fun q => hs (ix2 e q)) (fun q => ea (ix2 e q)) (fun q => te (ix2 e q))
          (fun q => rd (ix2 e q))
          (fun q d' => wm1 (ix2 (Cert.Edge.row 0 (by decide) q) d')) (fun q d' => wm1 (ix2 (Cert.Edge.row 64 (by decide) q) d'))
          (fun q d' => wm1 (ix2 (Cert.Edge.row 128 (by decide) q) d')) (fun q d' => wm1 (ix2 (Cert.Edge.row 192 (by decide) q) d'))
          (fun q d' => wm1 (ix2 (Cert.Edge.row 320 (by decide) q) d')) (fun d' => bm1 (ix1 d')) d := by
  unfold h1A
  rw [Cert.LibRowOps.host_affine_apply dot_S320000x384_S384x64_S320000x64_1_0_0_1_n_n rfl, sum384]
  simp only [cat_piece0, cat_piece1, cat_piece2, cat_piece3, cat_piece4]
  rfl

/-- The last step at (e, a, k). -/
theorem finalA_apply (rel : FVec Ideal S320000x3x128 .f32) (rd g : FVec Ideal S320000x128 .f32) (e : Fin 320000) (a : Fin 3) (k : Fin 128) :
    finalA rel rd g (ix3 e a k)
      = Ideal.div (rel (ix3 e a k)) (Ideal.ofBits .f32 0x3F800000#32 + Ideal.sqrt (rd (ix2 e k) + Ideal.ofBits .f32 0x322BCC77#32))
          * g (ix2 e k) := by
  unfold finalA
  rw [mulf_apply, hostDivf_apply, bcastRep_apply, bcastRep_apply, bcastMid_apply, addf_apply, splat_apply, hostSqrt_apply,
    addf_apply, bcastMid_apply, splat_apply]

/-! ## The whole chain -/

/-- The reference's chain over all edges is the array of per-edge messages. -/
theorem refChain_eq_G (ht hs ea te : (⟨S320000x64, .f32⟩ : BufTy).Contents (Elt Ideal)) (rel : (⟨S320000x3x128, .f32⟩ : BufTy).Contents (Elt Ideal))
    (wm1 : (⟨S384x64, .f32⟩ : BufTy).Contents (Elt Ideal)) (bm1 : (⟨S64, .f32⟩ : BufTy).Contents (Elt Ideal))
    (wm2 : (⟨S64x64, .f32⟩ : BufTy).Contents (Elt Ideal)) (bm2 : (⟨S64, .f32⟩ : BufTy).Contents (Elt Ideal))
    (wx1 : (⟨S64x64, .f32⟩ : BufTy).Contents (Elt Ideal)) (bx1 : (⟨S64, .f32⟩ : BufTy).Contents (Elt Ideal))
    (wx2 : (⟨S64x128, .f32⟩ : BufTy).Contents (Elt Ideal)) (bx2 : (⟨S128, .f32⟩ : BufTy).Contents (Elt Ideal)) :
    Cert.ReferenceIdeal.RefRun.refChain (F := Ideal) ht hs ea te rel wm1 bm1 wm2 bm2 wx1 bx1 wx2 bx2
      = Cert.Edge.G ht hs ea te rel wm1 bm1 wm2 bm2 wx1 bx1 wx2 bx2 := by
  funext j
  obtain ⟨e, a, k, rfl⟩ : ∃ (e : Fin 320000) (a : Fin 3) (k : Fin 128), j = ix3 e a k := ⟨j 0, j 1, j 2, eq_ix3 j⟩
  rw [Cert.Edge.G_apply, refChain_eq_stages, finalA_apply, rdA_apply, clipA_apply, aff128_apply]
  simp only [silu64_apply, aff64_apply, h1A_apply, rdA_apply]
  rfl

end Cert.ReferenceIdeal.RefValue

end
-- ==== Proof.lean ====
/-
  The certificate's five claims.

  Both programs normalise the node coordinates and the node features, look them up at the two ends of every edge, form
  every edge's message, add the messages up at the edges' target nodes and add the sums to the normalised coordinates.
  They differ in the middle only: one program forms the messages in a tiled region, 1600 edges at a time, the other with
  whole-array operations. At the ideal values each entry of the array of messages is the same function of the same
  rows on both sides — the tiled region's by reading its output block entry by entry and the blocks back into the
  array, the whole-array program's by reading its operations at an index, the one real difference (a sum over 384
  inputs against five partial sums) being a regrouping of a finite sum — and everything around the messages is the
  same term of the arguments.
-/
import proofs.«144983_j80272938762991_1_alg».proof.Defs
import proofs.«144983_j80272938762991_1_alg».proof.Proof.Gen.Kernel
import proofs.«144983_j80272938762991_1_alg».proof.Proof.Gen.Kernel.Frame
import proofs.«144983_j80272938762991_1_alg».proof.Proof.Gen.KernelIdeal
import proofs.«144983_j80272938762991_1_alg».proof.Proof.Gen.KernelIdeal.Frame
import proofs.«144983_j80272938762991_1_alg».proof.Proof.Gen.ReferenceIdeal
import proofs.«144983_j80272938762991_1_alg».proof.Proof.Gen.Pre_finite_inputs
import proofs.«144983_j80272938762991_1_alg».proof.Proof.KernelValue
import proofs.«144983_j80272938762991_1_alg».proof.Proof.KernelLineCoords
import proofs.«144983_j80272938762991_1_alg».proof.Proof.KernelLine
import proofs.«144983_j80272938762991_1_alg».proof.Proof.RefRun
import proofs.«144983_j80272938762991_1_alg».proof.Proof.RefSharedFeats
import proofs.«144983_j80272938762991_1_alg».proof.Proof.RefSharedCoords
import proofs.«144983_j80272938762991_1_alg».proof.Proof.RefChainValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of whole-array operations none of which writes an argument array. -/
theorem frame_reference : Cert.frame_ReferenceIdeal := fun m ρ _ =>
  (θ_run Cert.ReferenceIdeal.defs _ _).mono (fun _ h c => ⟨
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _),
      (h c Cert.ReferenceIdeal.main_arg15).trans (Cert.ReferenceIdeal.RefRun.arg15_kept _),
      (h c Cert.ReferenceIdeal.main_arg16).trans (Cert.ReferenceIdeal.RefRun.arg16_kept _)⟩)
    (Cert.ReferenceIdeal.RefRun.run_main (F := Ideal) m ρ)

/-- Nothing of the kernel was rewritten for the ideal reading. -/
theorem preserves : Cert.preserves_Kernel_KernelIdeal := trivial

/-- Both programs end with the normalised coordinates plus the messages summed at the edges' targets; the array of
    messages is, entry by entry, the one function of the edge's rows on both sides, and everything else is the same
    term of arguments that agree. -/
theorem algebraic : Cert.algebraic_KernelIdeal_ReferenceIdeal := by
  intro m ρ m' ρ' _ hagree
  refine ⟨_, Cert.KernelIdeal.KValue.run_value m ρ, ?_⟩
  refine (θ_run Cert.ReferenceIdeal.defs _ _).mono (fun _ h c => ⟨(h c Cert.ReferenceIdeal.main_v131).trans ?_,
      (h c Cert.ReferenceIdeal.main_arg0).trans (Cert.ReferenceIdeal.RefRun.arg0_kept _),
      (h c Cert.ReferenceIdeal.main_arg1).trans (Cert.ReferenceIdeal.RefRun.arg1_kept _),
      (h c Cert.ReferenceIdeal.main_arg2).trans (Cert.ReferenceIdeal.RefRun.arg2_kept _),
      (h c Cert.ReferenceIdeal.main_arg3).trans (Cert.ReferenceIdeal.RefRun.arg3_kept _),
      (h c Cert.ReferenceIdeal.main_arg4).trans (Cert.ReferenceIdeal.RefRun.arg4_kept _),
      (h c Cert.ReferenceIdeal.main_arg5).trans (Cert.ReferenceIdeal.RefRun.arg5_kept _),
      (h c Cert.ReferenceIdeal.main_arg6).trans (Cert.ReferenceIdeal.RefRun.arg6_kept _),
      (h c Cert.ReferenceIdeal.main_arg7).trans (Cert.ReferenceIdeal.RefRun.arg7_kept _),
      (h c Cert.ReferenceIdeal.main_arg8).trans (Cert.ReferenceIdeal.RefRun.arg8_kept _),
      (h c Cert.ReferenceIdeal.main_arg9).trans (Cert.ReferenceIdeal.RefRun.arg9_kept _),
      (h c Cert.ReferenceIdeal.main_arg10).trans (Cert.ReferenceIdeal.RefRun.arg10_kept _),
      (h c Cert.ReferenceIdeal.main_arg11).trans (Cert.ReferenceIdeal.RefRun.arg11_kept _),
      (h c Cert.ReferenceIdeal.main_arg12).trans (Cert.ReferenceIdeal.RefRun.arg12_kept _),
      (h c Cert.ReferenceIdeal.main_arg13).trans (Cert.ReferenceIdeal.RefRun.arg13_kept _),
      (h c Cert.ReferenceIdeal.main_arg14).trans (Cert.ReferenceIdeal.RefRun.arg14_kept _),
      (h c Cert.ReferenceIdeal.main_arg15).trans (Cert.ReferenceIdeal.RefRun.arg15_kept _),
      (h c Cert.ReferenceIdeal.main_arg16).trans (Cert.ReferenceIdeal.RefRun.arg16_kept _)⟩)
    (Cert.ReferenceIdeal.RefRun.run_main (F := Ideal) m' ρ')
  obtain ⟨e0, e1, e2, e3, e4, e5, e6, e7, e8, e9, e10, e11, e12, e13, e14, e15, e16⟩ := hagree c
  rw [Cert.ReferenceIdeal.RefRun.v131_eq, Cert.ReferenceIdeal.RefRun.v127_eq, Cert.ReferenceIdeal.RefValue.refChain_eq_G,
    Cert.ReferenceIdeal.RefShared.v43_coords, Cert.ReferenceIdeal.RefShared.v47_tgt, Cert.ReferenceIdeal.RefShared.v89_featsAt, Cert.ReferenceIdeal.RefShared.v96_featsAt, Cert.ReferenceIdeal.RefShared.v62_relPos,
    Cert.KernelIdeal.KLine.V_coords, Cert.KernelIdeal.KLine.V_tgt]
  unfold Cert.KernelIdeal.KValue.contribK
  rw [Cert.KernelIdeal.KLine.V_featsTgt, Cert.KernelIdeal.KLine.V_featsSrc, Cert.KernelIdeal.KLine.V_rel]
  show _ = _
  simp only [StableHlo.launchContents]
  rw [show m' (c, Proc.devRef .tc Cert.ReferenceIdeal.main_arg0) = _ from e0, show m' (c, Proc.devRef .tc Cert.ReferenceIdeal.main_arg1) = _ from e1,
    show m' (c, Proc.devRef .tc Cert.ReferenceIdeal.main_arg2) = _ from e2, show m' (c, Proc.devRef .tc Cert.ReferenceIdeal.main_arg3) = _ from e3,
    show m' (c, Proc.devRef .tc Cert.ReferenceIdeal.main_arg4) = _ from e4, show m' (c, Proc.devRef .tc Cert.ReferenceIdeal.main_arg5) = _ from e5,
    show m' (c, Proc.devRef .tc Cert.ReferenceIdeal.main_arg6) = _ from e6, show m' (c, Proc.devRef .tc Cert.ReferenceIdeal.main_arg7) = _ from e7,
    show m' (c, Proc.devRef .tc Cert.ReferenceIdeal.main_arg8) = _ from e8, show m' (c, Proc.devRef .tc Cert.ReferenceIdeal.main_arg9) = _ from e9,
    show m' (c, Proc.devRef .tc Cert.ReferenceIdeal.main_arg10) = _ from e10, show m' (c, Proc.devRef .tc Cert.ReferenceIdeal.main_arg11) = _ from e11,
    show m' (c, Proc.devRef .tc Cert.ReferenceIdeal.main_arg12) = _ from e12, show m' (c, Proc.devRef .tc Cert.ReferenceIdeal.main_arg13) = _ from e13,
    show m' (c, Proc.devRef .tc Cert.ReferenceIdeal.main_arg14) = _ from e14, show m' (c, Proc.devRef .tc Cert.ReferenceIdeal.main_arg15) = _ from e15,
    show m' (c, Proc.devRef .tc Cert.ReferenceIdeal.main_arg16) = _ from e16]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
